-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S1 : Shape := ⟨1, ![1]⟩
abbrev S2048x2048 : Shape := ⟨2, ![2048, 2048]⟩
abbrev S2048 : Shape := ⟨1, ![2048]⟩
abbrev S2048x345 : Shape := ⟨2, ![2048, 345]⟩
abbrev S345 : Shape := ⟨1, ![345]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1 : S_.BroadcastsInDim S1 (![] : Fin 0 → Fin S1.rank)
  reducesTo_S1_S_d0 : S1.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x345 : S_.BroadcastsInDim S2048x345 (![] : Fin 0 → Fin S2048x345.rank)
  reducesTo_S2048x345_S_d0_1 : S2048x345.ReducesTo [0, 1] S_
  bcast_S_S345 : S_.BroadcastsInDim S345 (![] : Fin 0 → Fin S345.rank)
  reducesTo_S345_S_d0 : S345.ReducesTo [0] S_

variable [Facts]

def fn_part5 {F : FTy → Type} [FloatOps F] (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  main_v88

def fn_part4 {F : FTy → Type} [FloatOps F] (main_arg17 : FVec F S2048x2048 .f32) (main_arg18 : FVec F S2048 .f32) (main_arg19 : FVec F S2048 .f32) (main_arg20 : FVec F S2048 .f32) (main_v63 : IVec S_ 1) (main_v67 : IVec S_ 1) : IVec S_ 1 :=
  let main_v68 : IVec S_ 1 := andi main_v63 main_v67
  let main_v69 : FVec F S2048x2048 .f32 := Host.absf main_arg17
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048 .f32 := Host.absf main_arg18
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg19
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg20
  let main_cst_32 : FVec F S_ .f32 := constant S_ .f32 0x7F800000#32
  fn_part5 (F := F) main_v83 main_v84 main_cst_32

def fn_part3 {F : FTy → Type} [FloatOps F] (main_arg14 : FVec F S2048 .f32) (main_arg15 : FVec F S2048 .f32) (main_arg16 : FVec F S2048 .f32) (main_arg17 : FVec F S2048x2048 .f32) (main_arg18 : FVec F S2048 .f32) (main_arg19 : FVec F S2048 .f32) (main_arg20 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg14
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg15
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg16
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg17 main_arg18 main_arg19 main_arg20 main_v63 main_v67

def fn_part2 {F : FTy → Type} [FloatOps F] (main_arg10 : FVec F S2048 .f32) (main_arg11 : FVec F S2048 .f32) (main_arg12 : FVec F S2048 .f32) (main_arg13 : FVec F S2048x2048 .f32) (main_arg14 : FVec F S2048 .f32) (main_arg15 : FVec F S2048 .f32) (main_arg16 : FVec F S2048 .f32) (main_arg17 : FVec F S2048x2048 .f32) (main_arg18 : FVec F S2048 .f32) (main_arg19 : FVec F S2048 .f32) (main_arg20 : FVec F S2048 .f32) (main_v33 : IVec S_ 1) : IVec S_ 1 :=
  let main_v34 : FVec F S2048 .f32 := Host.absf main_arg10
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg11
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg12
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg13
  let main_cst_18 : FVec F S_ .f32 := constant S_ .f32 0x7F800000#32
  let main_v50 : FVec F S2048x2048 .f32 := broadcastInDim S2048x2048 ![] bcast_S_S2048x2048 main_cst_18
  fn_part3 (F := F) main_arg14 main_arg15 main_arg16 main_arg17 main_arg18 main_arg19 main_arg20 main_v48 main_v49 main_v50

def fn_part1 {F : FTy → Type} [FloatOps F] (main_arg7 : FVec F S2048x345 .f32) (main_arg8 : FVec F S345 .f32) (main_arg9 : FVec F S2048x2048 .f32) (main_arg10 : FVec F S2048 .f32) (main_arg11 : FVec F S2048 .f32) (main_arg12 : FVec F S2048 .f32) (main_arg13 : FVec F S2048x2048 .f32) (main_arg14 : FVec F S2048 .f32) (main_arg15 : FVec F S2048 .f32) (main_arg16 : FVec F S2048 .f32) (main_arg17 : FVec F S2048x2048 .f32) (main_arg18 : FVec F S2048 .f32) (main_arg19 : FVec F S2048 .f32) (main_arg20 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x345 .f32 := Host.absf main_arg7
  let main_cst_6 : FVec F S_ .f32 := constant S_ .f32 0x7F800000#32
  let main_v20 : FVec F S2048x345 .f32 := broadcastInDim S2048x345 ![] bcast_S_S2048x345 main_cst_6
  let main_v21 : IVec S2048x345 1 := cmpf .olt main_v19 main_v20
  let main_c_7 : IVec S_ 1 := constantI S_ 1 1#1
  let main_v22 : IVec S_ 1 := (fun x v => Host.reduce IntOp.andi x v reducesTo_S2048x345_S_d0_1 h_S_) main_v21 main_c_7
  let main_v23 : IVec S_ 1 := andi main_v18 main_v22
  let main_v24 : FVec F S345 .f32 := Host.absf main_arg8
  let main_cst_8 : FVec F S_ .f32 := constant S_ .f32 0x7F800000#32
  let main_v25 : FVec F S345 .f32 := broadcastInDim S345 ![] bcast_S_S345 main_cst_8
  let main_v26 : IVec S345 1 := cmpf .olt main_v24 main_v25
  let main_c_9 : IVec S_ 1 := constantI S_ 1 1#1
  let main_v27 : IVec S_ 1 := (fun x v => Host.reduce IntOp.andi x v reducesTo_S345_S_d0 h_S_) main_v26 main_c_9
  let main_v28 : IVec S_ 1 := andi main_v23 main_v27
  let main_v29 : FVec F S2048x2048 .f32 := Host.absf main_arg9
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S4096x2048 .f32) (main_arg1 : IVec S4096 32) (main_arg2 : IVec S4096 32) (main_arg3 : IVec S4096 32) (main_arg4 : FVec F S1 .f32) (main_arg5 : FVec F S2048x2048 .f32) (main_arg6 : FVec F S2048 .f32) (main_arg7 : FVec F S2048x345 .f32) (main_arg8 : FVec F S345 .f32) (main_arg9 : FVec F S2048x2048 .f32) (main_arg10 : FVec F S2048 .f32) (main_arg11 : FVec F S2048 .f32) (main_arg12 : FVec F S2048 .f32) (main_arg13 : FVec F S2048x2048 .f32) (main_arg14 : FVec F S2048 .f32) (main_arg15 : FVec F S2048 .f32) (main_arg16 : FVec F S2048 .f32) (main_arg17 : FVec F S2048x2048 .f32) (main_arg18 : FVec F S2048 .f32) (main_arg19 : FVec F S2048 .f32) (main_arg20 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1 .f32 := Host.absf main_arg4
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S2048x2048 .f32 := Host.absf main_arg5
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S4096x2048 : Shape := ⟨2, ![4096, 2048]⟩
abbrev S4096 : Shape := ⟨1, ![4096]⟩
abbrev S1 : Shape := ⟨1, ![1]⟩
abbrev S2048x2048 : Shape := ⟨2, ![2048, 2048]⟩
abbrev S2048 : Shape := ⟨1, ![2048]⟩
abbrev S2048x345 : Shape := ⟨2, ![2048, 345]⟩
abbrev S345 : Shape := ⟨1, ![345]⟩
abbrev S_ : Shape := ⟨0, ![]⟩
abbrev S2048x384 : Shape := ⟨2, ![2048, 384]⟩
abbrev S384 : Shape := ⟨1, ![384]⟩
abbrev S1x2048 : Shape := ⟨2, ![1, 2048]⟩
abbrev S1x384 : Shape := ⟨2, ![1, 384]⟩
abbrev S4096x384 : Shape := ⟨2, ![4096, 384]⟩
abbrev S256x2048 : Shape := ⟨2, ![256, 2048]⟩
abbrev S256x384 : Shape := ⟨2, ![256, 384]⟩
abbrev S512x2048 : Shape := ⟨2, ![512, 2048]⟩
abbrev S1024x2048 : Shape := ⟨2, ![1024, 2048]⟩
abbrev S4096x345 : Shape := ⟨2, ![4096, 345]⟩
abbrev S4096x1 : Shape := ⟨2, ![4096, 1]⟩
abbrev S4096x1x1 : Shape := ⟨3, ![4096, 1, 1]⟩
abbrev S1x1x1 : Shape := ⟨3, ![1, 1, 1]⟩

abbrev nBuf : Space → Nat
  | .hbm => 236
  | .vmem => 40
  | .smem => 0
  | _ => 0

abbrev hbmTy0_0 (i : Nat) : BufTy := match i % 128 with
  | 0 => ⟨S4096x2048, .f32⟩
  | 1 => ⟨S4096, .i32⟩
  | 2 => ⟨S4096, .i32⟩
  | 3 => ⟨S4096, .i32⟩
  | 4 => ⟨S1, .f32⟩
  | 5 => ⟨S2048x2048, .f32⟩
  | 6 => ⟨S2048, .f32⟩
  | 7 => ⟨S2048x345, .f32⟩
  | 8 => ⟨S345, .f32⟩
  | 9 => ⟨S2048x2048, .f32⟩
  | 10 => ⟨S2048, .f32⟩
  | 11 => ⟨S2048, .f32⟩
  | 12 => ⟨S2048, .f32⟩
  | 13 => ⟨S2048x2048, .f32⟩
  | 14 => ⟨S2048, .f32⟩
  | 15 => ⟨S2048, .f32⟩
  | 16 => ⟨S2048, .f32⟩
  | 17 => ⟨S2048x2048, .f32⟩
  | 18 => ⟨S2048, .f32⟩
  | 19 => ⟨S2048, .f32⟩
  | 20 => ⟨S2048, .f32⟩
  | 21 => ⟨S_, .f32⟩
  | 22 => ⟨S_, .i32⟩
  | 23 => ⟨S_, .f32⟩
  | 24 => ⟨S2048x384, .f32⟩
  | 25 => ⟨S_, .i32⟩
  | 26 => ⟨S_, .f32⟩
  | 27 => ⟨S384, .f32⟩
  | 28 => ⟨S2048x2048, .bf16⟩
  | 29 => ⟨S2048x2048, .bf16⟩
  | 30 => ⟨S2048x2048, .bf16⟩
  | 31 => ⟨S2048x2048, .bf16⟩
  | 32 => ⟨S2048x384, .bf16⟩
  | 33 => ⟨S1x2048, .f32⟩
  | 34 => ⟨S1x2048, .f32⟩
  | 35 => ⟨S1x384, .f32⟩
  | 36 => ⟨S4096x2048, .f32⟩
  | 37 => ⟨S4096x384, .f32⟩
  | 38 => ⟨S_, .f32⟩
  | 39 => ⟨S2048, .f32⟩
  | 40 => ⟨S4096x2048, .f32⟩
  | 41 => ⟨S_, .f32⟩
  | 42 => ⟨S2048, .f32⟩
  | 43 => ⟨S_, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S4096x2048, .f32⟩
  | 60 => ⟨S_, .f32⟩
  | 61 => ⟨S2048, .f32⟩
  | 62 => ⟨S4096x2048, .f32⟩
  | 63 => ⟨S_, .f32⟩
  | 64 => ⟨S2048, .f32⟩
  | 65 => ⟨S_, .f32⟩
  | 66 => ⟨S2048, .f32⟩
  | 67 => ⟨S2048, .f32⟩
  | 68 => ⟨S_, .f32⟩
  | 69 => ⟨S2048, .f32⟩
  | 70 => ⟨S2048, .f32⟩
  | 71 => ⟨S2048, .f32⟩
  | 72 => ⟨S2048, .f32⟩
  | 73 => ⟨S_, .f32⟩
  | 74 => ⟨S2048, .f32⟩
  | 75 => ⟨S2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S4096x2048, .f32⟩
  | 82 => ⟨S_, .f32⟩
  | 83 => ⟨S2048, .f32⟩
  | 84 => ⟨S4096x2048, .f32⟩
  | 85 => ⟨S_, .f32⟩
  | 86 => ⟨S2048, .f32⟩
  | 87 => ⟨S_, .f32⟩
  | 88 => ⟨S2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S2048, .f32⟩
  | 95 => ⟨S_, .f32⟩
  | 96 => ⟨S2048, .f32⟩
  | 97 => ⟨S2048, .f32⟩
  | 98 => ⟨S1x2048, .f32⟩
  | 99 => ⟨S1x2048, .f32⟩
  | 100 => ⟨S1x2048, .f32⟩
  | 101 => ⟨S1x2048, .f32⟩
  | 102 => ⟨S4096x2048, .f32⟩
  | 103 => ⟨S4096x345, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x345, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4096x2048, .f32⟩
  | 122 => ⟨S4096x345, .f32⟩
  | 123 => ⟨S4096x345, .f32⟩
  | 124 => ⟨S_, .f32⟩
  | 125 => ⟨S_, .f32⟩
  | 126 => ⟨S_, .i32⟩
  | 127 => ⟨S4096, .i32⟩
  | _ => ⟨S4096x2048, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x345, .f32⟩
  | 7 => ⟨S4096x345, .f32⟩
  | 8 => ⟨S4096x345, .f32⟩
  | 9 => ⟨S4096x345, .f32⟩
  | 10 => ⟨S4096x2048, .f32⟩
  | 11 => ⟨S4096x2048, .f32⟩
  | 12 => ⟨S_, .f32⟩
  | 13 => ⟨S_, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x2048, .f32⟩
  | 23 => ⟨S4096x2048, .f32⟩
  | 24 => ⟨S4096x2048, .f32⟩
  | 25 => ⟨S4096x2048, .f32⟩
  | 26 => ⟨S4096x345, .f32⟩
  | 27 => ⟨S4096x345, .f32⟩
  | 28 => ⟨S_, .f32⟩
  | 29 => ⟨S_, .f32⟩
  | 30 => ⟨S_, .f32⟩
  | 31 => ⟨S_, .f32⟩
  | 32 => ⟨S4096x345, .f32⟩
  | 33 => ⟨S4096x345, .f32⟩
  | 34 => ⟨S_, .f32⟩
  | 35 => ⟨S_, .f32⟩
  | 36 => ⟨S_, .f32⟩
  | 37 => ⟨S_, .f32⟩
  | 38 => ⟨S4096x2048, .f32⟩
  | 39 => ⟨S4096x2048, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S4096x2048, .f32⟩
  | 47 => ⟨S4096x2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S4096, .f32⟩
  | 56 => ⟨S_, .f32⟩
  | 57 => ⟨S4096, .f32⟩
  | 58 => ⟨S4096, .f32⟩
  | 59 => ⟨S4096x1, .f32⟩
  | 60 => ⟨S4096x345, .f32⟩
  | 61 => ⟨S4096x345, .f32⟩
  | 62 => ⟨S4096x345, .f32⟩
  | 63 => ⟨S_, .f32⟩
  | 64 => ⟨S4096, .f32⟩
  | 65 => ⟨S4096x1, .f32⟩
  | 66 => ⟨S4096x1, .f32⟩
  | 67 => ⟨S4096x345, .f32⟩
  | 68 => ⟨S4096x345, .f32⟩
  | 69 => ⟨S4096x1, .i32⟩
  | 70 => ⟨S_, .i32⟩
  | 71 => ⟨S4096x1, .i32⟩
  | 72 => ⟨S4096x1, .i1⟩
  | 73 => ⟨S_, .i32⟩
  | 74 => ⟨S4096x1, .i32⟩
  | 75 => ⟨S4096x1, .i32⟩
  | 76 => ⟨S4096x1, .i32⟩
  | 77 => ⟨S4096x1x1, .i32⟩
  | 78 => ⟨S1, .i32⟩
  | 79 => ⟨S_, .i32⟩
  | 80 => ⟨S4096x1x1, .i32⟩
  | 81 => ⟨S4096x1x1, .i1⟩
  | 82 => ⟨S1x1x1, .i32⟩
  | 83 => ⟨S4096x1x1, .i32⟩
  | 84 => ⟨S4096x1x1, .i1⟩
  | 85 => ⟨S4096x1x1, .i1⟩
  | 86 => ⟨S_, .i1⟩
  | 87 => ⟨S4096x1, .i1⟩
  | 88 => ⟨S4096x1, .f32⟩
  | 89 => ⟨S_, .f32⟩
  | 90 => ⟨S4096x1, .f32⟩
  | 91 => ⟨S4096x1, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x384, .bf16⟩
  | .local _ .vmem, ⟨7, _⟩ => ⟨S1x384, .f32⟩
  | .local _ .vmem, ⟨8, _⟩ => ⟨S256x2048, .f32⟩
  | .local _ .vmem, ⟨9, _⟩ => ⟨S256x2048, .f32⟩
  | .local _ .vmem, ⟨10, _⟩ => ⟨S256x384, .f32⟩
  | .local _ .vmem, ⟨11, _⟩ => ⟨S256x384, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S2048x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S2048x2048, .bf16⟩
  | .local _ .vmem, ⟨29, _⟩ => ⟨S1x2048, .f32⟩
  | .local _ .vmem, ⟨30, _⟩ => ⟨S512x2048, .f32⟩
  | .local _ .vmem, ⟨31, _⟩ => ⟨S512x2048, .f32⟩
  | .local _ .vmem, ⟨32, _⟩ => ⟨S1024x2048, .f32⟩
  | .local _ .vmem, ⟨33, _⟩ => ⟨S1024x2048, .f32⟩
  | .local _ .vmem, ⟨34, _⟩ => ⟨S1x2048, .f32⟩
  | .local _ .vmem, ⟨35, _⟩ => ⟨S1x2048, .f32⟩
  | .local _ .vmem, ⟨36, _⟩ => ⟨S1x2048, .f32⟩
  | .local _ .vmem, ⟨37, _⟩ => ⟨S1x2048, .f32⟩
  | .local _ .vmem, ⟨38, _⟩ => ⟨S1024x2048, .f32⟩
  | .local _ .vmem, ⟨39, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_cst_8 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_14 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_c_16 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_17 : Ref sig .tc := ⟨.hbm, 113, rfl⟩
abbrev main_v70 : Ref sig .tc := ⟨.hbm, 114, rfl⟩
abbrev main_v71 : Ref sig .tc := ⟨.hbm, 115, rfl⟩
abbrev main_c_18 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_19 : Ref sig .tc := ⟨.hbm, 124, rfl⟩
abbrev main_v79 : Ref sig .tc := ⟨.hbm, 125, rfl⟩
abbrev main_c_20 : Ref sig .tc := ⟨.hbm, 126, rfl⟩
abbrev main_v80 : Ref sig .tc := ⟨.hbm, 127, rfl⟩
abbrev main_v81 : Ref sig .tc := ⟨.hbm, 128, rfl⟩
abbrev main_c_21 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_22 : Ref sig .tc := ⟨.hbm, 140, rfl⟩
abbrev main_v92 : Ref sig .tc := ⟨.hbm, 141, rfl⟩
abbrev main_c_23 : Ref sig .tc := ⟨.hbm, 142, rfl⟩
abbrev main_v93 : Ref sig .tc := ⟨.hbm, 143, rfl⟩
abbrev main_v94 : Ref sig .tc := ⟨.hbm, 144, rfl⟩
abbrev main_c_24 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_25 : Ref sig .tc := ⟨.hbm, 156, rfl⟩
abbrev main_v105 : Ref sig .tc := ⟨.hbm, 157, rfl⟩
abbrev main_cst_26 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_27 : Ref sig .tc := ⟨.hbm, 162, rfl⟩
abbrev main_v109 : Ref sig .tc := ⟨.hbm, 163, rfl⟩
abbrev main_cst_28 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_29 : Ref sig .tc := ⟨.hbm, 168, rfl⟩
abbrev main_v113 : Ref sig .tc := ⟨.hbm, 169, rfl⟩
abbrev main_cst_30 : Ref sig .tc := ⟨.hbm, 170, rfl⟩
abbrev main_v114 : Ref sig .tc := ⟨.hbm, 171, rfl⟩
abbrev main_cst_31 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_32 : Ref sig .tc := ⟨.hbm, 176, rfl⟩
abbrev main_v118 : Ref sig .tc := ⟨.hbm, 177, rfl⟩
abbrev main_cst_33 : Ref sig .tc := ⟨.hbm, 178, rfl⟩
abbrev main_v119 : Ref sig .tc := ⟨.hbm, 179, rfl⟩
abbrev main_cst_34 : Ref sig .tc := ⟨.hbm, 180, rfl⟩
abbrev main_v120 : Ref sig .tc := ⟨.hbm, 181, rfl⟩
abbrev main_call2_cst : Ref sig .tc := ⟨.hbm, 182, rfl⟩
abbrev main_call2_v0 : Ref sig .tc := ⟨.hbm, 183, rfl⟩
abbrev main_call2_cst_0 : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_cst_1 : Ref sig .tc := ⟨.hbm, 191, rfl⟩
abbrev main_call2_v7 : Ref sig .tc := ⟨.hbm, 192, rfl⟩
abbrev main_call2_v8 : Ref sig .tc := ⟨.hbm, 193, rfl⟩
abbrev main_call2_v9 : Ref sig .tc := ⟨.hbm, 194, rfl⟩
abbrev main_call2_v10 : Ref sig .tc := ⟨.hbm, 195, rfl⟩
abbrev main_v121 : Ref sig .tc := ⟨.hbm, 196, rfl⟩
abbrev main_v122 : Ref sig .tc := ⟨.hbm, 197, rfl⟩
abbrev main_call3_c : Ref sig .tc := ⟨.hbm, 198, rfl⟩
abbrev main_call3_v0 : Ref sig .tc := ⟨.hbm, 199, rfl⟩
abbrev main_call3_v1 : Ref sig .tc := ⟨.hbm, 200, rfl⟩
abbrev main_call3_c_0 : Ref sig .tc := ⟨.hbm, 201, rfl⟩
abbrev main_call3_v2 : Ref sig .tc := ⟨.hbm, 202, rfl⟩
abbrev main_call3_v3 : Ref sig .tc := ⟨.hbm, 203, rfl⟩
abbrev main_call3_v4 : Ref sig .tc := ⟨.hbm, 204, rfl⟩
abbrev main_call3_v5 : Ref sig .tc := ⟨.hbm, 205, rfl⟩
abbrev main_call3_c_1 : Ref sig .tc := ⟨.hbm, 206, rfl⟩
abbrev main_call3_c_2 : Ref sig .tc := ⟨.hbm, 207, rfl⟩
abbrev main_call3_v6 : Ref sig .tc := ⟨.hbm, 208, rfl⟩
abbrev main_call3_v7 : Ref sig .tc := ⟨.hbm, 209, rfl⟩
abbrev main_call3_v8 : Ref sig .tc := ⟨.hbm, 210, rfl⟩
abbrev main_call3_v9 : Ref sig .tc := ⟨.hbm, 211, rfl⟩
abbrev main_call3_v10 : Ref sig .tc := ⟨.hbm, 212, rfl⟩
abbrev main_call3_v11 : Ref sig .tc := ⟨.hbm, 213, rfl⟩
abbrev main_call3_c_3 : Ref sig .tc := ⟨.hbm, 214, rfl⟩
abbrev main_call3_v12 : Ref sig .tc := ⟨.hbm, 215, rfl⟩
abbrev main_call3_v13 : Ref sig .tc := ⟨.hbm, 216, rfl⟩
abbrev main_call3_cst : Ref sig .tc := ⟨.hbm, 217, rfl⟩
abbrev main_call3_v14 : Ref sig .tc := ⟨.hbm, 218, rfl⟩
abbrev main_v123 : Ref sig .tc := ⟨.hbm, 219, rfl⟩
abbrev main_cst_35 : Ref sig .tc := ⟨.hbm, 220, rfl⟩
abbrev main_v124 : Ref sig .tc := ⟨.hbm, 221, rfl⟩
abbrev main_cst_36 : Ref sig .tc := ⟨.hbm, 222, rfl⟩
abbrev main_v125 : Ref sig .tc := ⟨.hbm, 223, rfl⟩
abbrev main_v126 : Ref sig .tc := ⟨.hbm, 224, rfl⟩
abbrev main_cst_37 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_cst_38 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S1_S_ : S1.ShapeCasts S_
  pads_S2048x345_S2048x384_000_0390 : S2048x345.Pads (![0, 0] : Fin 2 → Nat) ![0, 39] ![0, 0] S2048x384
  h_S_ : 0 < S_.numel
  pads_S345_S384_0390 : S345.Pads (![0] : Fin 1 → Nat) ![39] ![0] S384
  bitsLt_bf16_f32 : FTy.bits .bf16 < FTy.bits .f32
  shapeCasts_S2048_S1x2048 : S2048.ShapeCasts S1x2048
  shapeCasts_S384_S1x384 : S384.ShapeCasts S1x384
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  reducesTo_S4096x2048_S2048_d0 : S4096x2048.ReducesTo [0] S2048
  bcast_S_S2048 : S_.BroadcastsInDim S2048 (![] : Fin 0 → Fin S2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x2048_S1024x2048 : S1x2048.Broadcasts S1024x2048
  slices_S4096x384_S4096x345_0_0 : S4096x384.Slices ![0, 0] S4096x345
  bcast_S_S4096 : S_.BroadcastsInDim S4096 (![] : Fin 0 → Fin S4096.rank)
  bcast_S4096_S4096x1_0 : S4096.BroadcastsInDim S4096x1 (![0] : Fin 1 → Fin S4096x1.rank)
  bcast_S_S4096x345 : S_.BroadcastsInDim S4096x345 (![] : Fin 0 → Fin S4096x345.rank)
  bcast_S_S4096x2048 : S_.BroadcastsInDim S4096x2048 (![] : Fin 0 → Fin S4096x2048.rank)
  reducesTo_S4096x345_S_d0_1 : S4096x345.ReducesTo [0, 1] S_
  reducesTo_S4096x2048_S_d0_1 : S4096x2048.ReducesTo [0, 1] S_
  reducesTo_S4096x345_S4096_d1 : S4096x345.ReducesTo [1] S4096
  bcast_S4096x1_S4096x345_0_1 : S4096x1.BroadcastsInDim S4096x345 (![0, 1] : Fin 2 → Fin S4096x345.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S256x2048_S2048x2048_S256x2048_1_0_0_1_n_n_wf : DotDims.WF S256x2048 S2048x2048 S256x2048 [1] [0] [0] [1] [] []
  dot_S256x2048_S2048x384_S256x384_1_0_0_1_n_n_wf : DotDims.WF S256x2048 S2048x384 S256x384 [1] [0] [0] [1] [] []
  dot_S512x2048_S2048x2048_S512x2048_1_0_0_1_n_n_wf : DotDims.WF S512x2048 S2048x2048 S512x2048 [1] [0] [0] [1] [] []
  gather_S4096x345_S4096x1_S4096x345_1_0_n_n_0_1_1345_wf : GatherDims.WF S4096x345 S4096x1 S4096x345 [1] [0] [] [0] [] 1 ![1, 345]
  gather_S4096x2048_S4096x1_S4096x2048_1_0_n_n_0_1_12048_wf : GatherDims.WF S4096x2048 S4096x1 S4096x2048 [1] [0] [] [0] [] 1 ![1, 2048]
  gather_S4096x345_S4096x1x1_S4096x1_n_1_0_0_1_2_11_wf : GatherDims.WF S4096x345 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x384.size a ≤ S2048x384.size a
  hwx0_5 : ∀ i : grid0.Coords, EltTy.bits .bf16 = 32 ∨ (Rect.block (s := S2048x384) S2048x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x384.size a ≤ S4096x384.size a
  hwx0_8 : ∀ i : grid0.Coords, EltTy.bits .f32 = 32 ∨ (Rect.block (s := S4096x384) S256x384.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x2048.size a ≤ S4096x2048.size a
  hwx1_7 : ∀ i : grid1.Coords, EltTy.bits .f32 = 32 ∨ (Rect.block (s := S4096x2048) S512x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x2048.size a ≤ S2048x2048.size a
  hwx2_5 : ∀ i : grid2.Coords, EltTy.bits .bf16 = 32 ∨ (Rect.block (s := S2048x2048) S2048x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x2048.size a ≤ S4096x2048.size a
  hwx2_7 : ∀ i : grid2.Coords, EltTy.bits .f32 = 32 ∨ (Rect.block (s := S4096x2048) S512x2048.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S4096x2048.size a
  hwx3_0 : ∀ i : grid3.Coords, EltTy.bits .f32 = 32 ∨ (Rect.block (s := S4096x2048) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x2048.size a ≤ S4096x2048.size a
  hwx3_5 : ∀ i : grid3.Coords, EltTy.bits .f32 = 32 ∨ (Rect.block (s := S4096x2048) S1024x2048.size (cc3_transform_5 i) (hinb3_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x384_S256x384_1_0_0_1_n_n : DotDims S256x2048 S2048x384 S256x384 where
  lhsContracting := [1]
  rhsContracting := [0]
  lhsNonContracting := [0]
  rhsNonContracting := [1]
  lhsBatch := []
  rhsBatch := []
  wf := dot_S256x2048_S2048x384_S256x384_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def gather_S4096x345_S4096x1_S4096x345_1_0_n_n_0_1_1345 : GatherDims S4096x345 S4096x1 S4096x345 where
  offsetDims := [1]
  collapsedSliceDims := [0]
  operandBatchingDims := []
  startIndicesBatchingDims := []
  startIndexMap := [0]
  indexVectorDim := 1
  sliceSizes := ![1, 345]
  wf := gather_S4096x345_S4096x1_S4096x345_1_0_n_n_0_1_1345_wf
def gather_S4096x2048_S4096x1_S4096x2048_1_0_n_n_0_1_12048 : GatherDims S4096x2048 S4096x1 S4096x2048 where
  offsetDims := [1]
  collapsedSliceDims := [0]
  operandBatchingDims := []
  startIndicesBatchingDims := []
  startIndexMap := [0]
  indexVectorDim := 1
  sliceSizes := ![1, 2048]
  wf := gather_S4096x2048_S4096x1_S4096x2048_1_0_n_n_0_1_12048_wf
def gather_S4096x345_S4096x1x1_S4096x1_n_1_0_0_1_2_11 : GatherDims S4096x345 S4096x1x1 S4096x1 where
  offsetDims := []
  collapsedSliceDims := [1]
  operandBatchingDims := [0]
  startIndicesBatchingDims := [0]
  startIndexMap := [1]
  indexVectorDim := 2
  sliceSizes := ![1, 1]
  wf := gather_S4096x345_S4096x1x1_S4096x1_n_1_0_0_1_2_11_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S256x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v11_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S512x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S2048x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S512x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v45) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1024x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x2048 : Shape := ⟨2, ![4096, 2048]⟩
abbrev S4096 : Shape := ⟨1, ![4096]⟩
abbrev S1 : Shape := ⟨1, ![1]⟩
abbrev S2048x2048 : Shape := ⟨2, ![2048, 2048]⟩
abbrev S2048 : Shape := ⟨1, ![2048]⟩
abbrev S2048x345 : Shape := ⟨2, ![2048, 345]⟩
abbrev S345 : Shape := ⟨1, ![345]⟩
abbrev S_ : Shape := ⟨0, ![]⟩
abbrev S1x2048 : Shape := ⟨2, ![1, 2048]⟩
abbrev S4096x345 : Shape := ⟨2, ![4096, 345]⟩
abbrev S1x345 : Shape := ⟨2, ![1, 345]⟩
abbrev S4096x1 : Shape := ⟨2, ![4096, 1]⟩
abbrev S4096x1x1 : Shape := ⟨3, ![4096, 1, 1]⟩
abbrev S1x1x1 : Shape := ⟨3, ![1, 1, 1]⟩

abbrev nBuf : Space → Nat
  | .hbm => 270
  | .vmem => 0
  | .smem => 0
  | _ => 0

abbrev hbmTy0_0 (i : Nat) : BufTy := match i % 128 with
  | 0 => ⟨S4096x2048, .f32⟩
  | 1 => ⟨S4096, .i32⟩
  | 2 => ⟨S4096, .i32⟩
  | 3 => ⟨S4096, .i32⟩
  | 4 => ⟨S1, .f32⟩
  | 5 => ⟨S2048x2048, .f32⟩
  | 6 => ⟨S2048, .f32⟩
  | 7 => ⟨S2048x345, .f32⟩
  | 8 => ⟨S345, .f32⟩
  | 9 => ⟨S2048x2048, .f32⟩
  | 10 => ⟨S2048, .f32⟩
  | 11 => ⟨S2048, .f32⟩
  | 12 => ⟨S2048, .f32⟩
  | 13 => ⟨S2048x2048, .f32⟩
  | 14 => ⟨S2048, .f32⟩
  | 15 => ⟨S2048, .f32⟩
  | 16 => ⟨S2048, .f32⟩
  | 17 => ⟨S2048x2048, .f32⟩
  | 18 => ⟨S2048, .f32⟩
  | 19 => ⟨S2048, .f32⟩
  | 20 => ⟨S2048, .f32⟩
  | 21 => ⟨S_, .f32⟩
  | 22 => ⟨S4096x2048, .f32⟩
  | 23 => ⟨S1x2048, .f32⟩
  | 24 => ⟨S4096x2048, .f32⟩
  | 25 => ⟨S4096x2048, .f32⟩
  | 26 => ⟨S4096x2048, .f32⟩
  | 27 => ⟨S1x2048, .f32⟩
  | 28 => ⟨S4096x2048, .f32⟩
  | 29 => ⟨S4096x2048, .f32⟩
  | 30 => ⟨S_, .f32⟩
  | 31 => ⟨S2048, .f32⟩
  | 32 => ⟨S_, .f32⟩
  | 33 => ⟨S2048, .f32⟩
  | 34 => ⟨S2048, .f32⟩
  | 35 => ⟨S1x2048, .f32⟩
  | 36 => ⟨S4096x2048, .f32⟩
  | 37 => ⟨S4096x2048, .f32⟩
  | 38 => ⟨S4096x2048, .f32⟩
  | 39 => ⟨S_, .f32⟩
  | 40 => ⟨S2048, .f32⟩
  | 41 => ⟨S_, .f32⟩
  | 42 => ⟨S2048, .f32⟩
  | 43 => ⟨S2048, .f32⟩
  | 44 => ⟨S1x2048, .f32⟩
  | 45 => ⟨S4096x2048, .f32⟩
  | 46 => ⟨S4096x2048, .f32⟩
  | 47 => ⟨S1x2048, .f32⟩
  | 48 => ⟨S4096x2048, .f32⟩
  | 49 => ⟨S4096x2048, .f32⟩
  | 50 => ⟨S_, .f32⟩
  | 51 => ⟨S2048, .f32⟩
  | 52 => ⟨S2048, .f32⟩
  | 53 => ⟨S2048, .f32⟩
  | 54 => ⟨S1x2048, .f32⟩
  | 55 => ⟨S4096x2048, .f32⟩
  | 56 => ⟨S4096x2048, .f32⟩
  | 57 => ⟨S1x2048, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S4096x2048, .f32⟩
  | 64 => ⟨S1x2048, .f32⟩
  | 65 => ⟨S4096x2048, .f32⟩
  | 66 => ⟨S4096x2048, .f32⟩
  | 67 => ⟨S_, .f32⟩
  | 68 => ⟨S2048, .f32⟩
  | 69 => ⟨S_, .f32⟩
  | 70 => ⟨S2048, .f32⟩
  | 71 => ⟨S2048, .f32⟩
  | 72 => ⟨S1x2048, .f32⟩
  | 73 => ⟨S4096x2048, .f32⟩
  | 74 => ⟨S4096x2048, .f32⟩
  | 75 => ⟨S4096x2048, .f32⟩
  | 76 => ⟨S_, .f32⟩
  | 77 => ⟨S2048, .f32⟩
  | 78 => ⟨S_, .f32⟩
  | 79 => ⟨S2048, .f32⟩
  | 80 => ⟨S2048, .f32⟩
  | 81 => ⟨S1x2048, .f32⟩
  | 82 => ⟨S4096x2048, .f32⟩
  | 83 => ⟨S4096x2048, .f32⟩
  | 84 => ⟨S1x2048, .f32⟩
  | 85 => ⟨S4096x2048, .f32⟩
  | 86 => ⟨S4096x2048, .f32⟩
  | 87 => ⟨S_, .f32⟩
  | 88 => ⟨S2048, .f32⟩
  | 89 => ⟨S2048, .f32⟩
  | 90 => ⟨S2048, .f32⟩
  | 91 => ⟨S1x2048, .f32⟩
  | 92 => ⟨S4096x2048, .f32⟩
  | 93 => ⟨S4096x2048, .f32⟩
  | 94 => ⟨S1x2048, .f32⟩
  | 95 => ⟨S4096x2048, .f32⟩
  | 96 => ⟨S4096x2048, .f32⟩
  | 97 => ⟨S_, .f32⟩
  | 98 => ⟨S4096x2048, .f32⟩
  | 99 => ⟨S4096x2048, .f32⟩
  | 100 => ⟨S4096x2048, .f32⟩
  | 101 => ⟨S1x2048, .f32⟩
  | 102 => ⟨S4096x2048, .f32⟩
  | 103 => ⟨S4096x2048, .f32⟩
  | 104 => ⟨S_, .f32⟩
  | 105 => ⟨S2048, .f32⟩
  | 106 => ⟨S_, .f32⟩
  | 107 => ⟨S2048, .f32⟩
  | 108 => ⟨S2048, .f32⟩
  | 109 => ⟨S1x2048, .f32⟩
  | 110 => ⟨S4096x2048, .f32⟩
  | 111 => ⟨S4096x2048, .f32⟩
  | 112 => ⟨S4096x2048, .f32⟩
  | 113 => ⟨S_, .f32⟩
  | 114 => ⟨S2048, .f32⟩
  | 115 => ⟨S_, .f32⟩
  | 116 => ⟨S2048, .f32⟩
  | 117 => ⟨S2048, .f32⟩
  | 118 => ⟨S1x2048, .f32⟩
  | 119 => ⟨S4096x2048, .f32⟩
  | 120 => ⟨S4096x2048, .f32⟩
  | 121 => ⟨S1x2048, .f32⟩
  | 122 => ⟨S4096x2048, .f32⟩
  | 123 => ⟨S4096x2048, .f32⟩
  | 124 => ⟨S_, .f32⟩
  | 125 => ⟨S2048, .f32⟩
  | 126 => ⟨S2048, .f32⟩
  | 127 => ⟨S2048, .f32⟩
  | _ => ⟨S4096x2048, .f32⟩

abbrev hbmTy0_1 (i : Nat) : BufTy := match i % 128 with
  | 0 => ⟨S1x2048, .f32⟩
  | 1 => ⟨S4096x2048, .f32⟩
  | 2 => ⟨S4096x2048, .f32⟩
  | 3 => ⟨S1x2048, .f32⟩
  | 4 => ⟨S4096x2048, .f32⟩
  | 5 => ⟨S4096x2048, .f32⟩
  | 6 => ⟨S4096x345, .f32⟩
  | 7 => ⟨S1x345, .f32⟩
  | 8 => ⟨S4096x345, .f32⟩
  | 9 => ⟨S4096x345, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x345, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x2048, .f32⟩
  | 28 => ⟨S4096x345, .f32⟩
  | 29 => ⟨S4096x345, .f32⟩
  | 30 => ⟨S_, .f32⟩
  | 31 => ⟨S_, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x345, .f32⟩
  | 41 => ⟨S4096x345, .f32⟩
  | 42 => ⟨S4096x345, .f32⟩
  | 43 => ⟨S4096x345, .f32⟩
  | 44 => ⟨S4096x2048, .f32⟩
  | 45 => ⟨S4096x2048, .f32⟩
  | 46 => ⟨S_, .f32⟩
  | 47 => ⟨S_, .f32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x2048, .f32⟩
  | 57 => ⟨S4096x2048, .f32⟩
  | 58 => ⟨S4096x2048, .f32⟩
  | 59 => ⟨S4096x2048, .f32⟩
  | 60 => ⟨S4096x345, .f32⟩
  | 61 => ⟨S4096x345, .f32⟩
  | 62 => ⟨S_, .f32⟩
  | 63 => ⟨S_, .f32⟩
  | 64 => ⟨S_, .f32⟩
  | 65 => ⟨S_, .f32⟩
  | 66 => ⟨S4096x345, .f32⟩
  | 67 => ⟨S4096x345, .f32⟩
  | 68 => ⟨S_, .f32⟩
  | 69 => ⟨S_, .f32⟩
  | 70 => ⟨S_, .f32⟩
  | 71 => ⟨S_, .f32⟩
  | 72 => ⟨S4096x2048, .f32⟩
  | 73 => ⟨S4096x2048, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096x2048, .f32⟩
  | 81 => ⟨S4096x2048, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1, .f32⟩
  | 94 => ⟨S4096x345, .f32⟩
  | 95 => ⟨S4096x345, .f32⟩
  | 96 => ⟨S4096x345, .f32⟩
  | 97 => ⟨S_, .f32⟩
  | 98 => ⟨S4096, .f32⟩
  | 99 => ⟨S4096x1, .f32⟩
  | 100 => ⟨S4096x1, .f32⟩
  | 101 => ⟨S4096x345, .f32⟩
  | 102 => ⟨S4096x345, .f32⟩
  | 103 => ⟨S4096x1, .i32⟩
  | 104 => ⟨S_, .i32⟩
  | 105 => ⟨S4096x1, .i32⟩
  | 106 => ⟨S4096x1, .i1⟩
  | 107 => ⟨S_, .i32⟩
  | 108 => ⟨S4096x1, .i32⟩
  | 109 => ⟨S4096x1, .i32⟩
  | 110 => ⟨S4096x1, .i32⟩
  | 111 => ⟨S4096x1x1, .i32⟩
  | 112 => ⟨S1, .i32⟩
  | 113 => ⟨S_, .i32⟩
  | 114 => ⟨S4096x1x1, .i32⟩
  | 115 => ⟨S4096x1x1, .i1⟩
  | 116 => ⟨S1x1x1, .i32⟩
  | 117 => ⟨S4096x1x1, .i32⟩
  | 118 => ⟨S4096x1x1, .i1⟩
  | 119 => ⟨S4096x1x1, .i1⟩
  | 120 => ⟨S_, .i1⟩
  | 121 => ⟨S4096x1, .i1⟩
  | 122 => ⟨S4096x1, .f32⟩
  | 123 => ⟨S_, .f32⟩
  | 124 => ⟨S4096x1, .f32⟩
  | 125 => ⟨S4096x1, .f32⟩
  | 126 => ⟨S_, .f32⟩
  | 127 => ⟨S_, .f32⟩
  | _ => ⟨S4096x2048, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call0_cst : Ref sig .tc := ⟨.hbm, 60, rfl⟩
abbrev main_call0_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_4 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_cst : Ref sig .tc := ⟨.hbm, 97, rfl⟩
abbrev main_call1_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_cst_10 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_11 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_13 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c : Ref sig .tc := ⟨.hbm, 138, rfl⟩
abbrev main_v98 : Ref sig .tc := ⟨.hbm, 139, rfl⟩
abbrev main_v99 : Ref sig .tc := ⟨.hbm, 140, rfl⟩
abbrev main_c_14 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_15 : Ref sig .tc := ⟨.hbm, 147, rfl⟩
abbrev main_v105 : Ref sig .tc := ⟨.hbm, 148, rfl⟩
abbrev main_v106 : Ref sig .tc := ⟨.hbm, 149, rfl⟩
abbrev main_c_16 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_17 : Ref sig .tc := ⟨.hbm, 158, rfl⟩
abbrev main_v114 : Ref sig .tc := ⟨.hbm, 159, rfl⟩
abbrev main_c_18 : Ref sig .tc := ⟨.hbm, 160, rfl⟩
abbrev main_v115 : Ref sig .tc := ⟨.hbm, 161, rfl⟩
abbrev main_v116 : Ref sig .tc := ⟨.hbm, 162, rfl⟩
abbrev main_c_19 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_20 : Ref sig .tc := ⟨.hbm, 174, rfl⟩
abbrev main_v127 : Ref sig .tc := ⟨.hbm, 175, rfl⟩
abbrev main_c_21 : Ref sig .tc := ⟨.hbm, 176, rfl⟩
abbrev main_v128 : Ref sig .tc := ⟨.hbm, 177, rfl⟩
abbrev main_v129 : Ref sig .tc := ⟨.hbm, 178, rfl⟩
abbrev main_c_22 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_23 : Ref sig .tc := ⟨.hbm, 190, rfl⟩
abbrev main_v140 : Ref sig .tc := ⟨.hbm, 191, rfl⟩
abbrev main_cst_24 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_25 : Ref sig .tc := ⟨.hbm, 196, rfl⟩
abbrev main_v144 : Ref sig .tc := ⟨.hbm, 197, rfl⟩
abbrev main_cst_26 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_27 : Ref sig .tc := ⟨.hbm, 202, rfl⟩
abbrev main_v148 : Ref sig .tc := ⟨.hbm, 203, rfl⟩
abbrev main_cst_28 : Ref sig .tc := ⟨.hbm, 204, rfl⟩
abbrev main_v149 : Ref sig .tc := ⟨.hbm, 205, rfl⟩
abbrev main_cst_29 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_30 : Ref sig .tc := ⟨.hbm, 210, rfl⟩
abbrev main_v153 : Ref sig .tc := ⟨.hbm, 211, rfl⟩
abbrev main_cst_31 : Ref sig .tc := ⟨.hbm, 212, rfl⟩
abbrev main_v154 : Ref sig .tc := ⟨.hbm, 213, rfl⟩
abbrev main_cst_32 : Ref sig .tc := ⟨.hbm, 214, rfl⟩
abbrev main_v155 : Ref sig .tc := ⟨.hbm, 215, rfl⟩
abbrev main_call2_cst : Ref sig .tc := ⟨.hbm, 216, rfl⟩
abbrev main_call2_v0 : Ref sig .tc := ⟨.hbm, 217, rfl⟩
abbrev main_call2_cst_0 : Ref sig .tc := ⟨.hbm, 218, rfl⟩
abbrev main_call2_v1 : Ref sig .tc := ⟨.hbm, 219, rfl⟩
abbrev main_call2_v2 : Ref sig .tc := ⟨.hbm, 220, rfl⟩
abbrev main_call2_v3 : Ref sig .tc := ⟨.hbm, 221, rfl⟩
abbrev main_call2_v4 : Ref sig .tc := ⟨.hbm, 222, rfl⟩
abbrev main_call2_v5 : Ref sig .tc := ⟨.hbm, 223, rfl⟩
abbrev main_call2_v6 : Ref sig .tc := ⟨.hbm, 224, rfl⟩
abbrev main_call2_cst_1 : Ref sig .tc := ⟨.hbm, 225, rfl⟩
abbrev main_call2_v7 : Ref sig .tc := ⟨.hbm, 226, rfl⟩
abbrev main_call2_v8 : Ref sig .tc := ⟨.hbm, 227, rfl⟩
abbrev main_call2_v9 : Ref sig .tc := ⟨.hbm, 228, rfl⟩
abbrev main_call2_v10 : Ref sig .tc := ⟨.hbm, 229, rfl⟩
abbrev main_v156 : Ref sig .tc := ⟨.hbm, 230, rfl⟩
abbrev main_v157 : Ref sig .tc := ⟨.hbm, 231, rfl⟩
abbrev main_call3_c : Ref sig .tc := ⟨.hbm, 232, rfl⟩
abbrev main_call3_v0 : Ref sig .tc := ⟨.hbm, 233, rfl⟩
abbrev main_call3_v1 : Ref sig .tc := ⟨.hbm, 234, rfl⟩
abbrev main_call3_c_0 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_call3_v5 : Ref sig .tc := ⟨.hbm, 239, rfl⟩
abbrev main_call3_c_1 : Ref sig .tc := ⟨.hbm, 240, rfl⟩
abbrev main_call3_c_2 : Ref sig .tc := ⟨.hbm, 241, rfl⟩
abbrev main_call3_v6 : Ref sig .tc := ⟨.hbm, 242, rfl⟩
abbrev main_call3_v7 : Ref sig .tc := ⟨.hbm, 243, rfl⟩
abbrev main_call3_v8 : Ref sig .tc := ⟨.hbm, 244, rfl⟩
abbrev main_call3_v9 : Ref sig .tc := ⟨.hbm, 245, rfl⟩
abbrev main_call3_v10 : Ref sig .tc := ⟨.hbm, 246, rfl⟩
abbrev main_call3_v11 : Ref sig .tc := ⟨.hbm, 247, rfl⟩
abbrev main_call3_c_3 : Ref sig .tc := ⟨.hbm, 248, rfl⟩
abbrev main_call3_v12 : Ref sig .tc := ⟨.hbm, 249, rfl⟩
abbrev main_call3_v13 : Ref sig .tc := ⟨.hbm, 250, rfl⟩
abbrev main_call3_cst : Ref sig .tc := ⟨.hbm, 251, rfl⟩
abbrev main_call3_v14 : Ref sig .tc := ⟨.hbm, 252, rfl⟩
abbrev main_v158 : Ref sig .tc := ⟨.hbm, 253, rfl⟩
abbrev main_cst_33 : Ref sig .tc := ⟨.hbm, 254, rfl⟩
abbrev main_v159 : Ref sig .tc := ⟨.hbm, 255, rfl⟩
abbrev main_cst_34 : Ref sig .tc := ⟨.hbm, 256, rfl⟩
abbrev main_v160 : Ref sig .tc := ⟨.hbm, 257, rfl⟩
abbrev main_v161 : Ref sig .tc := ⟨.hbm, 258, rfl⟩
abbrev main_cst_35 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_cst_36 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩

abbrev nD : Nat := 1
abbrev τ : Topo := Topo.v7x

variable {F : FTy → Type} [FloatOps F]

class Facts₀ : Prop where
  shapeCasts_S1_S_ : S1.ShapeCasts S_
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  reducesTo_S4096x2048_S2048_d0 : S4096x2048.ReducesTo [0] S2048
  h_S_ : 0 < S_.numel
  bcast_S_S2048 : S_.BroadcastsInDim S2048 (![] : Fin 0 → Fin S2048.rank)
  bcast_S_S4096x2048 : S_.BroadcastsInDim S4096x2048 (![] : Fin 0 → Fin S4096x2048.rank)
  bcast_S345_S1x345_1 : S345.BroadcastsInDim S1x345 (![1] : Fin 1 → Fin S1x345.rank)
  bcast_S1x345_S4096x345_0_1 : S1x345.BroadcastsInDim S4096x345 (![0, 1] : Fin 2 → Fin S4096x345.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x345 : S_.BroadcastsInDim S4096x345 (![] : Fin 0 → Fin S4096x345.rank)
  reducesTo_S4096x345_S_d0_1 : S4096x345.ReducesTo [0, 1] S_
  reducesTo_S4096x2048_S_d0_1 : S4096x2048.ReducesTo [0, 1] S_
  reducesTo_S4096x345_S4096_d1 : S4096x345.ReducesTo [1] S4096
  bcast_S4096x1_S4096x345_0_1 : S4096x1.BroadcastsInDim S4096x345 (![0, 1] : Fin 2 → Fin S4096x345.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x2048_S2048x2048_S4096x2048_1_0_0_1_n_n_wf : DotDims.WF S4096x2048 S2048x2048 S4096x2048 [1] [0] [0] [1] [] []
  dot_S4096x2048_S2048x345_S4096x345_1_0_0_1_n_n_wf : DotDims.WF S4096x2048 S2048x345 S4096x345 [1] [0] [0] [1] [] []
  gather_S4096x345_S4096x1_S4096x345_1_0_n_n_0_1_1345_wf : GatherDims.WF S4096x345 S4096x1 S4096x345 [1] [0] [] [0] [] 1 ![1, 345]
  gather_S4096x2048_S4096x1_S4096x2048_1_0_n_n_0_1_12048_wf : GatherDims.WF S4096x2048 S4096x1 S4096x2048 [1] [0] [] [0] [] 1 ![1, 2048]
  gather_S4096x345_S4096x1x1_S4096x1_n_1_0_0_1_2_11_wf : GatherDims.WF S4096x345 S4096x1x1 S4096x1 [] [1] [0] [1] [0] 2 ![1, 1]

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x345_S4096x345_1_0_0_1_n_n : DotDims S4096x2048 S2048x345 S4096x345 where
  lhsContracting := [1]
  rhsContracting := [0]
  lhsNonContracting := [0]
  rhsNonContracting := [1]
  lhsBatch := []
  rhsBatch := []
  wf := dot_S4096x2048_S2048x345_S4096x345_1_0_0_1_n_n_wf
def gather_S4096x345_S4096x1_S4096x345_1_0_n_n_0_1_1345 : GatherDims S4096x345 S4096x1 S4096x345 where
  offsetDims := [1]
  collapsedSliceDims := [0]
  operandBatchingDims := []
  startIndicesBatchingDims := []
  startIndexMap := [0]
  indexVectorDim := 1
  sliceSizes := ![1, 345]
  wf := gather_S4096x345_S4096x1_S4096x345_1_0_n_n_0_1_1345_wf
def gather_S4096x2048_S4096x1_S4096x2048_1_0_n_n_0_1_12048 : GatherDims S4096x2048 S4096x1 S4096x2048 where
  offsetDims := [1]
  collapsedSliceDims := [0]
  operandBatchingDims := []
  startIndicesBatchingDims := []
  startIndexMap := [0]
  indexVectorDim := 1
  sliceSizes := ![1, 2048]
  wf := gather_S4096x2048_S4096x1_S4096x2048_1_0_n_n_0_1_12048_wf
def gather_S4096x345_S4096x1x1_S4096x1_n_1_0_0_1_2_11 : GatherDims S4096x345 S4096x1x1 S4096x1 where
  offsetDims := []
  collapsedSliceDims := [1]
  operandBatchingDims := [0]
  startIndicesBatchingDims := [0]
  startIndexMap := [1]
  indexVectorDim := 2
  sliceSizes := ![1, 1]
  wf := gather_S4096x345_S4096x1x1_S4096x1_n_1_0_0_1_2_11_wf

class Facts : Prop extends Facts₀ where

variable [Facts]
-- ==== Proof.KernelRun.lean ====
/-
  The idealized kernel program's run with its END STATE named.

  @main is a chain of segments: stretches of host operations and four kernel regions.  Each segment is entered with
  every unscoped buffer of the TensorCore at a known valuation and left at the next one: a host stretch applies its
  operations to the valuation, a region replaces its windows' arrays by what its grid points wrote back.  So every
  weakly fair execution terminates, faults nowhere, and ends with EVERY unscoped buffer at the last valuation of that
  chain — in particular the result buffer, and each argument array (which no segment writes).
-/
import proofs.«110836_j8735963480633_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every unscoped buffer of
    every TensorCore holds the contents the chain of segments ends at. -/
theorem run_ends : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

end Cert.KernelIdeal.RunValue

end
-- ==== Proof.Chain0.lean ====
/-
  The buffers at the boundaries around the first kernel region.

  Before it, host operations recast the bias vectors as rows, pad the classifier's weight and bias from 345 to 384
  columns with zeros, and change the weights' float format (the identity on extended reals); nothing writes an argument
  array.  So each of the region's input windows reads an argument array, recast or padded, and the buffers later
  segments read hold argument arrays too.  After it, the region's two output arrays hold what its grid points wrote and
  every other buffer is as it was.
-/
import proofs.«110836_j8735963480633_2_alg».proof.Proof.Gen.KernelIdeal.Frame
import Idealize.ShloMosaic.PureOps.Ideal
import Idealize.ShloMosaic.Lib.StableHlo.Run

set_option maxRecDepth 16384

noncomputable section

namespace Cert.KernelIdeal.ChainValue

open Cert.KernelIdeal Cert.KernelIdeal.Gen Idealize.ShloMosaic Idealize.ShloMosaic.StableHlo Idealize.ShloMosaic.TcCoe Idealize.SL.Sem

variable (m : (ℓ : Loc nD τ sig) → Buf (Elt Ideal) ℓ) (ρ : Dev nD → PrngReg) (c : Dev nD)

/-! ## At the first region's entry -/

theorem at5_x : W5 m ρ c (Proc.devRef .tc main_arg0) = (m ((c : Thread nD τ).loc main_arg0) : FVec Ideal S4096x2048 .f32) := by
  dsimp only [W5, W4, W3, W2, W1, hostOps0, hostOps0_1, hostOps0_2, hostOps0_3, hostOps0_4]; after_results <;> rfl

theorem at5_Wf : W5 m ρ c (Proc.devRef .tc main_v3) = truncf (F := Ideal) .bf16 (m ((c : Thread nD τ).loc main_arg5) : FVec Ideal S2048x2048 .f32) bitsLt_bf16_f32 := by
  dsimp only [W5, W4, W3, W2, W1, hostOps0, hostOps0_1, hostOps0_2, hostOps0_3, hostOps0_4]; after_results <;> rfl

theorem at5_bf : W5 m ρ c (Proc.devRef .tc main_v8) = shapeCast S1x2048 (m ((c : Thread nD τ).loc main_arg6) : FVec Ideal S2048 .f32) Facts₀.shapeCasts_S2048_S1x2048 := by
  dsimp only [W5, W4, W3, W2, W1, hostOps0, hostOps0_1, hostOps0_2, hostOps0_3, hostOps0_4]; after_results <;> rfl

theorem at5_W1 : W5 m ρ c (Proc.devRef .tc main_v4) = truncf (F := Ideal) .bf16 (m ((c : Thread nD τ).loc main_arg9) : FVec Ideal S2048x2048 .f32) bitsLt_bf16_f32 := by
  dsimp only [W5, W4, W3, W2, W1, hostOps0, hostOps0_1, hostOps0_2, hostOps0_3, hostOps0_4]; after_results <;> rfl

theorem at5_b1 : W5 m ρ c (Proc.devRef .tc main_v9) = shapeCast S1x2048 (m ((c : Thread nD τ).loc main_arg10) : FVec Ideal S2048 .f32) Facts₀.shapeCasts_S2048_S1x2048 := by
  dsimp only [W5, W4, W3, W2, W1, hostOps0, hostOps0_1, hostOps0_2, hostOps0_3, hostOps0_4]; after_results <;> rfl

theorem at5_Wc : W5 m ρ c (Proc.devRef .tc main_v7) = truncf (F := Ideal) .bf16 (pad S2048x384 ![0, 0] ![0, 39] ![0, 0] (m ((c : Thread nD τ).loc main_arg7) : FVec Ideal S2048x345 .f32) (sitofp (F := Ideal) .f32 (constantI S_ 32 0#32)) Facts₀.pads_S2048x345_S2048x384_000_0390 Facts₀.h_S_) bitsLt_bf16_f32 := by
  dsimp only [W5, W4, W3, W2, W1, hostOps0, hostOps0_1, hostOps0_2, hostOps0_3, hostOps0_4]; after_results <;> rfl

theorem at5_bc : W5 m ρ c (Proc.devRef .tc main_v10) = shapeCast S1x384 (pad S384 ![0] ![39] ![0] (m ((c : Thread nD τ).loc main_arg8) : FVec Ideal S345 .f32) (sitofp (F := Ideal) .f32 (constantI S_ 32 0#32)) Facts₀.pads_S345_S384_0390 Facts₀.h_S_) Facts₀.shapeCasts_S384_S1x384 := by
  dsimp only [W5, W4, W3, W2, W1, hostOps0, hostOps0_1, hostOps0_2, hostOps0_3, hostOps0_4]; after_results <;> rfl

theorem at5_W2 : W5 m ρ c (Proc.devRef .tc main_v5) = truncf (F := Ideal) .bf16 (m ((c : Thread nD τ).loc main_arg13) : FVec Ideal S2048x2048 .f32) bitsLt_bf16_f32 := by
  dsimp only [W5, W4, W3, W2, W1, hostOps0, hostOps0_1, hostOps0_2, hostOps0_3, hostOps0_4]; after_results <;> rfl

theorem at5_W3 : W5 m ρ c (Proc.devRef .tc main_v6) = truncf (F := Ideal) .bf16 (m ((c : Thread nD τ).loc main_arg17) : FVec Ideal S2048x2048 .f32) bitsLt_bf16_f32 := by
  dsimp only [W5, W4, W3, W2, W1, hostOps0, hostOps0_1, hostOps0_2, hostOps0_3, hostOps0_4]; after_results <;> rfl

theorem at5_lam : W5 m ρ c (Proc.devRef .tc main_v0) = shapeCast S_ (m ((c : Thread nD τ).loc main_arg4) : FVec Ideal S1 .f32) Facts₀.shapeCasts_S1_S_ := by
  dsimp only [W5, W4, W3, W2, W1, hostOps0, hostOps0_1, hostOps0_2, hostOps0_3, hostOps0_4]; after_results <;> rfl

theorem at5_arg1 : W5 m ρ c (Proc.devRef .tc main_arg1) = (m ((c : Thread nD τ).loc main_arg1) : IVec S4096 32) := by
  dsimp only [W5, W4, W3, W2, W1, hostOps0, hostOps0_1, hostOps0_2, hostOps0_3, hostOps0_4]; after_results <;> rfl

theorem at5_arg2 : W5 m ρ c (Proc.devRef .tc main_arg2) = (m ((c : Thread nD τ).loc main_arg2) : IVec S4096 32) := by
  dsimp only [W5, W4, W3, W2, W1, hostOps0, hostOps0_1, hostOps0_2, hostOps0_3, hostOps0_4]; after_results <;> rfl

theorem at5_arg3 : W5 m ρ c (Proc.devRef .tc main_arg3) = (m ((c : Thread nD τ).loc main_arg3) : IVec S4096 32) := by
  dsimp only [W5, W4, W3, W2, W1, hostOps0, hostOps0_1, hostOps0_2, hostOps0_3, hostOps0_4]; after_results <;> rfl

theorem at5_arg11 : W5 m ρ c (Proc.devRef .tc main_arg11) = (m ((c : Thread nD τ).loc main_arg11) : FVec Ideal S2048 .f32) := by
  dsimp only [W5, W4, W3, W2, W1, hostOps0, hostOps0_1, hostOps0_2, hostOps0_3, hostOps0_4]; after_results <;> rfl

theorem at5_arg12 : W5 m ρ c (Proc.devRef .tc main_arg12) = (m ((c : Thread nD τ).loc main_arg12) : FVec Ideal S2048 .f32) := by
  dsimp only [W5, W4, W3, W2, W1, hostOps0, hostOps0_1, hostOps0_2, hostOps0_3, hostOps0_4]; after_results <;> rfl

theorem at5_arg14 : W5 m ρ c (Proc.devRef .tc main_arg14) = (m ((c : Thread nD τ).loc main_arg14) : FVec Ideal S2048 .f32) := by
  dsimp only [W5, W4, W3, W2, W1, hostOps0, hostOps0_1, hostOps0_2, hostOps0_3, hostOps0_4]; after_results <;> rfl

theorem at5_arg15 : W5 m ρ c (Proc.devRef .tc main_arg15) = (m ((c : Thread nD τ).loc main_arg15) : FVec Ideal S2048 .f32) := by
  dsimp only [W5, W4, W3, W2, W1, hostOps0, hostOps0_1, hostOps0_2, hostOps0_3, hostOps0_4]; after_results <;> rfl

theorem at5_arg16 : W5 m ρ c (Proc.devRef .tc main_arg16) = (m ((c : Thread nD τ).loc main_arg16) : FVec Ideal S2048 .f32) := by
  dsimp only [W5, W4, W3, W2, W1, hostOps0, hostOps0_1, hostOps0_2, hostOps0_3, hostOps0_4]; after_results <;> rfl

theorem at5_arg18 : W5 m ρ c (Proc.devRef .tc main_arg18) = (m ((c : Thread nD τ).loc main_arg18) : FVec Ideal S2048 .f32) := by
  dsimp only [W5, W4, W3, W2, W1, hostOps0, hostOps0_1, hostOps0_2, hostOps0_3, hostOps0_4]; after_results <;> rfl

theorem at5_arg19 : W5 m ρ c (Proc.devRef .tc main_arg19) = (m ((c : Thread nD τ).loc main_arg19) : FVec Ideal S2048 .f32) := by
  dsimp only [W5, W4, W3, W2, W1, hostOps0, hostOps0_1, hostOps0_2, hostOps0_3, hostOps0_4]; after_results <;> rfl

theorem at5_arg20 : W5 m ρ c (Proc.devRef .tc main_arg20) = (m ((c : Thread nD τ).loc main_arg20) : FVec Ideal S2048 .f32) := by
  dsimp only [W5, W4, W3, W2, W1, hostOps0, hostOps0_1, hostOps0_2, hostOps0_3, hostOps0_4]; after_results <;> rfl

/-! ## At the first region's exit -/

theorem at6_pre1 : W6 m ρ c (Proc.devRef .tc main_v11_0) = (dat0 (F := Ideal) (V5 m ρ) c).arrAt 7 cfg0.N := W6_arr m ρ c 7
theorem at6_outpad : W6 m ρ c (Proc.devRef .tc main_v11_1) = (dat0 (F := Ideal) (V5 m ρ) c).arrAt 8 cfg0.N := W6_arr m ρ c 8

theorem at6_W2 : W6 m ρ c (Proc.devRef .tc main_v5) = truncf (F := Ideal) .bf16 (m ((c : Thread nD τ).loc main_arg13) : FVec Ideal S2048x2048 .f32) bitsLt_bf16_f32 :=
  (W6_of_ne m ρ c main_v5 (by decide)).trans (at5_W2 m ρ c)

theorem at6_W3 : W6 m ρ c (Proc.devRef .tc main_v6) = truncf (F := Ideal) .bf16 (m ((c : Thread nD τ).loc main_arg17) : FVec Ideal S2048x2048 .f32) bitsLt_bf16_f32 :=
  (W6_of_ne m ρ c main_v6 (by decide)).trans (at5_W3 m ρ c)

theorem at6_lam : W6 m ρ c (Proc.devRef .tc main_v0) = shapeCast S_ (m ((c : Thread nD τ).loc main_arg4) : FVec Ideal S1 .f32) Facts₀.shapeCasts_S1_S_ :=
  (W6_of_ne m ρ c main_v0 (by decide)).trans (at5_lam m ρ c)

theorem at6_arg1 : W6 m ρ c (Proc.devRef .tc main_arg1) = (m ((c : Thread nD τ).loc main_arg1) : IVec S4096 32) :=
  (W6_of_ne m ρ c main_arg1 (by decide)).trans (at5_arg1 m ρ c)

theorem at6_arg2 : W6 m ρ c (Proc.devRef .tc main_arg2) = (m ((c : Thread nD τ).loc main_arg2) : IVec S4096 32) :=
  (W6_of_ne m ρ c main_arg2 (by decide)).trans (at5_arg2 m ρ c)

theorem at6_arg3 : W6 m ρ c (Proc.devRef .tc main_arg3) = (m ((c : Thread nD τ).loc main_arg3) : IVec S4096 32) :=
  (W6_of_ne m ρ c main_arg3 (by decide)).trans (at5_arg3 m ρ c)

theorem at6_arg11 : W6 m ρ c (Proc.devRef .tc main_arg11) = (m ((c : Thread nD τ).loc main_arg11) : FVec Ideal S2048 .f32) :=
  (W6_of_ne m ρ c main_arg11 (by decide)).trans (at5_arg11 m ρ c)

theorem at6_arg12 : W6 m ρ c (Proc.devRef .tc main_arg12) = (m ((c : Thread nD τ).loc main_arg12) : FVec Ideal S2048 .f32) :=
  (W6_of_ne m ρ c main_arg12 (by decide)).trans (at5_arg12 m ρ c)

theorem at6_arg14 : W6 m ρ c (Proc.devRef .tc main_arg14) = (m ((c : Thread nD τ).loc main_arg14) : FVec Ideal S2048 .f32) :=
  (W6_of_ne m ρ c main_arg14 (by decide)).trans (at5_arg14 m ρ c)

theorem at6_arg15 : W6 m ρ c (Proc.devRef .tc main_arg15) = (m ((c : Thread nD τ).loc main_arg15) : FVec Ideal S2048 .f32) :=
  (W6_of_ne m ρ c main_arg15 (by decide)).trans (at5_arg15 m ρ c)

theorem at6_arg16 : W6 m ρ c (Proc.devRef .tc main_arg16) = (m ((c : Thread nD τ).loc main_arg16) : FVec Ideal S2048 .f32) :=
  (W6_of_ne m ρ c main_arg16 (by decide)).trans (at5_arg16 m ρ c)

theorem at6_arg18 : W6 m ρ c (Proc.devRef .tc main_arg18) = (m ((c : Thread nD τ).loc main_arg18) : FVec Ideal S2048 .f32) :=
  (W6_of_ne m ρ c main_arg18 (by decide)).trans (at5_arg18 m ρ c)

theorem at6_arg19 : W6 m ρ c (Proc.devRef .tc main_arg19) = (m ((c : Thread nD τ).loc main_arg19) : FVec Ideal S2048 .f32) :=
  (W6_of_ne m ρ c main_arg19 (by decide)).trans (at5_arg19 m ρ c)

theorem at6_arg20 : W6 m ρ c (Proc.devRef .tc main_arg20) = (m ((c : Thread nD τ).loc main_arg20) : FVec Ideal S2048 .f32) :=
  (W6_of_ne m ρ c main_arg20 (by decide)).trans (at5_arg20 m ρ c)

end Cert.KernelIdeal.ChainValue

end
-- ==== Proof.Spec.lean ====
/-
  The mathematics both programs compute, stated once on the extended reals over literal shapes.

  A batch of 4096 rows goes through a featurizer (a dense layer 2048 → 2048), then a projection head of three dense
  layers 2048 → 2048, each followed by a batch normalisation over the 4096 rows (the first two also by a rectifier), and
  beside it a classifier (a dense layer 2048 → 345) applied to the features.  A dense layer is `x · W + b`: entry
  `(i, n)` is the sum over `l` of `x (i, l) * W (l, n)`, plus `b n`.  A batch normalisation of column `n` subtracts the
  column's mean, multiplies by the scale and by the reciprocal square root of the column's variance plus a small
  constant, and adds the shift.

  The two programs differ in ONE place: the column variance.  One takes the mean of the squares minus the square of the
  mean, cut below at zero (`varSq`); the other takes the mean of the squared deviations from the mean (`varDev`).  On real
  numbers these agree (the mean of squares minus the squared mean is the mean squared deviation, and it is never
  negative); on the extended reals they need every entry of the column to be a real number, since the identity uses
  distributivity.  So everything downstream of a variance is stated with the variance as a parameter.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : Nat) : Type := (⟨2, ![a, b]⟩ : Shape).Idx → EReal
/-- A vector of extended reals of length `a`. -/
abbrev Vect (a : Nat) : Type := (⟨1, ![a]⟩ : Shape).Idx → EReal

/-- The float zero, the number of rows 4096.0 and the small constant added to a variance (the float nearest 1e-5), each as
    the extended real its bit pattern denotes. -/
def zero : EReal := Ideal.ofBits .f32 0x00000000#32
def rows : EReal := Ideal.ofBits .f32 0x45800000#32
def eps : EReal := Ideal.ofBits .f32 0x3727C5AC#32

/-- A matrix with a single row, read as a vector. -/
def rowVec {n : Nat} (R : Mat 1 n) : Vect n := fun j => R (ix2 0 (j 0))

/-- A dense layer `x · W + b` at entry `(i, n)`: the sum over `l` of `x (i, l) * W (l, n)`, plus `b n`. -/
def dense {a k n : Nat} (X : Mat a k) (W : Mat k n) (b : Vect n) : Mat a n :=
  fun j => (∑ l : Fin k, X (ix2 (j 0) l) * W (ix2 l (j 1))) + b (ix1 (j 1))

/-- The sum of column `n` from the float zero, and the column's mean: that sum divided by the number of rows. -/
def colSum {a n : Nat} (P : Mat a n) : Vect n := fun j => zero + ∑ i : Fin a, P (ix2 i (j 0))
def colMean {a n : Nat} (P : Mat a n) : Vect n := fun j => Ideal.div (colSum P j) rows

/-- The column variance as the mean of the squares minus the square of the mean, cut below at zero. -/
def varSq {a n : Nat} (P : Mat a n) : Vect n := fun j =>
  max (Ideal.div (zero + ∑ i : Fin a, P (ix2 i (j 0)) * P (ix2 i (j 0))) rows - colMean P j * colMean P j) zero

/-- The column variance as the mean of the squared deviations from the column's mean. -/
def varDev {a n : Nat} (P : Mat a n) : Vect n := fun j =>
  Ideal.div (zero + ∑ i : Fin a, (P (ix2 i (j 0)) - colMean P j) * (P (ix2 i (j 0)) - colMean P j)) rows

/-- Batch normalisation applied with a given mean and variance per column:
    `g n * (x (i, n) - mean n) * rsqrt (var n + eps) + be n`. -/
def bnApply {a n : Nat} (P : Mat a n) (mean var g be : Vect n) : Mat a n := fun j =>
  g (ix1 (j 1)) * (P j - mean (ix1 (j 1))) * Ideal.rsqrt (var (ix1 (j 1)) + eps) + be (ix1 (j 1))

/-- The rectifier: the larger of the entry and the float zero. -/
def relu {a n : Nat} (P : Mat a n) : Mat a n := fun j => max (P j) zero

/-- Batch normalisation of `P` with its own column means and the variance `var P`. -/
def bn (var : Mat 4096 2048 → Vect 2048) (P : Mat 4096 2048) (g be : Vect 2048) : Mat 4096 2048 :=
  bnApply P (colMean P) (var P) g be

/-- One hidden stage of the projection head: normalise, rectify, then the next dense layer. -/
def stage (var : Mat 4096 2048 → Vect 2048) (P : Mat 4096 2048) (g be : Vect 2048) (W : Mat 2048 2048) (b : Vect 2048) :
    Mat 4096 2048 :=
  dense (relu (bn var P g be)) W b

/-- The features `x · Wf + bf`. -/
def feat (X : Mat 4096 2048) (Wf : Mat 2048 2048) (bf : Vect 2048) : Mat 4096 2048 := dense X Wf bf

/-- The logits: the classifier applied to the features. -/
def logits (X : Mat 4096 2048) (Wf : Mat 2048 2048) (bf : Vect 2048) (Wc : Mat 2048 345) (bc : Vect 345) : Mat 4096 345 :=
  dense (feat X Wf bf) Wc bc

/-- The first pre-activation of the projection head. -/
def pre1 (X : Mat 4096 2048) (Wf : Mat 2048 2048) (bf : Vect 2048) (W1 : Mat 2048 2048) (b1 : Vect 2048) : Mat 4096 2048 :=
  dense (feat X Wf bf) W1 b1

/-- The projection: two hidden stages and a last normalisation, with the variance `var` throughout. -/
def proj (var : Mat 4096 2048 → Vect 2048) (X : Mat 4096 2048) (Wf : Mat 2048 2048) (bf : Vect 2048)
    (W1 : Mat 2048 2048) (b1 g1 be1 : Vect 2048) (W2 : Mat 2048 2048) (b2 g2 be2 : Vect 2048)
    (W3 : Mat 2048 2048) (b3 g3 be3 : Vect 2048) : Mat 4096 2048 :=
  bn var (stage var (stage var (pre1 X Wf bf W1 b1) g1 be1 W2 b2) g2 be2 W3 b3) g3 be3

end Cert.Spec

end
-- ==== Proof.MatmulPlain.lean ====
/-
  A plain matrix product read at an entry, on the extended reals.

  For an m×k matrix A and a k×n matrix B, contracted on the second axis of A and the first of B and accumulated
  into the zero matrix, entry (a, b) of the product is the sum over the contracted coordinate c of
  A (a, c) * B (c, b): accumulating into zero adds nothing, and the product without an accumulator is that sum.
-/
import Idealize.ShloMosaic.PureOps.Ideal.Laws
import Idealize.ShloMosaic.Lib.ValueIdx
import Idealize.ShloMosaic.Lib.KernelVsHost
import Idealize.ShloMosaic.Lib.StackMember

noncomputable section

namespace Cert.KernelIdeal.RegionValue

open Idealize.ShloMosaic Idealize.ShloMosaic.ValueIdx

/-- Entry (a, b) of the plain product into the zero matrix is the sum over c of A (a, c) * B (c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The same for any dimension record that is the plain one. -/
theorem matmul_zero_apply_of_plain {m k n : Nat} {φ₁ φ₂ : FTy}
    (D : DotDims ⟨2, ![m, k]⟩ ⟨2, ![k, n]⟩ ⟨2, ![m, n]⟩) (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b)
      = ∑ c : Fin k, A (ix2 a c) * B (ix2 c b) := by
  subst hD
  exact matmul_plain_zero_apply prec A B a b

end Cert.KernelIdeal.RegionValue

end
-- ==== Proof.Region0Payload.lean ====
/-
  The first fused body on one block of 256 rows, as dense layers.

  On a block x of 256 rows the body computes the features of the block, feat = x · Wf + bf (the two changes of float
  format around it are the identity on extended reals), and from them two values: feat · W1 + b1, the first
  pre-activation of the projection head, and feat · Wc + bc, the classifier's logits on the padded 384 columns.
  Each product is a plain matrix product into the zero matrix, so its entry (p, q) is the sum over l of the left
  entry (p, l) times the right entry (l, q); each bias is a single row broadcast over the 256 rows, read at its
  column.  So each value is the specification's dense layer applied to the block, entry by entry.
-/
import proofs.«110836_j8735963480633_2_alg».proof.Proof.Gen.KernelIdeal.Skeleton
import proofs.«110836_j8735963480633_2_alg».proof.Proof.Spec
import proofs.«110836_j8735963480633_2_alg».proof.Proof.MatmulPlain
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.ValueIdx

/-- The dimension records of the body's products are the plain ones: rows by contraction times contraction by columns. -/
theorem dot2048_plain : dot_S256x2048_S2048x2048_S256x2048_1_0_0_1_n_n = DotDims.plain 256 2048 2048 := rfl
theorem dot384_plain : dot_S256x2048_S2048x384_S256x384_1_0_0_1_n_n = DotDims.plain 256 2048 384 := rfl

/-- The features of a block at entry (p, q): the sum over l of x (p, l) * Wf (l, q), plus bf q. -/
theorem feat_block_apply (x0 : Vec Ideal S256x2048 .f32) (x1 : Vec Ideal S2048x2048 .bf16) (x2 : Vec Ideal S1x2048 .f32)
    (p : Fin 256) (q : Fin 2048) :
    k0_pay1 (F := Ideal) x0 x1 x2 (ix2 p q) = (∑ l : Fin 2048, x0 (ix2 p l) * x1 (ix2 l q)) + x2 (ix2 (0 : Fin 1) q) := by
  unfold k0_pay1
  rw [shapeCast_self, shapeCast_self]
  show matmul dot_S256x2048_S2048x2048_S256x2048_1_0_0_1_n_n none (truncf .bf16 x0 _) x1
        (constant (F := Ideal) S256x2048 .f32 0x00000000#32) (ix2 p q)
      + broadcastTo S256x2048 x2 _ (ix2 p q) = _
  rw [matmul_zero_apply_of_plain _ dot2048_plain, broadcastTo_1b_ab_apply]
  rfl

/-- The features of a block are the dense layer of the block. -/
theorem feat_block_eq (x0 : Vec Ideal S256x2048 .f32) (x1 : Vec Ideal S2048x2048 .bf16) (x2 : Vec Ideal S1x2048 .f32) :
    k0_pay1 (F := Ideal) x0 x1 x2 = Cert.Spec.dense x0 x1 (Cert.Spec.rowVec x2) := by
  funext j
  obtain ⟨p, q, rfl⟩ : ∃ (p : Fin 256) (q : Fin 2048), j = ix2 p q := ⟨j 0, j 1, eq_ix2 j⟩
  rw [feat_block_apply]
  rfl

/-- The first pre-activation of a block: the dense layer with W1, b1 of the block's features. -/
theorem pre1_block_eq (x0 : Vec Ideal S256x2048 .f32) (x1 : Vec Ideal S2048x2048 .bf16) (x2 : Vec Ideal S1x2048 .f32)
    (x3 : Vec Ideal S2048x2048 .bf16) (x4 : Vec Ideal S1x2048 .f32) :
    k0_pay2 (F := Ideal) x0 x1 x2 x3 x4
      = Cert.Spec.dense (Cert.Spec.dense x0 x1 (Cert.Spec.rowVec x2)) x3 (Cert.Spec.rowVec x4) := by
  funext j
  obtain ⟨p, q, rfl⟩ : ∃ (p : Fin 256) (q : Fin 2048), j = ix2 p q := ⟨j 0, j 1, eq_ix2 j⟩
  unfold k0_pay2
  rw [shapeCast_self, shapeCast_self, feat_block_eq]
  show matmul dot_S256x2048_S2048x2048_S256x2048_1_0_0_1_n_n none (Cert.Spec.dense x0 x1 (Cert.Spec.rowVec x2)) x3
        (constant (F := Ideal) S256x2048 .f32 0x00000000#32) (ix2 p q)
      + broadcastTo S256x2048 x4 _ (ix2 p q) = _
  rw [matmul_zero_apply_of_plain _ dot2048_plain, broadcastTo_1b_ab_apply]
  rfl

/-- The padded logits of a block: the dense layer with Wc, bc (384 columns) of the block's features. -/
theorem logits_block_eq (x0 : Vec Ideal S256x2048 .f32) (x1 : Vec Ideal S2048x2048 .bf16) (x2 : Vec Ideal S1x2048 .f32)
    (x5 : Vec Ideal S2048x384 .bf16) (x6 : Vec Ideal S1x384 .f32) :
    k0_pay3 (F := Ideal) x0 x1 x2 x5 x6
      = Cert.Spec.dense (Cert.Spec.dense x0 x1 (Cert.Spec.rowVec x2)) x5 (Cert.Spec.rowVec x6) := by
  funext j
  obtain ⟨p, q, rfl⟩ : ∃ (p : Fin 256) (q : Fin 384), j = ix2 p q := ⟨j 0, j 1, eq_ix2 j⟩
  unfold k0_pay3
  rw [shapeCast_self, shapeCast_self, feat_block_eq]
  show matmul dot_S256x2048_S2048x384_S256x384_1_0_0_1_n_n none (Cert.Spec.dense x0 x1 (Cert.Spec.rowVec x2)) x5
        (constant (F := Ideal) S256x384 .f32 0x00000000#32) (ix2 p q)
      + broadcastTo S256x384 x6 _ (ix2 p q) = _
  rw [matmul_zero_apply_of_plain _ dot384_plain, broadcastTo_1b_ab_apply]
  rfl

/-- A dense layer at an entry depends on its input only through the entry's row: two inputs whose rows agree give
    the same entry in the same column. -/
theorem dense_congr_row {a a' k n : Nat} (X : Cert.Spec.Mat a k) (X' : Cert.Spec.Mat a' k) (W : Cert.Spec.Mat k n)
    (b : Cert.Spec.Vect n) (i : (⟨2, ![a, n]⟩ : Shape).Idx) (i' : (⟨2, ![a', n]⟩ : Shape).Idx) (h1 : i 1 = i' 1)
    (hX : ∀ l : Fin k, X (ix2 (i 0) l) = X' (ix2 (i' 0) l)) : Cert.Spec.dense X W b i = Cert.Spec.dense X' W b i' := by
  unfold Cert.Spec.dense
  rw [h1]
  exact congrArg (· + b (ix1 (i' 1))) (Finset.sum_congr rfl fun l _ => by rw [hX l])

/-- The same through two dense layers. -/
theorem dense_dense_congr_row {a a' k k' n : Nat} (X : Cert.Spec.Mat a k) (X' : Cert.Spec.Mat a' k)
    (W : Cert.Spec.Mat k k') (b : Cert.Spec.Vect k') (W2 : Cert.Spec.Mat k' n) (b2 : Cert.Spec.Vect n)
    (i : (⟨2, ![a, n]⟩ : Shape).Idx) (i' : (⟨2, ![a', n]⟩ : Shape).Idx) (h1 : i 1 = i' 1)
    (hX : ∀ l : Fin k, X (ix2 (i 0) l) = X' (ix2 (i' 0) l)) :
    Cert.Spec.dense (Cert.Spec.dense X W b) W2 b2 i = Cert.Spec.dense (Cert.Spec.dense X' W b) W2 b2 i' :=
  dense_congr_row _ _ W2 b2 i i' h1 fun l => dense_congr_row X X' W b _ _ rfl hX

end Cert.KernelIdeal.RegionValue

end
-- ==== Proof.Region0.lean ====
/-
  The first fused region's two output arrays as whole-array functions of the arrays it is entered with.

  The region runs its body at 16 grid points.  Point t reads rows 256 t … 256 t + 255 of the input x (all 2048
  columns) and the whole of the six weight and bias arrays, and writes rows 256 t … 256 t + 255 of each output.  On a
  block the body is two dense layers (the features, then the first projection layer or the classifier), and an entry of
  a dense layer depends on its input only through the entry's row; row r of the block at point t is row 256 t + r of
  the array.  So what point t writes back is block t of the dense layers applied to the whole arrays, and since the 16
  blocks cover all 4096 rows (row r lies in block r / 256) each output array ends holding exactly that function.
-/
import proofs.«110836_j8735963480633_2_alg».proof.Proof.Gen.KernelIdeal.Frame
import proofs.«110836_j8735963480633_2_alg».proof.Proof.Spec
import proofs.«110836_j8735963480633_2_alg».proof.Proof.Region0Payload
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The body's two results on a block -/

/-- What the body leaves in the first output's buffer: the two dense layers x ↦ (x · Wf + bf) · W1 + b1 of the block. -/
theorem out7_block_eq (x0 : Vec Ideal S256x2048 .f32) (x1 : Vec Ideal S2048x2048 .bf16) (x2 : Vec Ideal S1x2048 .f32)
    (x3 : Vec Ideal S2048x2048 .bf16) (x4 : Vec Ideal S1x2048 .f32) (x5 : Vec Ideal S2048x384 .bf16) (x6 : Vec Ideal S1x384 .f32) :
    out0_7 (F := Ideal) x0 x1 x2 x3 x4 x5 x6
      = Cert.Spec.dense (Cert.Spec.dense x0 x1 (Cert.Spec.rowVec x2)) x3 (Cert.Spec.rowVec x4) := by
  unfold out0_7
  rw [View.canon_unit_zero zero_offsets]
  simp only [View.ld_unit_zero (S := S256x2048) zero_offsets, View.ld_unit_zero (S := S2048x2048) zero_offsets,
    View.ld_unit_zero (S := S1x2048) zero_offsets]
  exact pre1_block_eq x0 x1 x2 x3 x4

/-- What the body leaves in the second output's buffer: x ↦ (x · Wf + bf) · Wc + bc of the block, 384 columns. -/
theorem out8_block_eq (x0 : Vec Ideal S256x2048 .f32) (x1 : Vec Ideal S2048x2048 .bf16) (x2 : Vec Ideal S1x2048 .f32)
    (x3 : Vec Ideal S2048x2048 .bf16) (x4 : Vec Ideal S1x2048 .f32) (x5 : Vec Ideal S2048x384 .bf16) (x6 : Vec Ideal S1x384 .f32) :
    out0_8 (F := Ideal) x0 x1 x2 x3 x4 x5 x6
      = Cert.Spec.dense (Cert.Spec.dense x0 x1 (Cert.Spec.rowVec x2)) x5 (Cert.Spec.rowVec x6) := by
  unfold out0_8
  rw [View.canon_unit_zero zero_offsets]
  simp only [View.ld_unit_zero (S := S256x2048) zero_offsets, View.ld_unit_zero (S := S2048x2048) zero_offsets,
    View.ld_unit_zero (S := S1x2048) zero_offsets, View.ld_unit_zero (S := S2048x384) zero_offsets,
    View.ld_unit_zero (S := S1x384) zero_offsets]
  exact logits_block_eq x0 x1 x2 x5 x6

/-! ## The windows' blocks in the arrays -/

/-- The printed index maps, decided over the 16 grid points: the row-blocked windows (the input x and the two outputs)
    are at block (t, 0) at point t, the six whole-array windows at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Entry (r, l) of the input's block at point t is entry (256 t + r, l) of the input array. -/
theorem iblk_x_apply (c : Dev nD) (t : Fin cfg0.N) (r : Fin 256) (l : Fin 2048) (i : Fin 4096)
    (hi : i.val = t.val * 256 + r.val) :
    (iblk0 V c 0 t : Vec Ideal S256x2048 .f32) (ix2 r l) = ((V c (Pipeline.arrRef spec0 0)) : S4096x2048.Idx → EReal) (ix2 i l) := by
  obtain ⟨e00, e01, -⟩ := block_indices t
  show (V c (Pipeline.arrRef spec0 0)) (((cfg0.win 0).blk t).view.emb (ix2 r l)) = _
  refine congrArg (V c (Pipeline.arrRef spec0 0)) (funext fun a => Fin.ext ?_)
  match a with
  | ⟨0, _⟩ => show win0_0.index t (0 : Fin 2) * 256 + 1 * r.val = i.val; omega
  | ⟨1, _⟩ => show win0_0.index t (1 : Fin 2) * 2048 + 1 * l.val = l.val; omega

/-- A whole-array window's block at any point is its array: block (0, 0) of an array blocked by its own size. -/
theorem iblk_Wf (c : Dev nD) (t : Fin cfg0.N) :
    (iblk0 V c 1 t : Vec Ideal S2048x2048 .bf16) = ((V c (Pipeline.arrRef spec0 1)) : S2048x2048.Idx → EReal) := by
  obtain ⟨-, -, e0, e1, -⟩ := block_indices t
  funext y
  show (V c (Pipeline.arrRef spec0 1)) (((cfg0.win 1).blk t).view.emb y) = _
  refine congrArg (V c (Pipeline.arrRef spec0 1)) (funext fun a => Fin.ext ?_)
  match a with
  | ⟨0, _⟩ => show win0_1.index t (0 : Fin 2) * 2048 + 1 * (y 0).val = (y 0).val; omega
  | ⟨1, _⟩ => show win0_1.index t (1 : Fin 2) * 2048 + 1 * (y 1).val = (y 1).val; omega

theorem iblk_bf (c : Dev nD) (t : Fin cfg0.N) :
    (iblk0 V c 2 t : Vec Ideal S1x2048 .f32) = ((V c (Pipeline.arrRef spec0 2)) : S1x2048.Idx → EReal) := by
  obtain ⟨-, -, -, -, e0, e1, -⟩ := block_indices t
  funext y
  show (V c (Pipeline.arrRef spec0 2)) (((cfg0.win 2).blk t).view.emb y) = _
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem iblk_W1 (c : Dev nD) (t : Fin cfg0.N) :
    (iblk0 V c 3 t : Vec Ideal S2048x2048 .bf16) = ((V c (Pipeline.arrRef spec0 3)) : S2048x2048.Idx → EReal) := by
  obtain ⟨-, -, -, -, -, -, e0, e1, -⟩ := block_indices t
  funext y
  show (V c (Pipeline.arrRef spec0 3)) (((cfg0.win 3).blk t).view.emb y) = _
  refine congrArg (V c (Pipeline.arrRef spec0 3)) (funext fun a => Fin.ext ?_)
  match a with
  | ⟨0, _⟩ => show win0_3.index t (0 : Fin 2) * 2048 + 1 * (y 0).val = (y 0).val; omega
  | ⟨1, _⟩ => show win0_3.index t (1 : Fin 2) * 2048 + 1 * (y 1).val = (y 1).val; omega

theorem iblk_b1 (c : Dev nD) (t : Fin cfg0.N) :
    (iblk0 V c 4 t : Vec Ideal S1x2048 .f32) = ((V c (Pipeline.arrRef spec0 4)) : S1x2048.Idx → EReal) := by
  obtain ⟨-, -, -, -, -, -, -, -, e0, e1, -⟩ := block_indices t
  funext y
  show (V c (Pipeline.arrRef spec0 4)) (((cfg0.win 4).blk t).view.emb y) = _
  refine congrArg (V c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem iblk_Wc (c : Dev nD) (t : Fin cfg0.N) :
    (iblk0 V c 5 t : Vec Ideal S2048x384 .bf16) = ((V c (Pipeline.arrRef spec0 5)) : S2048x384.Idx → EReal) := by
  obtain ⟨-, -, -, -, -, -, -, -, -, -, e0, e1, -⟩ := block_indices t
  funext y
  show (V c (Pipeline.arrRef spec0 5)) (((cfg0.win 5).blk t).view.emb y) = _
  refine congrArg (V c (Pipeline.arrRef spec0 5)) (funext fun a => Fin.ext ?_)
  match a with
  | ⟨0, _⟩ => show win0_5.index t (0 : Fin 2) * 2048 + 1 * (y 0).val = (y 0).val; omega
  | ⟨1, _⟩ => show win0_5.index t (1 : Fin 2) * 384 + 1 * (y 1).val = (y 1).val; omega

theorem iblk_bc (c : Dev nD) (t : Fin cfg0.N) :
    (iblk0 V c 6 t : Vec Ideal S1x384 .f32) = ((V c (Pipeline.arrRef spec0 6)) : S1x384.Idx → EReal) := by
  obtain ⟨-, -, -, -, -, -, -, -, -, -, -, -, e0, e1, -⟩ := block_indices t
  funext y
  show (V c (Pipeline.arrRef spec0 6)) (((cfg0.win 6).blk t).view.emb y) = _
  refine congrArg (V c (Pipeline.arrRef spec0 6)) (funext fun a => Fin.ext ?_)
  match a with
  | ⟨0, _⟩ => show win0_6.index t (0 : Fin 2) * 1 + 1 * (y 0).val = (y 0).val; omega
  | ⟨1, _⟩ => show win0_6.index t (1 : Fin 2) * 384 + 1 * (y 1).val = (y 1).val; omega

/-! ## The two output arrays as functions of the region's arrays -/

/-- The first pre-activation of the projection head on all 4096 rows: (x · Wf + bf) · W1 + b1. -/
def pre1Arr (c : Dev nD) : Cert.Spec.Mat 4096 2048 :=
  Cert.Spec.dense (Cert.Spec.dense (V c (Pipeline.arrRef spec0 0)) (V c (Pipeline.arrRef spec0 1)) (Cert.Spec.rowVec (V c (Pipeline.arrRef spec0 2)))) (V c (Pipeline.arrRef spec0 3)) (Cert.Spec.rowVec (V c (Pipeline.arrRef spec0 4)))

/-- The classifier's logits on all 4096 rows and the padded 384 columns: (x · Wf + bf) · Wc + bc. -/
def logitsArr (c : Dev nD) : Cert.Spec.Mat 4096 384 :=
  Cert.Spec.dense (Cert.Spec.dense (V c (Pipeline.arrRef spec0 0)) (V c (Pipeline.arrRef spec0 1)) (Cert.Spec.rowVec (V c (Pipeline.arrRef spec0 2)))) (V c (Pipeline.arrRef spec0 5)) (Cert.Spec.rowVec (V c (Pipeline.arrRef spec0 6)))

/-- What point t writes back to the first output is block t of `pre1Arr`. -/
theorem flushed7_eq (c : Dev nD) (t : Fin cfg0.N) :
    (dat0 (F := Ideal) V c).flushed 7 t = ((cfg0.win 7).blk t).view.read (Elt Ideal) (pre1Arr V c) := by
  show (cfg0.win 7).cut (grid0.coords t) ((dat0 (F := Ideal) V c).after 7 t) = _
  rw [after0_7, out7_block_eq, iblk_Wf, iblk_bf, iblk_W1, iblk_b1]
  obtain ⟨e00, e01, -, -, -, -, -, -, -, -, -, -, -, -, e70, e71, -⟩ := block_indices t
  funext j
  show Cert.Spec.dense (Cert.Spec.dense (iblk0 V c 0 t) (V c (Pipeline.arrRef spec0 1)) (Cert.Spec.rowVec (V c (Pipeline.arrRef spec0 2)))) (V c (Pipeline.arrRef spec0 3)) (Cert.Spec.rowVec (V c (Pipeline.arrRef spec0 4))) j
      = pre1Arr V c (((cfg0.win 7).blk t).view.emb j)
  unfold pre1Arr
  refine dense_dense_congr_row _ _ _ _ _ _ j _ (Fin.ext ?_) fun l => ?_
  · show (j 1).val = win0_7.index t (1 : Fin 2) * 2048 + 1 * (j 1).val
    omega
  · refine iblk_x_apply V c t (j 0) l _ ?_
    show win0_7.index t (0 : Fin 2) * 256 + 1 * (j 0).val = t.val * 256 + (j 0).val
    omega

/-- What point t writes back to the second output is block t of `logitsArr`. -/
theorem flushed8_eq (c : Dev nD) (t : Fin cfg0.N) :
    (dat0 (F := Ideal) V c).flushed 8 t = ((cfg0.win 8).blk t).view.read (Elt Ideal) (logitsArr V c) := by
  show (cfg0.win 8).cut (grid0.coords t) ((dat0 (F := Ideal) V c).after 8 t) = _
  rw [after0_8, out8_block_eq, iblk_Wf, iblk_bf, iblk_Wc, iblk_bc]
  obtain ⟨e00, e01, -, -, -, -, -, -, -, -, -, -, -, -, -, -, e80, e81⟩ := block_indices t
  funext j
  show Cert.Spec.dense (Cert.Spec.dense (iblk0 V c 0 t) (V c (Pipeline.arrRef spec0 1)) (Cert.Spec.rowVec (V c (Pipeline.arrRef spec0 2)))) (V c (Pipeline.arrRef spec0 5)) (Cert.Spec.rowVec (V c (Pipeline.arrRef spec0 6))) j
      = logitsArr V c (((cfg0.win 8).blk t).view.emb j)
  unfold logitsArr
  refine dense_dense_congr_row _ _ _ _ _ _ j _ (Fin.ext ?_) fun l => ?_
  · show (j 1).val = win0_8.index t (1 : Fin 2) * 384 + 1 * (j 1).val
    omega
  · refine iblk_x_apply V c t (j 0) l _ ?_
    show win0_8.index t (0 : Fin 2) * 256 + 1 * (j 0).val = t.val * 256 + (j 0).val
    omega

/-! ## The blocks cover the arrays -/

/-- An entry of the first output array is in point t's block iff each coordinate is in the block's range. -/
theorem mem_blk7 (t : Fin cfg0.N) (i : S4096x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v11_0).slice (win0_7.rect t)).set ↔ _
  rw [View.set_slice_whole, Rect.mem_set_unit]
  exact Iff.rfl

theorem mem_blk8 (t : Fin cfg0.N) (i : S4096x384.Idx) :
    i ∈ ((cfg0.win 8).blk t).view.set ↔ ∀ a : Fin 2, win0_8.index t a * S256x384.size a ≤ (i a).val
      ∧ (i a).val < win0_8.index t a * S256x384.size a + S256x384.size a := by
  show i ∈ ((View.whole main_v11_1).slice (win0_8.rect t)).set ↔ _
  rw [View.set_slice_whole, Rect.mem_set_unit]
  exact Iff.rfl

/-- Row r of the first output array lies in the block of point r / 256, which writes it back. -/
theorem cover7 (i : S4096x2048.Idx) :
    ∃ t : Fin cfg0.N, (cfg0.win 7).flush t = true ∧ i ∈ ((cfg0.win 7).blk t).view.set := by
  have hN : cfg0.N = 16 := N_0
  have hi0 : (i 0).val < 4096 := idx2_lt0 i
  have hi1 : (i 1).val < 2048 := idx2_lt1 i
  obtain ⟨t, ht⟩ : ∃ t : Fin cfg0.N, t.val = (i 0).val / 256 := ⟨⟨(i 0).val / 256, by rw [hN]; omega⟩, rfl⟩
  obtain ⟨-, -, -, -, -, -, -, -, -, -, -, -, -, -, e70, e71, -⟩ := block_indices t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 2048 ≤ (i 1).val ∧ (i 1).val < win0_7.index t (1 : Fin 2) * 2048 + 2048
    omega

/-- Row r of the second output array lies in the block of point r / 256, which writes it back. -/
theorem cover8 (i : S4096x384.Idx) :
    ∃ t : Fin cfg0.N, (cfg0.win 8).flush t = true ∧ i ∈ ((cfg0.win 8).blk t).view.set := by
  have hN : cfg0.N = 16 := N_0
  have hi0 : (i 0).val < 4096 := idx2_lt0 i
  have hi1 : (i 1).val < 384 := idx2_lt1 i
  obtain ⟨t, ht⟩ : ∃ t : Fin cfg0.N, t.val = (i 0).val / 256 := ⟨⟨(i 0).val / 256, by rw [hN]; omega⟩, rfl⟩
  obtain ⟨-, -, -, -, -, -, -, -, -, -, -, -, -, -, -, -, e80, e81⟩ := block_indices t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 384 ≤ (i 1).val ∧ (i 1).val < win0_8.index t (1 : Fin 2) * 384 + 384
    omega

/-! ## The arrays after the region -/

/-- The first output array after all 16 points: the first pre-activation (x · Wf + bf) · W1 + b1 of the arrays the
    region is entered with. -/
theorem final0_7 (c : Dev nD) :
    (dat0 (F := Ideal) V c).arrAt 7 cfg0.N
      = Cert.Spec.dense (Cert.Spec.dense (V c (Pipeline.arrRef spec0 0)) (V c (Pipeline.arrRef spec0 1)) (Cert.Spec.rowVec (V c (Pipeline.arrRef spec0 2)))) (V c (Pipeline.arrRef spec0 3)) (Cert.Spec.rowVec (V c (Pipeline.arrRef spec0 4))) :=
  (dat0 (F := Ideal) V c).arrAt_eq_of_cover 7 (pre1Arr V c) (fun t _ => flushed7_eq V c t) cover7

/-- The second output array after all 16 points: the padded logits (x · Wf + bf) · Wc + bc, a 4096 × 384 matrix. -/
theorem final0_8 (c : Dev nD) :
    (dat0 (F := Ideal) V c).arrAt 8 cfg0.N
      = Cert.Spec.dense (Cert.Spec.dense (V c (Pipeline.arrRef spec0 0)) (V c (Pipeline.arrRef spec0 1)) (Cert.Spec.rowVec (V c (Pipeline.arrRef spec0 2)))) (V c (Pipeline.arrRef spec0 5)) (Cert.Spec.rowVec (V c (Pipeline.arrRef spec0 6))) :=
  (dat0 (F := Ideal) V c).arrAt_eq_of_cover 8 (logitsArr V c) (fun t _ => flushed8_eq V c t) cover8

end Cert.KernelIdeal.RegionValue

end
-- ==== Proof.HostStats.lean ====
/-
  The host's column statistics between two kernel regions, read as functions of the matrix they are taken of.

  For a matrix `P` with 4096 rows the program sums each column from the float zero, divides by the broadcast 4096.0 (the
  column's mean), does the same with the squares, subtracts the squared mean and takes the maximum with the broadcast
  zero (the variance, cut below at zero).  Both are then recast from `[2048]` to `[1, 2048]`, the shape the next
  region's windows read them in; reading row 0 of the recast array gives the vector back.
-/
import proofs.«110836_j8735963480633_2_alg».proof.Proof.Gen.KernelIdeal
import proofs.«110836_j8735963480633_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostValue

open Cert.KernelIdeal Cert.KernelIdeal.Facts₀ Idealize.ShloMosaic Idealize.ShloMosaic.ValueIdx Cert.Spec

/-- A `[n]` vector recast to `[1, n]`, read back along its one row, is the vector. -/
theorem rowVec_shapeCast {n : Nat} (v : (⟨1, ![n]⟩ : Shape).Idx → EReal)
    (h : (⟨1, ![n]⟩ : Shape).ShapeCasts ⟨2, ![1, n]⟩) : rowVec (shapeCast ⟨2, ![1, n]⟩ v h) = v := by
  funext j
  rw [eq_ix1 j]
  exact shapeCast_a_1a_apply v h 0 (j 0)

/-- The host's sum of each column from the float zero. -/
theorem colSum_eq (P : FVec Ideal S4096x2048 .f32) :
    Host.reduceAdd (F := Ideal) P (constant (F := Ideal) S_ .f32 0x00000000#32) reducesTo_S4096x2048_S2048_d0 h_S_
      = colSum P := by
  funext i
  simp only [Host.reduceAdd, Ideal.hostReduceAdd_def]
  rw [Ideal.hostReduceAdd_single reducesTo_S4096x2048_S2048_d0 (by decide)]
  unfold colSum zero
  refine congrArg (_ + ·) (Finset.sum_congr rfl fun k _ => ?_)
  exact congrArg P (funext fun a => Fin.ext (by match a with | ⟨0, _⟩ => rfl | ⟨1, _⟩ => rfl))

/-- A scalar constant broadcast to a vector is that constant's value at every index. -/
theorem bcast_const (b : BitVec 32) (i : S2048.Idx) :
    broadcastInDim S2048 ![] bcast_S_S2048 (constant (F := Ideal) S_ .f32 b) i = Ideal.ofBits .f32 b :=
  broadcastInDim_apply _ bcast_S_S2048 _ i (fun a => a.elim0) (fun a => a.elim0)

/-- The column mean: the column sum divided by the broadcast number of rows. -/
theorem mean_eq (P : FVec Ideal S4096x2048 .f32) :
    Host.divf (Host.reduceAdd (F := Ideal) P (constant (F := Ideal) S_ .f32 0x00000000#32) reducesTo_S4096x2048_S2048_d0 h_S_)
        (broadcastInDim S2048 ![] bcast_S_S2048 (constant (F := Ideal) S_ .f32 0x45800000#32))
      = colMean P := by
  rw [colSum_eq]
  funext i
  show Ideal.div (colSum P i) (broadcastInDim S2048 ![] bcast_S_S2048 (constant (F := Ideal) S_ .f32 0x45800000#32) i) = _
  rw [bcast_const]
  rfl

/-- The column variance as the program takes it: the mean of the squares minus the squared mean, cut below at zero. -/
theorem var_eq (P : FVec Ideal S4096x2048 .f32) :
    maximumf
        (subf
          (Host.divf (Host.reduceAdd (F := Ideal) (mulf P P) (constant (F := Ideal) S_ .f32 0x00000000#32) reducesTo_S4096x2048_S2048_d0 h_S_)
            (broadcastInDim S2048 ![] bcast_S_S2048 (constant (F := Ideal) S_ .f32 0x45800000#32)))
          (mulf
            (Host.divf (Host.reduceAdd (F := Ideal) P (constant (F := Ideal) S_ .f32 0x00000000#32) reducesTo_S4096x2048_S2048_d0 h_S_)
              (broadcastInDim S2048 ![] bcast_S_S2048 (constant (F := Ideal) S_ .f32 0x45800000#32)))
            (Host.divf (Host.reduceAdd (F := Ideal) P (constant (F := Ideal) S_ .f32 0x00000000#32) reducesTo_S4096x2048_S2048_d0 h_S_)
              (broadcastInDim S2048 ![] bcast_S_S2048 (constant (F := Ideal) S_ .f32 0x45800000#32)))))
        (broadcastInDim S2048 ![] bcast_S_S2048 (constant (F := Ideal) S_ .f32 0x00000000#32))
      = varSq P := by
  rw [mean_eq, colSum_eq]
  funext i
  show max (Ideal.div (colSum (mulf P P) i) (broadcastInDim S2048 ![] bcast_S_S2048 (constant (F := Ideal) S_ .f32 0x45800000#32) i)
      - colMean P i * colMean P i) (broadcastInDim S2048 ![] bcast_S_S2048 (constant (F := Ideal) S_ .f32 0x00000000#32) i) = _
  rw [bcast_const, bcast_const]
  rfl

end Cert.KernelIdeal.HostValue

end
-- ==== Proof.Chain1.lean ====
/-
  The first kernel region's two output arrays as functions of the argument arrays: the first pre-activation of the
  projection head, `(x · Wf + bf) · W1 + b1`, and the padded logits, the classifier with its weight and bias padded to
  384 columns applied to the same features.  The region's windows read the argument arrays (recast, padded, or in
  another float format, which changes nothing on extended reals), so its whole-array value is those formulas.
-/
import proofs.«110836_j8735963480633_2_alg».proof.Proof.Chain0
import proofs.«110836_j8735963480633_2_alg».proof.Proof.Region0
import proofs.«110836_j8735963480633_2_alg».proof.Proof.HostStats
import proofs.«110836_j8735963480633_2_alg».proof.Proof.Spec

set_option maxRecDepth 16384

noncomputable section

namespace Cert.KernelIdeal.ChainValue

open Cert.KernelIdeal Cert.KernelIdeal.Gen Idealize.ShloMosaic Idealize.ShloMosaic.StableHlo Idealize.ShloMosaic.TcCoe Idealize.SL.Sem Cert.Spec

variable (m : (ℓ : Loc nD τ sig) → Buf (Elt Ideal) ℓ) (ρ : Dev nD → PrngReg) (c : Dev nD)

/-! ## The argument arrays, by the names the mathematics gives them -/

abbrev aX : Mat 4096 2048 := m ((c : Thread nD τ).loc main_arg0)
abbrev aWf : Mat 2048 2048 := m ((c : Thread nD τ).loc main_arg5)
abbrev abf : Vect 2048 := m ((c : Thread nD τ).loc main_arg6)
abbrev aWc : Mat 2048 345 := m ((c : Thread nD τ).loc main_arg7)
abbrev abc : Vect 345 := m ((c : Thread nD τ).loc main_arg8)
abbrev aW1 : Mat 2048 2048 := m ((c : Thread nD τ).loc main_arg9)
abbrev ab1 : Vect 2048 := m ((c : Thread nD τ).loc main_arg10)
abbrev ag1 : Vect 2048 := m ((c : Thread nD τ).loc main_arg11)
abbrev abe1 : Vect 2048 := m ((c : Thread nD τ).loc main_arg12)
abbrev aW2 : Mat 2048 2048 := m ((c : Thread nD τ).loc main_arg13)
abbrev ab2 : Vect 2048 := m ((c : Thread nD τ).loc main_arg14)
abbrev ag2 : Vect 2048 := m ((c : Thread nD τ).loc main_arg15)
abbrev abe2 : Vect 2048 := m ((c : Thread nD τ).loc main_arg16)
abbrev aW3 : Mat 2048 2048 := m ((c : Thread nD τ).loc main_arg17)
abbrev ab3 : Vect 2048 := m ((c : Thread nD τ).loc main_arg18)
abbrev ag3 : Vect 2048 := m ((c : Thread nD τ).loc main_arg19)
abbrev abe3 : Vect 2048 := m ((c : Thread nD τ).loc main_arg20)

/-- The scalar that pads the classifier: the integer zero converted to a float. -/
abbrev padZero : FVec Ideal S_ .f32 := sitofp (F := Ideal) .f32 (constantI S_ 32 0#32)

/-- The padded logits: the classifier, padded to 384 columns, applied to the features. -/
def paddedLogits : Mat 4096 384 :=
  dense (feat (aX m c) (aWf m c) (abf m c))
    (pad S2048x384 ![0, 0] ![0, 39] ![0, 0] (aWc m c) padZero Facts₀.pads_S2048x345_S2048x384_000_0390 Facts₀.h_S_)
    (rowVec (shapeCast S1x384 (pad S384 ![0] ![39] ![0] (abc m c) padZero Facts₀.pads_S345_S384_0390 Facts₀.h_S_) Facts₀.shapeCasts_S384_S1x384))

/-- After the first region its first output array is the first pre-activation. -/
theorem pre1_value : W6 m ρ c (Proc.devRef .tc main_v11_0) = pre1 (aX m c) (aWf m c) (abf m c) (aW1 m c) (ab1 m c) := by
  rw [at6_pre1, RegionValue.final0_7 (V5 m ρ) c]
  rw [show V5 m ρ c (Pipeline.arrRef spec0 0) = _ from at5_x m ρ c, show V5 m ρ c (Pipeline.arrRef spec0 1) = _ from at5_Wf m ρ c,
    show V5 m ρ c (Pipeline.arrRef spec0 2) = _ from at5_bf m ρ c, show V5 m ρ c (Pipeline.arrRef spec0 3) = _ from at5_W1 m ρ c,
    show V5 m ρ c (Pipeline.arrRef spec0 4) = _ from at5_b1 m ρ c]
  rw [HostValue.rowVec_shapeCast, HostValue.rowVec_shapeCast]
  rfl

/-- After the first region its second output array is the padded logits. -/
theorem outpad_value : W6 m ρ c (Proc.devRef .tc main_v11_1) = paddedLogits m c := by
  rw [at6_outpad, RegionValue.final0_8 (V5 m ρ) c]
  rw [show V5 m ρ c (Pipeline.arrRef spec0 0) = _ from at5_x m ρ c, show V5 m ρ c (Pipeline.arrRef spec0 1) = _ from at5_Wf m ρ c,
    show V5 m ρ c (Pipeline.arrRef spec0 2) = _ from at5_bf m ρ c, show V5 m ρ c (Pipeline.arrRef spec0 5) = _ from at5_Wc m ρ c,
    show V5 m ρ c (Pipeline.arrRef spec0 6) = _ from at5_bc m ρ c]
  rw [HostValue.rowVec_shapeCast]
  rfl

end Cert.KernelIdeal.ChainValue

end
-- ==== Proof.Region1.lean ====
/-
  The first hidden stage of the projection head, region 1 of the kernel's program, as one function of the arrays
  the region finds.

  The region runs over 8 grid points.  Point `t` reads rows `512 t … 512 t + 511` of the pre-activation `[4096, 2048]`,
  the four whole row vectors `[1, 2048]` (mean, variance, scale, shift), the whole weight matrix `[2048, 2048]` and the
  whole bias row `[1, 2048]`, and writes the same rows of the output.  The body normalises its block entry by entry
  (`g l * (x (p, l) - mean l) * rsqrt (var l + eps) + be l`), cuts it below at zero, and multiplies the result by the weight
  matrix into a zero accumulator: entry `(p, q)` of what it writes is the sum over `l` of the rectified normalised entry
  `(p, l)` times `W (l, q)`, plus `b q`.  A change of float format is the identity on the extended reals.  The eight
  blocks tile the output array, so the array ends holding `Cert.Spec.dense (Cert.Spec.relu (Cert.Spec.bnApply …)) W b`.
-/
import proofs.«110836_j8735963480633_2_alg».proof.Proof.Gen.KernelIdeal.Frame
import proofs.«110836_j8735963480633_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product's operand indices

The product contracts the left operand's axis 1 with the right operand's axis 0: at output entry `(p, q)` and contraction
index `l` it reads the left operand at `(p, l)` and the right at `(l, q)`. -/

theorem mm_lhs1_0 (i : S512x2048.Idx) (k : dot_S512x2048_S2048x2048_S512x2048_1_0_0_1_n_n.contr.Idx) :
    (dot_S512x2048_S2048x2048_S512x2048_1_0_0_1_n_n.lhsIdx i k 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem mm_lhs1_1 (i : S512x2048.Idx) (k : dot_S512x2048_S2048x2048_S512x2048_1_0_0_1_n_n.contr.Idx) :
    (dot_S512x2048_S2048x2048_S512x2048_1_0_0_1_n_n.lhsIdx i k 1).val = (k ⟨0, by decide⟩).val :=
  dot_S512x2048_S2048x2048_S512x2048_1_0_0_1_n_n.lhsIdx_val_of_single rfl i k
theorem mm_rhs1_0 (i : S512x2048.Idx) (k : dot_S512x2048_S2048x2048_S512x2048_1_0_0_1_n_n.contr.Idx) :
    (dot_S512x2048_S2048x2048_S512x2048_1_0_0_1_n_n.rhsIdx i k 0).val = (k ⟨0, by decide⟩).val :=
  dot_S512x2048_S2048x2048_S512x2048_1_0_0_1_n_n.rhsIdx_val_of_single rfl i k
theorem mm_rhs1_1 (i : S512x2048.Idx) (k : dot_S512x2048_S2048x2048_S512x2048_1_0_0_1_n_n.contr.Idx) :
    (dot_S512x2048_S2048x2048_S512x2048_1_0_0_1_n_n.rhsIdx i k 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-! ## The body's payload at an index -/

/-- Entry `(p, q)` of the body's one store: the sum over `l` of the rectified normalised entry `(p, l)` of the block
    times the weight `(l, q)`, plus the bias at column `q`. -/
theorem pay1_apply (x : Vec Ideal S512x2048 .f32) (g mean var be : Vec Ideal S1x2048 .f32) (W : Vec Ideal S2048x2048 .bf16)
    (b : Vec Ideal S1x2048 .f32) (p : Fin 512) (q : Fin 2048) :
    k1_pay1 (F := Ideal) x g mean var be W b (ix2 p q)
      = (∑ l : Fin 2048, max (g (ix2 0 l) * (x (ix2 p l) - mean (ix2 0 l)) * Ideal.rsqrt (var (ix2 0 l) + Cert.Spec.eps)
            + be (ix2 0 l)) Cert.Spec.zero * W (ix2 l q)) + b (ix2 0 q) := by
  unfold k1_pay1
  simp only [shapeCast_self]
  rw [addf_apply, broadcastTo_1b_ab_apply]
  refine congrArg (· + b (ix2 0 q)) ?_
  simp only [matmul]
  rw [Ideal.matmul_constant_zero_apply, ← Equiv.sum_comp (contrEquiv1 dot_S512x2048_S2048x2048_S512x2048_1_0_0_1_n_n 2048 rfl rfl).symm]
  refine Finset.sum_congr rfl fun l _ => ?_
  have hk := contrEquiv1_symm_val dot_S512x2048_S2048x2048_S512x2048_1_0_0_1_n_n 2048 rfl rfl l
  have el : dot_S512x2048_S2048x2048_S512x2048_1_0_0_1_n_n.lhsIdx (ix2 p q) ((contrEquiv1 dot_S512x2048_S2048x2048_S512x2048_1_0_0_1_n_n 2048 rfl rfl).symm l) = ix2 p l := funext fun a => Fin.ext (by
    match a with
    | ⟨0, _⟩ => exact mm_lhs1_0 _ _
    | ⟨1, _⟩ => exact (mm_lhs1_1 _ _).trans hk)
  have er : dot_S512x2048_S2048x2048_S512x2048_1_0_0_1_n_n.rhsIdx (ix2 p q) ((contrEquiv1 dot_S512x2048_S2048x2048_S512x2048_1_0_0_1_n_n 2048 rfl rfl).symm l) = ix2 l q := funext fun a => Fin.ext (by
    match a with
    | ⟨0, _⟩ => exact (mm_rhs1_0 _ _).trans hk
    | ⟨1, _⟩ => exact mm_rhs1_1 _ _)
  rw [el, er]
  rw [truncf_apply, maximumf_apply, addf_apply, mulf_apply, mulf_apply, subf_apply]
  rw [broadcastTo_1b_ab_apply, broadcastTo_1b_ab_apply, broadcastTo_1b_ab_apply, broadcastTo_1b_ab_apply]
  rfl

/-- The same entry when the block `x` is rows `512 r …` of an array `P`, the four row vectors are the arrays `M`, `Vr`,
    `G`, `B`, the weights the array `Wm` and the bias row the array `C`: it is the dense layer of the rectified normalised
    array at the entry `i` of `P` that `j` sits at. -/
theorem point1 (x : Vec Ideal S512x2048 .f32) (xm xv xg xb : Vec Ideal S1x2048 .f32) (xW : Vec Ideal S2048x2048 .bf16)
    (xc : Vec Ideal S1x2048 .f32)
    (P : Cert.Spec.Mat 4096 2048) (M Vr G B : Cert.Spec.Mat 1 2048) (Wm : Cert.Spec.Mat 2048 2048) (C : Cert.Spec.Mat 1 2048) (r : Nat)
    (hx : ∀ (y : S512x2048.Idx) (k : S4096x2048.Idx), (k 0).val = r * 512 + (y 0).val → (k 1).val = (y 1).val → x y = P k)
    (hm : ∀ y : S1x2048.Idx, xm y = M y) (hv : ∀ y : S1x2048.Idx, xv y = Vr y)
    (hg : ∀ y : S1x2048.Idx, xg y = G y) (hb : ∀ y : S1x2048.Idx, xb y = B y)
    (hW : ∀ y : S2048x2048.Idx, xW y = Wm y) (hc : ∀ y : S1x2048.Idx, xc y = C y)
    (j : S512x2048.Idx) (i : S4096x2048.Idx) (hi0 : (i 0).val = r * 512 + (j 0).val) (hi1 : (i 1).val = (j 1).val) :
    k1_pay1 (F := Ideal) x xg xm xv xb xW xc j
      = Cert.Spec.dense (Cert.Spec.relu (Cert.Spec.bnApply P (Cert.Spec.rowVec M) (Cert.Spec.rowVec Vr) (Cert.Spec.rowVec G)
          (Cert.Spec.rowVec B))) Wm (Cert.Spec.rowVec C) i := by
  obtain ⟨p, q, rfl⟩ : ∃ (p : Fin 512) (q : Fin 2048), j = ix2 p q := ⟨j 0, j 1, eq_ix2 j⟩
  obtain ⟨p', q', rfl⟩ : ∃ (p' : Fin 4096) (q' : Fin 2048), i = ix2 p' q' := ⟨i 0, i 1, eq_ix2 i⟩
  have hq : q' = q := Fin.ext hi1
  subst hq
  rw [pay1_apply, hc]
  show _ = (∑ l : Fin 2048, Cert.Spec.relu (Cert.Spec.bnApply P (Cert.Spec.rowVec M) (Cert.Spec.rowVec Vr) (Cert.Spec.rowVec G)
      (Cert.Spec.rowVec B)) (ix2 p' l) * Wm (ix2 l q')) + C (ix2 0 q')
  refine congrArg (· + C (ix2 0 q')) (Finset.sum_congr rfl fun l _ => ?_)
  rw [hx (ix2 p l) (ix2 p' l) hi0 rfl, hm, hv, hg, hb, hW]
  rfl

/-! ## From the blocks to the array -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The array the region leaves: the dense layer, with the weights and bias it finds, of the rectified normalisation of
    the pre-activation it finds with the mean, variance, scale and shift it finds. -/
abbrev stageOut1 (c : Dev nD) : Cert.Spec.Mat 4096 2048 :=
  Cert.Spec.dense (a := 4096) (k := 2048) (n := 2048)
    (Cert.Spec.relu (a := 4096) (n := 2048) (Cert.Spec.bnApply (a := 4096) (n := 2048) (V c (Pipeline.arrRef spec1 0))
      (Cert.Spec.rowVec (n := 2048) (V c (Pipeline.arrRef spec1 1))) (Cert.Spec.rowVec (n := 2048) (V c (Pipeline.arrRef spec1 2)))
      (Cert.Spec.rowVec (n := 2048) (V c (Pipeline.arrRef spec1 3))) (Cert.Spec.rowVec (n := 2048) (V c (Pipeline.arrRef spec1 4)))))
    (V c (Pipeline.arrRef spec1 5)) (Cert.Spec.rowVec (n := 2048) (V c (Pipeline.arrRef spec1 6)))

/-- The printed index maps, decided over the 8 grid points: the pre-activation's and the output's block index is
    `(t, 0)`, the whole-array operands' is `(0, 0)`. -/
theorem block_index1_0 : ∀ t : Fin cfg1.N,
    win1_0.index t (0 : Fin 2) = t.val ∧ win1_0.index t (1 : Fin 2) = 0 :=
  (by decide +kernel : ∀ t : Fin grid1.N, _)
theorem block_index1_1 : ∀ t : Fin cfg1.N,
    win1_1.index t (0 : Fin 2) = 0 ∧ win1_1.index t (1 : Fin 2) = 0 :=
  (by decide +kernel : ∀ t : Fin grid1.N, _)
theorem block_index1_2 : ∀ t : Fin cfg1.N,
    win1_2.index t (0 : Fin 2) = 0 ∧ win1_2.index t (1 : Fin 2) = 0 :=
  (by decide +kernel : ∀ t : Fin grid1.N, _)
theorem block_index1_3 : ∀ t : Fin cfg1.N,
    win1_3.index t (0 : Fin 2) = 0 ∧ win1_3.index t (1 : Fin 2) = 0 :=
  (by decide +kernel : ∀ t : Fin grid1.N, _)
theorem block_index1_4 : ∀ t : Fin cfg1.N,
    win1_4.index t (0 : Fin 2) = 0 ∧ win1_4.index t (1 : Fin 2) = 0 :=
  (by decide +kernel : ∀ t : Fin grid1.N, _)
theorem block_index1_5 : ∀ t : Fin cfg1.N,
    win1_5.index t (0 : Fin 2) = 0 ∧ win1_5.index t (1 : Fin 2) = 0 :=
  (by decide +kernel : ∀ t : Fin grid1.N, _)
theorem block_index1_6 : ∀ t : Fin cfg1.N,
    win1_6.index t (0 : Fin 2) = 0 ∧ win1_6.index t (1 : Fin 2) = 0 :=
  (by decide +kernel : ∀ t : Fin grid1.N, _)
theorem block_index1_7 : ∀ t : Fin cfg1.N,
    win1_7.index t (0 : Fin 2) = t.val ∧ win1_7.index t (1 : Fin 2) = 0 :=
  (by decide +kernel : ∀ t : Fin grid1.N, _)

/-- The pre-activation's block at point `t` is rows `512 t …` of the array: its entry `y` is the array's entry `k`
    on the same column, `512 t` rows further down. -/
theorem iblk1_0_apply (c : Dev nD) (t : Fin cfg1.N) (y : S512x2048.Idx) (k : S4096x2048.Idx)
    (hk0 : (k 0).val = t.val * 512 + (y 0).val) (hk1 : (k 1).val = (y 1).val) :
    iblk1 V c 0 t y = V c (Pipeline.arrRef spec1 0) k := by
  obtain ⟨e0, e1⟩ := block_index1_0 t
  unfold iblk1
  rw [View.read_apply]
  refine congrArg (V c (Pipeline.arrRef spec1 0)) (funext fun a => Fin.ext ?_)
  match a with
  | ⟨0, _⟩ => show win1_0.index t (0 : Fin 2) * 512 + 1 * (y 0).val = (k 0).val; omega
  | ⟨1, _⟩ => show win1_0.index t (1 : Fin 2) * 2048 + 1 * (y 1).val = (k 1).val; omega

/-- Window 1 holds its whole array at every point: its block index is `(0, 0)`. -/
theorem iblk1_1_apply (c : Dev nD) (t : Fin cfg1.N) (y : S1x2048.Idx) :
    iblk1 V c 1 t y = V c (Pipeline.arrRef spec1 1) y := by
  obtain ⟨e0, e1⟩ := block_index1_1 t
  unfold iblk1
  rw [View.read_apply]
  refine congrArg (V c (Pipeline.arrRef spec1 1)) (funext fun a => Fin.ext ?_)
  match a with
  | ⟨0, _⟩ => show win1_1.index t (0 : Fin 2) * 1 + 1 * (y 0).val = (y 0).val; omega
  | ⟨1, _⟩ => show win1_1.index t (1 : Fin 2) * 2048 + 1 * (y 1).val = (y 1).val; omega

/-- Window 2 holds its whole array at every point: its block index is `(0, 0)`. -/
theorem iblk1_2_apply (c : Dev nD) (t : Fin cfg1.N) (y : S1x2048.Idx) :
    iblk1 V c 2 t y = V c (Pipeline.arrRef spec1 2) y := by
  obtain ⟨e0, e1⟩ := block_index1_2 t
  unfold iblk1
  rw [View.read_apply]
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

/-- Window 3 holds its whole array at every point: its block index is `(0, 0)`. -/
theorem iblk1_3_apply (c : Dev nD) (t : Fin cfg1.N) (y : S1x2048.Idx) :
    iblk1 V c 3 t y = V c (Pipeline.arrRef spec1 3) y := by
  obtain ⟨e0, e1⟩ := block_index1_3 t
  unfold iblk1
  rw [View.read_apply]
  refine congrArg (V c (Pipeline.arrRef spec1 3)) (funext fun a => Fin.ext ?_)
  match a with
  | ⟨0, _⟩ => show win1_3.index t (0 : Fin 2) * 1 + 1 * (y 0).val = (y 0).val; omega
  | ⟨1, _⟩ => show win1_3.index t (1 : Fin 2) * 2048 + 1 * (y 1).val = (y 1).val; omega

/-- Window 4 holds its whole array at every point: its block index is `(0, 0)`. -/
theorem iblk1_4_apply (c : Dev nD) (t : Fin cfg1.N) (y : S1x2048.Idx) :
    iblk1 V c 4 t y = V c (Pipeline.arrRef spec1 4) y := by
  obtain ⟨e0, e1⟩ := block_index1_4 t
  unfold iblk1
  rw [View.read_apply]
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 2048 + 1 * (y 1).val = (y 1).val; omega

/-- Window 5 holds its whole array at every point: its block index is `(0, 0)`. -/
theorem iblk1_5_apply (c : Dev nD) (t : Fin cfg1.N) (y : S2048x2048.Idx) :
    iblk1 V c 5 t y = V c (Pipeline.arrRef spec1 5) y := by
  obtain ⟨e0, e1⟩ := block_index1_5 t
  unfold iblk1
  rw [View.read_apply]
  refine congrArg (V c (Pipeline.arrRef spec1 5)) (funext fun a => Fin.ext ?_)
  match a with
  | ⟨0, _⟩ => show win1_5.index t (0 : Fin 2) * 2048 + 1 * (y 0).val = (y 0).val; omega
  | ⟨1, _⟩ => show win1_5.index t (1 : Fin 2) * 2048 + 1 * (y 1).val = (y 1).val; omega

/-- Window 6 holds its whole array at every point: its block index is `(0, 0)`. -/
theorem iblk1_6_apply (c : Dev nD) (t : Fin cfg1.N) (y : S1x2048.Idx) :
    iblk1 V c 6 t y = V c (Pipeline.arrRef spec1 6) y := by
  obtain ⟨e0, e1⟩ := block_index1_6 t
  unfold iblk1
  rw [View.read_apply]
  refine congrArg (V c (Pipeline.arrRef spec1 6)) (funext fun a => Fin.ext ?_)
  match a with
  | ⟨0, _⟩ => show win1_6.index t (0 : Fin 2) * 1 + 1 * (y 0).val = (y 0).val; omega
  | ⟨1, _⟩ => show win1_6.index t (1 : Fin 2) * 2048 + 1 * (y 1).val = (y 1).val; omega

/-- What point `t` writes back is block `t` of the stage's array. -/
theorem flushed1_eq (c : Dev nD) (t : Fin cfg1.N) :
    (dat1 (F := Ideal) V c).flushed 7 t = ((cfg1.win 7).blk t).view.read (Elt Ideal) (stageOut1 V c) := by
  show (cfg1.win 7).cut (grid1.coords t) ((dat1 (F := Ideal) V c).after 7 t) = _
  rw [after1_7]
  unfold out1_7
  rw [View.canon_unit_zero zero_offsets1]
  simp only [View.ld_unit_zero (S := S512x2048) zero_offsets1, View.ld_unit_zero (S := S1x2048) zero_offsets1,
    View.ld_unit_zero (S := S2048x2048) zero_offsets1]
  obtain ⟨e0, e1⟩ := block_index1_7 t
  funext j
  show k1_pay1 (F := Ideal) (iblk1 V c 0 t) (iblk1 V c 3 t) (iblk1 V c 1 t) (iblk1 V c 2 t) (iblk1 V c 4 t)
      (iblk1 V c 5 t) (iblk1 V c 6 t) j
    = stageOut1 V c (((cfg1.win 7).blk t).view.emb j)
  refine point1 (iblk1 V c 0 t) (iblk1 V c 1 t) (iblk1 V c 2 t) (iblk1 V c 3 t) (iblk1 V c 4 t) (iblk1 V c 5 t)
    (iblk1 V c 6 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) t.val
    (iblk1_0_apply V c t) (iblk1_1_apply V c t) (iblk1_2_apply V c t) (iblk1_3_apply V c t) (iblk1_4_apply V c t)
    (iblk1_5_apply V c t) (iblk1_6_apply V c t) j
    (((cfg1.win 7).blk t).view.emb j) ?_ ?_
  · show win1_7.index t (0 : Fin 2) * 512 + 1 * (j 0).val = t.val * 512 + (j 0).val; omega
  · show win1_7.index t (1 : Fin 2) * 2048 + 1 * (j 1).val = (j 1).val; omega

/-- An index of the output array is in point `t`'s block iff each coordinate is in the block's range on its axis. -/
theorem mem_blk1 (t : Fin cfg1.N) (i : S4096x2048.Idx) :
    i ∈ ((cfg1.win 7).blk t).view.set ↔ ∀ a : Fin 2, win1_7.index t a * S512x2048.size a ≤ (i a).val
      ∧ (i a).val < win1_7.index t a * S512x2048.size a + S512x2048.size a := by
  show i ∈ ((View.whole main_v28).slice (win1_7.rect t)).set ↔ _
  rw [View.set_slice_whole, Rect.mem_set_unit]
  exact Iff.rfl

/-- Every index of the output array is in the block of the point its row falls in: row `r` is written at point
    `r / 512`. -/
theorem cover1 (i : S4096x2048.Idx) :
    ∃ t : Fin cfg1.N, (cfg1.win 7).flush t = true ∧ i ∈ ((cfg1.win 7).blk t).view.set := by
  have hi0 : (i 0).val < 4096 := (i 0).isLt
  have hi1 : (i 1).val < 2048 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨e0, e1⟩ := block_index1_7 t
  refine ⟨t, flush1_7 t, ?_⟩
  rw [mem_blk1]
  intro a
  match a with
  | ⟨0, _⟩ =>
    show win1_7.index t (0 : Fin 2) * 512 ≤ (i 0).val ∧ (i 0).val < win1_7.index t (0 : Fin 2) * 512 + 512
    omega
  | ⟨1, _⟩ =>
    show win1_7.index t (1 : Fin 2) * 2048 ≤ (i 1).val ∧ (i 1).val < win1_7.index t (1 : Fin 2) * 2048 + 2048
    omega

/-- The output array after the region's last point: the dense layer `Cert.Spec.dense`, with the weight and bias arrays,
    of the rectified normalisation of the pre-activation array with the mean, variance, scale and shift arrays, all as
    the region finds them. -/
theorem final1 (c : Dev nD) :
    (dat1 (F := Ideal) V c).arrAt 7 cfg1.N
      = Cert.Spec.dense (a := 4096) (k := 2048) (n := 2048)
          (Cert.Spec.relu (a := 4096) (n := 2048) (Cert.Spec.bnApply (a := 4096) (n := 2048) (V c (Pipeline.arrRef spec1 0))
            (Cert.Spec.rowVec (n := 2048) (V c (Pipeline.arrRef spec1 1))) (Cert.Spec.rowVec (n := 2048) (V c (Pipeline.arrRef spec1 2)))
            (Cert.Spec.rowVec (n := 2048) (V c (Pipeline.arrRef spec1 3))) (Cert.Spec.rowVec (n := 2048) (V c (Pipeline.arrRef spec1 4)))))
          (V c (Pipeline.arrRef spec1 5)) (Cert.Spec.rowVec (n := 2048) (V c (Pipeline.arrRef spec1 6))) :=
  (dat1 (F := Ideal) V c).arrAt_eq_of_cover 7 (stageOut1 V c) (fun t _ => flushed1_eq V c t) cover1

end Cert.KernelIdeal.RegionValue

end
-- ==== Proof.Region2.lean ====
/-
  The second hidden stage of the projection head, region 2 of the kernel's program, as one function of the arrays
  the region finds.

  The region runs over 8 grid points.  Point `t` reads rows `512 t … 512 t + 511` of the pre-activation `[4096, 2048]`,
  the four whole row vectors `[1, 2048]` (mean, variance, scale, shift), the whole weight matrix `[2048, 2048]` and the
  whole bias row `[1, 2048]`, and writes the same rows of the output.  The body normalises its block entry by entry
  (`g l * (x (p, l) - mean l) * rsqrt (var l + eps) + be l`), cuts it below at zero, and multiplies the result by the weight
  matrix into a zero accumulator: entry `(p, q)` of what it writes is the sum over `l` of the rectified normalised entry
  `(p, l)` times `W (l, q)`, plus `b q`.  A change of float format is the identity on the extended reals.  The eight
  blocks tile the output array, so the array ends holding `Cert.Spec.dense (Cert.Spec.relu (Cert.Spec.bnApply …)) W b`.
-/
import proofs.«110836_j8735963480633_2_alg».proof.Proof.Gen.KernelIdeal.Frame
import proofs.«110836_j8735963480633_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product's operand indices

The product contracts the left operand's axis 1 with the right operand's axis 0: at output entry `(p, q)` and contraction
index `l` it reads the left operand at `(p, l)` and the right at `(l, q)`. -/

theorem mm_lhs2_0 (i : S512x2048.Idx) (k : dot_S512x2048_S2048x2048_S512x2048_1_0_0_1_n_n.contr.Idx) :
    (dot_S512x2048_S2048x2048_S512x2048_1_0_0_1_n_n.lhsIdx i k 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem mm_lhs2_1 (i : S512x2048.Idx) (k : dot_S512x2048_S2048x2048_S512x2048_1_0_0_1_n_n.contr.Idx) :
    (dot_S512x2048_S2048x2048_S512x2048_1_0_0_1_n_n.lhsIdx i k 1).val = (k ⟨0, by decide⟩).val :=
  dot_S512x2048_S2048x2048_S512x2048_1_0_0_1_n_n.lhsIdx_val_of_single rfl i k
theorem mm_rhs2_0 (i : S512x2048.Idx) (k : dot_S512x2048_S2048x2048_S512x2048_1_0_0_1_n_n.contr.Idx) :
    (dot_S512x2048_S2048x2048_S512x2048_1_0_0_1_n_n.rhsIdx i k 0).val = (k ⟨0, by decide⟩).val :=
  dot_S512x2048_S2048x2048_S512x2048_1_0_0_1_n_n.rhsIdx_val_of_single rfl i k
theorem mm_rhs2_1 (i : S512x2048.Idx) (k : dot_S512x2048_S2048x2048_S512x2048_1_0_0_1_n_n.contr.Idx) :
    (dot_S512x2048_S2048x2048_S512x2048_1_0_0_1_n_n.rhsIdx i k 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-! ## The body's payload at an index -/

/-- Entry `(p, q)` of the body's one store: the sum over `l` of the rectified normalised entry `(p, l)` of the block
    times the weight `(l, q)`, plus the bias at column `q`. -/
theorem pay2_apply (x : Vec Ideal S512x2048 .f32) (g mean var be : Vec Ideal S1x2048 .f32) (W : Vec Ideal S2048x2048 .bf16)
    (b : Vec Ideal S1x2048 .f32) (p : Fin 512) (q : Fin 2048) :
    k2_pay1 (F := Ideal) x g mean var be W b (ix2 p q)
      = (∑ l : Fin 2048, max (g (ix2 0 l) * (x (ix2 p l) - mean (ix2 0 l)) * Ideal.rsqrt (var (ix2 0 l) + Cert.Spec.eps)
            + be (ix2 0 l)) Cert.Spec.zero * W (ix2 l q)) + b (ix2 0 q) := by
  unfold k2_pay1
  simp only [shapeCast_self]
  rw [addf_apply, broadcastTo_1b_ab_apply]
  refine congrArg (· + b (ix2 0 q)) ?_
  simp only [matmul]
  rw [Ideal.matmul_constant_zero_apply, ← Equiv.sum_comp (contrEquiv1 dot_S512x2048_S2048x2048_S512x2048_1_0_0_1_n_n 2048 rfl rfl).symm]
  refine Finset.sum_congr rfl fun l _ => ?_
  have hk := contrEquiv1_symm_val dot_S512x2048_S2048x2048_S512x2048_1_0_0_1_n_n 2048 rfl rfl l
  have el : dot_S512x2048_S2048x2048_S512x2048_1_0_0_1_n_n.lhsIdx (ix2 p q) ((contrEquiv1 dot_S512x2048_S2048x2048_S512x2048_1_0_0_1_n_n 2048 rfl rfl).symm l) = ix2 p l := funext fun a => Fin.ext (by
    match a with
    | ⟨0, _⟩ => exact mm_lhs2_0 _ _
    | ⟨1, _⟩ => exact (mm_lhs2_1 _ _).trans hk)
  have er : dot_S512x2048_S2048x2048_S512x2048_1_0_0_1_n_n.rhsIdx (ix2 p q) ((contrEquiv1 dot_S512x2048_S2048x2048_S512x2048_1_0_0_1_n_n 2048 rfl rfl).symm l) = ix2 l q := funext fun a => Fin.ext (by
    match a with
    | ⟨0, _⟩ => exact (mm_rhs2_0 _ _).trans hk
    | ⟨1, _⟩ => exact mm_rhs2_1 _ _)
  rw [el, er]
  rw [truncf_apply, maximumf_apply, addf_apply, mulf_apply, mulf_apply, subf_apply]
  rw [broadcastTo_1b_ab_apply, broadcastTo_1b_ab_apply, broadcastTo_1b_ab_apply, broadcastTo_1b_ab_apply]
  rfl

/-- The same entry when the block `x` is rows `512 r …` of an array `P`, the four row vectors are the arrays `M`, `Vr`,
    `G`, `B`, the weights the array `Wm` and the bias row the array `C`: it is the dense layer of the rectified normalised
    array at the entry `i` of `P` that `j` sits at. -/
theorem point2 (x : Vec Ideal S512x2048 .f32) (xm xv xg xb : Vec Ideal S1x2048 .f32) (xW : Vec Ideal S2048x2048 .bf16)
    (xc : Vec Ideal S1x2048 .f32)
    (P : Cert.Spec.Mat 4096 2048) (M Vr G B : Cert.Spec.Mat 1 2048) (Wm : Cert.Spec.Mat 2048 2048) (C : Cert.Spec.Mat 1 2048) (r : Nat)
    (hx : ∀ (y : S512x2048.Idx) (k : S4096x2048.Idx), (k 0).val = r * 512 + (y 0).val → (k 1).val = (y 1).val → x y = P k)
    (hm : ∀ y : S1x2048.Idx, xm y = M y) (hv : ∀ y : S1x2048.Idx, xv y = Vr y)
    (hg : ∀ y : S1x2048.Idx, xg y = G y) (hb : ∀ y : S1x2048.Idx, xb y = B y)
    (hW : ∀ y : S2048x2048.Idx, xW y = Wm y) (hc : ∀ y : S1x2048.Idx, xc y = C y)
    (j : S512x2048.Idx) (i : S4096x2048.Idx) (hi0 : (i 0).val = r * 512 + (j 0).val) (hi1 : (i 1).val = (j 1).val) :
    k2_pay1 (F := Ideal) x xg xm xv xb xW xc j
      = Cert.Spec.dense (Cert.Spec.relu (Cert.Spec.bnApply P (Cert.Spec.rowVec M) (Cert.Spec.rowVec Vr) (Cert.Spec.rowVec G)
          (Cert.Spec.rowVec B))) Wm (Cert.Spec.rowVec C) i := by
  obtain ⟨p, q, rfl⟩ : ∃ (p : Fin 512) (q : Fin 2048), j = ix2 p q := ⟨j 0, j 1, eq_ix2 j⟩
  obtain ⟨p', q', rfl⟩ : ∃ (p' : Fin 4096) (q' : Fin 2048), i = ix2 p' q' := ⟨i 0, i 1, eq_ix2 i⟩
  have hq : q' = q := Fin.ext hi1
  subst hq
  rw [pay2_apply, hc]
  show _ = (∑ l : Fin 2048, Cert.Spec.relu (Cert.Spec.bnApply P (Cert.Spec.rowVec M) (Cert.Spec.rowVec Vr) (Cert.Spec.rowVec G)
      (Cert.Spec.rowVec B)) (ix2 p' l) * Wm (ix2 l q')) + C (ix2 0 q')
  refine congrArg (· + C (ix2 0 q')) (Finset.sum_congr rfl fun l _ => ?_)
  rw [hx (ix2 p l) (ix2 p' l) hi0 rfl, hm, hv, hg, hb, hW]
  rfl

/-! ## From the blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The array the region leaves: the dense layer, with the weights and bias it finds, of the rectified normalisation of
    the pre-activation it finds with the mean, variance, scale and shift it finds. -/
abbrev stageOut2 (c : Dev nD) : Cert.Spec.Mat 4096 2048 :=
  Cert.Spec.dense (a := 4096) (k := 2048) (n := 2048)
    (Cert.Spec.relu (a := 4096) (n := 2048) (Cert.Spec.bnApply (a := 4096) (n := 2048) (V c (Pipeline.arrRef spec2 0))
      (Cert.Spec.rowVec (n := 2048) (V c (Pipeline.arrRef spec2 1))) (Cert.Spec.rowVec (n := 2048) (V c (Pipeline.arrRef spec2 2)))
      (Cert.Spec.rowVec (n := 2048) (V c (Pipeline.arrRef spec2 3))) (Cert.Spec.rowVec (n := 2048) (V c (Pipeline.arrRef spec2 4)))))
    (V c (Pipeline.arrRef spec2 5)) (Cert.Spec.rowVec (n := 2048) (V c (Pipeline.arrRef spec2 6)))

/-- The printed index maps, decided over the 8 grid points: the pre-activation's and the output's block index is
    `(t, 0)`, the whole-array operands' is `(0, 0)`. -/
theorem block_index2_0 : ∀ t : Fin cfg2.N,
    win2_0.index t (0 : Fin 2) = t.val ∧ win2_0.index t (1 : Fin 2) = 0 :=
  (by decide +kernel : ∀ t : Fin grid2.N, _)
theorem block_index2_1 : ∀ t : Fin cfg2.N,
    win2_1.index t (0 : Fin 2) = 0 ∧ win2_1.index t (1 : Fin 2) = 0 :=
  (by decide +kernel : ∀ t : Fin grid2.N, _)
theorem block_index2_2 : ∀ t : Fin cfg2.N,
    win2_2.index t (0 : Fin 2) = 0 ∧ win2_2.index t (1 : Fin 2) = 0 :=
  (by decide +kernel : ∀ t : Fin grid2.N, _)
theorem block_index2_3 : ∀ t : Fin cfg2.N,
    win2_3.index t (0 : Fin 2) = 0 ∧ win2_3.index t (1 : Fin 2) = 0 :=
  (by decide +kernel : ∀ t : Fin grid2.N, _)
theorem block_index2_4 : ∀ t : Fin cfg2.N,
    win2_4.index t (0 : Fin 2) = 0 ∧ win2_4.index t (1 : Fin 2) = 0 :=
  (by decide +kernel : ∀ t : Fin grid2.N, _)
theorem block_index2_5 : ∀ t : Fin cfg2.N,
    win2_5.index t (0 : Fin 2) = 0 ∧ win2_5.index t (1 : Fin 2) = 0 :=
  (by decide +kernel : ∀ t : Fin grid2.N, _)
theorem block_index2_6 : ∀ t : Fin cfg2.N,
    win2_6.index t (0 : Fin 2) = 0 ∧ win2_6.index t (1 : Fin 2) = 0 :=
  (by decide +kernel : ∀ t : Fin grid2.N, _)
theorem block_index2_7 : ∀ t : Fin cfg2.N,
    win2_7.index t (0 : Fin 2) = t.val ∧ win2_7.index t (1 : Fin 2) = 0 :=
  (by decide +kernel : ∀ t : Fin grid2.N, _)

/-- The pre-activation's block at point `t` is rows `512 t …` of the array: its entry `y` is the array's entry `k`
    on the same column, `512 t` rows further down. -/
theorem iblk2_0_apply (c : Dev nD) (t : Fin cfg2.N) (y : S512x2048.Idx) (k : S4096x2048.Idx)
    (hk0 : (k 0).val = t.val * 512 + (y 0).val) (hk1 : (k 1).val = (y 1).val) :
    iblk2 V c 0 t y = V c (Pipeline.arrRef spec2 0) k := by
  obtain ⟨e0, e1⟩ := block_index2_0 t
  unfold iblk2
  rw [View.read_apply]
  refine congrArg (V c (Pipeline.arrRef spec2 0)) (funext fun a => Fin.ext ?_)
  match a with
  | ⟨0, _⟩ => show win2_0.index t (0 : Fin 2) * 512 + 1 * (y 0).val = (k 0).val; omega
  | ⟨1, _⟩ => show win2_0.index t (1 : Fin 2) * 2048 + 1 * (y 1).val = (k 1).val; omega

/-- Window 1 holds its whole array at every point: its block index is `(0, 0)`. -/
theorem iblk2_1_apply (c : Dev nD) (t : Fin cfg2.N) (y : S1x2048.Idx) :
    iblk2 V c 1 t y = V c (Pipeline.arrRef spec2 1) y := by
  obtain ⟨e0, e1⟩ := block_index2_1 t
  unfold iblk2
  rw [View.read_apply]
  refine congrArg (V c (Pipeline.arrRef spec2 1)) (funext fun a => Fin.ext ?_)
  match a with
  | ⟨0, _⟩ => show win2_1.index t (0 : Fin 2) * 1 + 1 * (y 0).val = (y 0).val; omega
  | ⟨1, _⟩ => show win2_1.index t (1 : Fin 2) * 2048 + 1 * (y 1).val = (y 1).val; omega

/-- Window 2 holds its whole array at every point: its block index is `(0, 0)`. -/
theorem iblk2_2_apply (c : Dev nD) (t : Fin cfg2.N) (y : S1x2048.Idx) :
    iblk2 V c 2 t y = V c (Pipeline.arrRef spec2 2) y := by
  obtain ⟨e0, e1⟩ := block_index2_2 t
  unfold iblk2
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 2048 + 1 * (y 1).val = (y 1).val; omega

/-- Window 3 holds its whole array at every point: its block index is `(0, 0)`. -/
theorem iblk2_3_apply (c : Dev nD) (t : Fin cfg2.N) (y : S1x2048.Idx) :
    iblk2 V c 3 t y = V c (Pipeline.arrRef spec2 3) y := by
  obtain ⟨e0, e1⟩ := block_index2_3 t
  unfold iblk2
  rw [View.read_apply]
  refine congrArg (V c (Pipeline.arrRef spec2 3)) (funext fun a => Fin.ext ?_)
  match a with
  | ⟨0, _⟩ => show win2_3.index t (0 : Fin 2) * 1 + 1 * (y 0).val = (y 0).val; omega
  | ⟨1, _⟩ => show win2_3.index t (1 : Fin 2) * 2048 + 1 * (y 1).val = (y 1).val; omega

/-- Window 4 holds its whole array at every point: its block index is `(0, 0)`. -/
theorem iblk2_4_apply (c : Dev nD) (t : Fin cfg2.N) (y : S1x2048.Idx) :
    iblk2 V c 4 t y = V c (Pipeline.arrRef spec2 4) y := by
  obtain ⟨e0, e1⟩ := block_index2_4 t
  unfold iblk2
  rw [View.read_apply]
  refine congrArg (V c (Pipeline.arrRef spec2 4)) (funext fun a => Fin.ext ?_)
  match a with
  | ⟨0, _⟩ => show win2_4.index t (0 : Fin 2) * 1 + 1 * (y 0).val = (y 0).val; omega
  | ⟨1, _⟩ => show win2_4.index t (1 : Fin 2) * 2048 + 1 * (y 1).val = (y 1).val; omega

/-- Window 5 holds its whole array at every point: its block index is `(0, 0)`. -/
theorem iblk2_5_apply (c : Dev nD) (t : Fin cfg2.N) (y : S2048x2048.Idx) :
    iblk2 V c 5 t y = V c (Pipeline.arrRef spec2 5) y := by
  obtain ⟨e0, e1⟩ := block_index2_5 t
  unfold iblk2
  rw [View.read_apply]
  refine congrArg (V c (Pipeline.arrRef spec2 5)) (funext fun a => Fin.ext ?_)
  match a with
  | ⟨0, _⟩ => show win2_5.index t (0 : Fin 2) * 2048 + 1 * (y 0).val = (y 0).val; omega
  | ⟨1, _⟩ => show win2_5.index t (1 : Fin 2) * 2048 + 1 * (y 1).val = (y 1).val; omega

/-- Window 6 holds its whole array at every point: its block index is `(0, 0)`. -/
theorem iblk2_6_apply (c : Dev nD) (t : Fin cfg2.N) (y : S1x2048.Idx) :
    iblk2 V c 6 t y = V c (Pipeline.arrRef spec2 6) y := by
  obtain ⟨e0, e1⟩ := block_index2_6 t
  unfold iblk2
  rw [View.read_apply]
  refine congrArg (V c (Pipeline.arrRef spec2 6)) (funext fun a => Fin.ext ?_)
  match a with
  | ⟨0, _⟩ => show win2_6.index t (0 : Fin 2) * 1 + 1 * (y 0).val = (y 0).val; omega
  | ⟨1, _⟩ => show win2_6.index t (1 : Fin 2) * 2048 + 1 * (y 1).val = (y 1).val; omega

/-- What point `t` writes back is block `t` of the stage's array. -/
theorem flushed2_eq (c : Dev nD) (t : Fin cfg2.N) :
    (dat2 (F := Ideal) V c).flushed 7 t = ((cfg2.win 7).blk t).view.read (Elt Ideal) (stageOut2 V c) := by
  show (cfg2.win 7).cut (grid2.coords t) ((dat2 (F := Ideal) V c).after 7 t) = _
  rw [after2_7]
  unfold out2_7
  rw [View.canon_unit_zero zero_offsets2]
  simp only [View.ld_unit_zero (S := S512x2048) zero_offsets2, View.ld_unit_zero (S := S1x2048) zero_offsets2,
    View.ld_unit_zero (S := S2048x2048) zero_offsets2]
  obtain ⟨e0, e1⟩ := block_index2_7 t
  funext j
  show k2_pay1 (F := Ideal) (iblk2 V c 0 t) (iblk2 V c 3 t) (iblk2 V c 1 t) (iblk2 V c 2 t) (iblk2 V c 4 t)
      (iblk2 V c 5 t) (iblk2 V c 6 t) j
    = stageOut2 V c (((cfg2.win 7).blk t).view.emb j)
  refine point2 (iblk2 V c 0 t) (iblk2 V c 1 t) (iblk2 V c 2 t) (iblk2 V c 3 t) (iblk2 V c 4 t) (iblk2 V c 5 t)
    (iblk2 V c 6 t)
    (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) t.val
    (iblk2_0_apply V c t) (iblk2_1_apply V c t) (iblk2_2_apply V c t) (iblk2_3_apply V c t) (iblk2_4_apply V c t)
    (iblk2_5_apply V c t) (iblk2_6_apply V c t) j
    (((cfg2.win 7).blk t).view.emb j) ?_ ?_
  · show win2_7.index t (0 : Fin 2) * 512 + 1 * (j 0).val = t.val * 512 + (j 0).val; omega
  · show win2_7.index t (1 : Fin 2) * 2048 + 1 * (j 1).val = (j 1).val; omega

/-- An index of the output array is in point `t`'s block iff each coordinate is in the block's range on its axis. -/
theorem mem_blk2 (t : Fin cfg2.N) (i : S4096x2048.Idx) :
    i ∈ ((cfg2.win 7).blk t).view.set ↔ ∀ a : Fin 2, win2_7.index t a * S512x2048.size a ≤ (i a).val
      ∧ (i a).val < win2_7.index t a * S512x2048.size a + S512x2048.size a := by
  show i ∈ ((View.whole main_v45).slice (win2_7.rect t)).set ↔ _
  rw [View.set_slice_whole, Rect.mem_set_unit]
  exact Iff.rfl

/-- Every index of the output array is in the block of the point its row falls in: row `r` is written at point
    `r / 512`. -/
theorem cover2 (i : S4096x2048.Idx) :
    ∃ t : Fin cfg2.N, (cfg2.win 7).flush t = true ∧ i ∈ ((cfg2.win 7).blk t).view.set := by
  have hi0 : (i 0).val < 4096 := (i 0).isLt
  have hi1 : (i 1).val < 2048 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨e0, e1⟩ := block_index2_7 t
  refine ⟨t, flush2_7 t, ?_⟩
  rw [mem_blk2]
  intro a
  match a with
  | ⟨0, _⟩ =>
    show win2_7.index t (0 : Fin 2) * 512 ≤ (i 0).val ∧ (i 0).val < win2_7.index t (0 : Fin 2) * 512 + 512
    omega
  | ⟨1, _⟩ =>
    show win2_7.index t (1 : Fin 2) * 2048 ≤ (i 1).val ∧ (i 1).val < win2_7.index t (1 : Fin 2) * 2048 + 2048
    omega

/-- The output array after the region's last point: the dense layer `Cert.Spec.dense`, with the weight and bias arrays,
    of the rectified normalisation of the pre-activation array with the mean, variance, scale and shift arrays, all as
    the region finds them. -/
theorem final2 (c : Dev nD) :
    (dat2 (F := Ideal) V c).arrAt 7 cfg2.N
      = Cert.Spec.dense (a := 4096) (k := 2048) (n := 2048)
          (Cert.Spec.relu (a := 4096) (n := 2048) (Cert.Spec.bnApply (a := 4096) (n := 2048) (V c (Pipeline.arrRef spec2 0))
            (Cert.Spec.rowVec (n := 2048) (V c (Pipeline.arrRef spec2 1))) (Cert.Spec.rowVec (n := 2048) (V c (Pipeline.arrRef spec2 2)))
            (Cert.Spec.rowVec (n := 2048) (V c (Pipeline.arrRef spec2 3))) (Cert.Spec.rowVec (n := 2048) (V c (Pipeline.arrRef spec2 4)))))
          (V c (Pipeline.arrRef spec2 5)) (Cert.Spec.rowVec (n := 2048) (V c (Pipeline.arrRef spec2 6))) :=
  (dat2 (F := Ideal) V c).arrAt_eq_of_cover 7 (stageOut2 V c) (fun t _ => flushed2_eq V c t) cover2

end Cert.KernelIdeal.RegionValue

end
-- ==== Proof.HostStretch.lean ====
/-
  What each stretch of host operations between the kernel regions leaves in the buffers the next region reads, for an
  arbitrary valuation `V` of the buffers at the stretch's start: the column statistics (a mean and a variance per column,
  recast from `[2048]` to `[1, 2048]`), the scale / shift / bias vectors recast the same way, and the buffers that the
  stretch does not write and a later segment still reads, unchanged.
-/
import proofs.«110836_j8735963480633_2_alg».proof.Proof.Gen.KernelIdeal.Launch
import Idealize.ShloMosaic.PureOps.Ideal
import Idealize.ShloMosaic.Lib.StableHlo.Run

set_option maxRecDepth 16384

noncomputable section

namespace Cert.KernelIdeal.StretchValue

open Cert.KernelIdeal Cert.KernelIdeal.Gen Idealize.ShloMosaic Idealize.ShloMosaic.StableHlo Idealize.ShloMosaic.TcCoe

variable (V : Valuation τ sig (Elt Ideal))

/-! ## The stretch before region 1: the column statistics of `main_v11_0`, and the vectors recast to rows -/

theorem s1_mean : after (hostOps1 (F := Ideal)) V (Proc.devRef .tc main_v23) = shapeCast S1x2048 (Host.divf (Host.reduceAdd (F := Ideal) (V (Proc.devRef .tc main_v11_0)) (constant (F := Ideal) S_ .f32 0x00000000#32) Facts₀.reducesTo_S4096x2048_S2048_d0 Facts₀.h_S_) (broadcastInDim S2048 ![] Facts₀.bcast_S_S2048 (constant (F := Ideal) S_ .f32 0x45800000#32))) Facts₀.shapeCasts_S2048_S1x2048 := by
  dsimp only [hostOps1]; after_results; rfl

theorem s1_var : after (hostOps1 (F := Ideal)) V (Proc.devRef .tc main_v24) = shapeCast S1x2048 (maximumf (subf (Host.divf (Host.reduceAdd (F := Ideal) (mulf (V (Proc.devRef .tc main_v11_0)) (V (Proc.devRef .tc main_v11_0))) (constant (F := Ideal) S_ .f32 0x00000000#32) Facts₀.reducesTo_S4096x2048_S2048_d0 Facts₀.h_S_) (broadcastInDim S2048 ![] Facts₀.bcast_S_S2048 (constant (F := Ideal) S_ .f32 0x45800000#32))) (mulf (Host.divf (Host.reduceAdd (F := Ideal) (V (Proc.devRef .tc main_v11_0)) (constant (F := Ideal) S_ .f32 0x00000000#32) Facts₀.reducesTo_S4096x2048_S2048_d0 Facts₀.h_S_) (broadcastInDim S2048 ![] Facts₀.bcast_S_S2048 (constant (F := Ideal) S_ .f32 0x45800000#32))) (Host.divf (Host.reduceAdd (F := Ideal) (V (Proc.devRef .tc main_v11_0)) (constant (F := Ideal) S_ .f32 0x00000000#32) Facts₀.reducesTo_S4096x2048_S2048_d0 Facts₀.h_S_) (broadcastInDim S2048 ![] Facts₀.bcast_S_S2048 (constant (F := Ideal) S_ .f32 0x45800000#32))))) (broadcastInDim S2048 ![] Facts₀.bcast_S_S2048 (constant (F := Ideal) S_ .f32 0x00000000#32))) Facts₀.shapeCasts_S2048_S1x2048 := by
  dsimp only [hostOps1]; after_results; rfl

theorem s1_main_v25 : after (hostOps1 (F := Ideal)) V (Proc.devRef .tc main_v25) = shapeCast S1x2048 (V (Proc.devRef .tc main_arg11)) Facts₀.shapeCasts_S2048_S1x2048 := by
  dsimp only [hostOps1]; after_results; rfl

theorem s1_main_v26 : after (hostOps1 (F := Ideal)) V (Proc.devRef .tc main_v26) = shapeCast S1x2048 (V (Proc.devRef .tc main_arg12)) Facts₀.shapeCasts_S2048_S1x2048 := by
  dsimp only [hostOps1]; after_results; rfl

theorem s1_main_v27 : after (hostOps1 (F := Ideal)) V (Proc.devRef .tc main_v27) = shapeCast S1x2048 (V (Proc.devRef .tc main_arg14)) Facts₀.shapeCasts_S2048_S1x2048 := by
  dsimp only [hostOps1]; after_results; rfl

theorem s1_keep_main_v11_0 : after (hostOps1 (F := Ideal)) V (Proc.devRef .tc main_v11_0) = V (Proc.devRef .tc main_v11_0) := by
  dsimp only [hostOps1]; after_results

theorem s1_keep_main_v5 : after (hostOps1 (F := Ideal)) V (Proc.devRef .tc main_v5) = V (Proc.devRef .tc main_v5) := by
  dsimp only [hostOps1]; after_results

theorem s1_keep_main_v6 : after (hostOps1 (F := Ideal)) V (Proc.devRef .tc main_v6) = V (Proc.devRef .tc main_v6) := by
  dsimp only [hostOps1]; after_results

theorem s1_keep_main_arg15 : after (hostOps1 (F := Ideal)) V (Proc.devRef .tc main_arg15) = V (Proc.devRef .tc main_arg15) := by
  dsimp only [hostOps1]; after_results

theorem s1_keep_main_arg16 : after (hostOps1 (F := Ideal)) V (Proc.devRef .tc main_arg16) = V (Proc.devRef .tc main_arg16) := by
  dsimp only [hostOps1]; after_results

theorem s1_keep_main_arg18 : after (hostOps1 (F := Ideal)) V (Proc.devRef .tc main_arg18) = V (Proc.devRef .tc main_arg18) := by
  dsimp only [hostOps1]; after_results

theorem s1_keep_main_arg19 : after (hostOps1 (F := Ideal)) V (Proc.devRef .tc main_arg19) = V (Proc.devRef .tc main_arg19) := by
  dsimp only [hostOps1]; after_results

theorem s1_keep_main_arg20 : after (hostOps1 (F := Ideal)) V (Proc.devRef .tc main_arg20) = V (Proc.devRef .tc main_arg20) := by
  dsimp only [hostOps1]; after_results

theorem s1_keep_main_v11_1 : after (hostOps1 (F := Ideal)) V (Proc.devRef .tc main_v11_1) = V (Proc.devRef .tc main_v11_1) := by
  dsimp only [hostOps1]; after_results

theorem s1_keep_main_v0 : after (hostOps1 (F := Ideal)) V (Proc.devRef .tc main_v0) = V (Proc.devRef .tc main_v0) := by
  dsimp only [hostOps1]; after_results

theorem s1_keep_main_arg1 : after (hostOps1 (F := Ideal)) V (Proc.devRef .tc main_arg1) = V (Proc.devRef .tc main_arg1) := by
  dsimp only [hostOps1]; after_results

theorem s1_keep_main_arg2 : after (hostOps1 (F := Ideal)) V (Proc.devRef .tc main_arg2) = V (Proc.devRef .tc main_arg2) := by
  dsimp only [hostOps1]; after_results

theorem s1_keep_main_arg3 : after (hostOps1 (F := Ideal)) V (Proc.devRef .tc main_arg3) = V (Proc.devRef .tc main_arg3) := by
  dsimp only [hostOps1]; after_results

/-! ## The stretch before region 2: the column statistics of `main_v28`, and the vectors recast to rows -/

theorem s2_mean : after (hostOps2 (F := Ideal)) V (Proc.devRef .tc main_v40) = shapeCast S1x2048 (Host.divf (Host.reduceAdd (F := Ideal) (V (Proc.devRef .tc main_v28)) (constant (F := Ideal) S_ .f32 0x00000000#32) Facts₀.reducesTo_S4096x2048_S2048_d0 Facts₀.h_S_) (broadcastInDim S2048 ![] Facts₀.bcast_S_S2048 (constant (F := Ideal) S_ .f32 0x45800000#32))) Facts₀.shapeCasts_S2048_S1x2048 := by
  dsimp only [hostOps2]; after_results; rfl

theorem s2_var : after (hostOps2 (F := Ideal)) V (Proc.devRef .tc main_v41) = shapeCast S1x2048 (maximumf (subf (Host.divf (Host.reduceAdd (F := Ideal) (mulf (V (Proc.devRef .tc main_v28)) (V (Proc.devRef .tc main_v28))) (constant (F := Ideal) S_ .f32 0x00000000#32) Facts₀.reducesTo_S4096x2048_S2048_d0 Facts₀.h_S_) (broadcastInDim S2048 ![] Facts₀.bcast_S_S2048 (constant (F := Ideal) S_ .f32 0x45800000#32))) (mulf (Host.divf (Host.reduceAdd (F := Ideal) (V (Proc.devRef .tc main_v28)) (constant (F := Ideal) S_ .f32 0x00000000#32) Facts₀.reducesTo_S4096x2048_S2048_d0 Facts₀.h_S_) (broadcastInDim S2048 ![] Facts₀.bcast_S_S2048 (constant (F := Ideal) S_ .f32 0x45800000#32))) (Host.divf (Host.reduceAdd (F := Ideal) (V (Proc.devRef .tc main_v28)) (constant (F := Ideal) S_ .f32 0x00000000#32) Facts₀.reducesTo_S4096x2048_S2048_d0 Facts₀.h_S_) (broadcastInDim S2048 ![] Facts₀.bcast_S_S2048 (constant (F := Ideal) S_ .f32 0x45800000#32))))) (broadcastInDim S2048 ![] Facts₀.bcast_S_S2048 (constant (F := Ideal) S_ .f32 0x00000000#32))) Facts₀.shapeCasts_S2048_S1x2048 := by
  dsimp only [hostOps2]; after_results; rfl

theorem s2_main_v42 : after (hostOps2 (F := Ideal)) V (Proc.devRef .tc main_v42) = shapeCast S1x2048 (V (Proc.devRef .tc main_arg15)) Facts₀.shapeCasts_S2048_S1x2048 := by
  dsimp only [hostOps2]; after_results; rfl

theorem s2_main_v43 : after (hostOps2 (F := Ideal)) V (Proc.devRef .tc main_v43) = shapeCast S1x2048 (V (Proc.devRef .tc main_arg16)) Facts₀.shapeCasts_S2048_S1x2048 := by
  dsimp only [hostOps2]; after_results; rfl

theorem s2_main_v44 : after (hostOps2 (F := Ideal)) V (Proc.devRef .tc main_v44) = shapeCast S1x2048 (V (Proc.devRef .tc main_arg18)) Facts₀.shapeCasts_S2048_S1x2048 := by
  dsimp only [hostOps2]; after_results; rfl

theorem s2_keep_main_v28 : after (hostOps2 (F := Ideal)) V (Proc.devRef .tc main_v28) = V (Proc.devRef .tc main_v28) := by
  dsimp only [hostOps2]; after_results

theorem s2_keep_main_v6 : after (hostOps2 (F := Ideal)) V (Proc.devRef .tc main_v6) = V (Proc.devRef .tc main_v6) := by
  dsimp only [hostOps2]; after_results

theorem s2_keep_main_arg19 : after (hostOps2 (F := Ideal)) V (Proc.devRef .tc main_arg19) = V (Proc.devRef .tc main_arg19) := by
  dsimp only [hostOps2]; after_results

theorem s2_keep_main_arg20 : after (hostOps2 (F := Ideal)) V (Proc.devRef .tc main_arg20) = V (Proc.devRef .tc main_arg20) := by
  dsimp only [hostOps2]; after_results

theorem s2_keep_main_v11_1 : after (hostOps2 (F := Ideal)) V (Proc.devRef .tc main_v11_1) = V (Proc.devRef .tc main_v11_1) := by
  dsimp only [hostOps2]; after_results

theorem s2_keep_main_v0 : after (hostOps2 (F := Ideal)) V (Proc.devRef .tc main_v0) = V (Proc.devRef .tc main_v0) := by
  dsimp only [hostOps2]; after_results

theorem s2_keep_main_arg1 : after (hostOps2 (F := Ideal)) V (Proc.devRef .tc main_arg1) = V (Proc.devRef .tc main_arg1) := by
  dsimp only [hostOps2]; after_results

theorem s2_keep_main_arg2 : after (hostOps2 (F := Ideal)) V (Proc.devRef .tc main_arg2) = V (Proc.devRef .tc main_arg2) := by
  dsimp only [hostOps2]; after_results

theorem s2_keep_main_arg3 : after (hostOps2 (F := Ideal)) V (Proc.devRef .tc main_arg3) = V (Proc.devRef .tc main_arg3) := by
  dsimp only [hostOps2]; after_results

/-! ## The stretch before region 3: the column statistics of `main_v45`, and the vectors recast to rows -/

theorem s3_mean : after (hostOps3 (F := Ideal)) V (Proc.devRef .tc main_v57) = shapeCast S1x2048 (Host.divf (Host.reduceAdd (F := Ideal) (V (Proc.devRef .tc main_v45)) (constant (F := Ideal) S_ .f32 0x00000000#32) Facts₀.reducesTo_S4096x2048_S2048_d0 Facts₀.h_S_) (broadcastInDim S2048 ![] Facts₀.bcast_S_S2048 (constant (F := Ideal) S_ .f32 0x45800000#32))) Facts₀.shapeCasts_S2048_S1x2048 := by
  dsimp only [hostOps3]; after_results; rfl

theorem s3_var : after (hostOps3 (F := Ideal)) V (Proc.devRef .tc main_v58) = shapeCast S1x2048 (maximumf (subf (Host.divf (Host.reduceAdd (F := Ideal) (mulf (V (Proc.devRef .tc main_v45)) (V (Proc.devRef .tc main_v45))) (constant (F := Ideal) S_ .f32 0x00000000#32) Facts₀.reducesTo_S4096x2048_S2048_d0 Facts₀.h_S_) (broadcastInDim S2048 ![] Facts₀.bcast_S_S2048 (constant (F := Ideal) S_ .f32 0x45800000#32))) (mulf (Host.divf (Host.reduceAdd (F := Ideal) (V (Proc.devRef .tc main_v45)) (constant (F := Ideal) S_ .f32 0x00000000#32) Facts₀.reducesTo_S4096x2048_S2048_d0 Facts₀.h_S_) (broadcastInDim S2048 ![] Facts₀.bcast_S_S2048 (constant (F := Ideal) S_ .f32 0x45800000#32))) (Host.divf (Host.reduceAdd (F := Ideal) (V (Proc.devRef .tc main_v45)) (constant (F := Ideal) S_ .f32 0x00000000#32) Facts₀.reducesTo_S4096x2048_S2048_d0 Facts₀.h_S_) (broadcastInDim S2048 ![] Facts₀.bcast_S_S2048 (constant (F := Ideal) S_ .f32 0x45800000#32))))) (broadcastInDim S2048 ![] Facts₀.bcast_S_S2048 (constant (F := Ideal) S_ .f32 0x00000000#32))) Facts₀.shapeCasts_S2048_S1x2048 := by
  dsimp only [hostOps3]; after_results; rfl

theorem s3_main_v59 : after (hostOps3 (F := Ideal)) V (Proc.devRef .tc main_v59) = shapeCast S1x2048 (V (Proc.devRef .tc main_arg19)) Facts₀.shapeCasts_S2048_S1x2048 := by
  dsimp only [hostOps3]; after_results; rfl

theorem s3_main_v60 : after (hostOps3 (F := Ideal)) V (Proc.devRef .tc main_v60) = shapeCast S1x2048 (V (Proc.devRef .tc main_arg20)) Facts₀.shapeCasts_S2048_S1x2048 := by
  dsimp only [hostOps3]; after_results; rfl

theorem s3_keep_main_v45 : after (hostOps3 (F := Ideal)) V (Proc.devRef .tc main_v45) = V (Proc.devRef .tc main_v45) := by
  dsimp only [hostOps3]; after_results

theorem s3_keep_main_v11_1 : after (hostOps3 (F := Ideal)) V (Proc.devRef .tc main_v11_1) = V (Proc.devRef .tc main_v11_1) := by
  dsimp only [hostOps3]; after_results

theorem s3_keep_main_v0 : after (hostOps3 (F := Ideal)) V (Proc.devRef .tc main_v0) = V (Proc.devRef .tc main_v0) := by
  dsimp only [hostOps3]; after_results

theorem s3_keep_main_arg1 : after (hostOps3 (F := Ideal)) V (Proc.devRef .tc main_arg1) = V (Proc.devRef .tc main_arg1) := by
  dsimp only [hostOps3]; after_results

theorem s3_keep_main_arg2 : after (hostOps3 (F := Ideal)) V (Proc.devRef .tc main_arg2) = V (Proc.devRef .tc main_arg2) := by
  dsimp only [hostOps3]; after_results

theorem s3_keep_main_arg3 : after (hostOps3 (F := Ideal)) V (Proc.devRef .tc main_arg3) = V (Proc.devRef .tc main_arg3) := by
  dsimp only [hostOps3]; after_results

end Cert.KernelIdeal.StretchValue

end
-- ==== Proof.Chain2.lean ====
/-
  The two hidden stages of the projection head on the kernel side.  Between two regions the host takes the column
  statistics of the array the previous region wrote and recasts them, and the scale, shift and bias vectors, as rows;
  the region then normalises, rectifies and applies the next dense layer block by block.  Its whole output array is
  `Spec.stage` of the previous pre-activation with the variance taken as the mean of squares minus the squared mean.
  The buffers later segments read (weights in the other float format, argument vectors, the padded logits, the
  scalar) pass through unchanged.
-/
import proofs.«110836_j8735963480633_2_alg».proof.Proof.Chain1
import proofs.«110836_j8735963480633_2_alg».proof.Proof.Region1
import proofs.«110836_j8735963480633_2_alg».proof.Proof.Region2
import proofs.«110836_j8735963480633_2_alg».proof.Proof.HostStretch

set_option maxRecDepth 16384

noncomputable section

namespace Cert.KernelIdeal.ChainValue

open Cert.KernelIdeal Cert.KernelIdeal.Gen Idealize.ShloMosaic Idealize.ShloMosaic.StableHlo Idealize.ShloMosaic.TcCoe Idealize.SL.Sem Cert.Spec

variable (m : (ℓ : Loc nD τ sig) → Buf (Elt Ideal) ℓ) (ρ : Dev nD → PrngReg) (c : Dev nD)

/-- After region 1 its output array is the next pre-activation: the previous one normalised with its own column
    statistics (the variance as the mean of squares minus the squared mean, cut at zero), rectified, and put through
    the next dense layer. -/
theorem pre2_value : W8 m ρ c (Proc.devRef .tc main_v28) = stage varSq (pre1 (aX m c) (aWf m c) (abf m c) (aW1 m c) (ab1 m c)) (ag1 m c) (abe1 m c) (aW2 m c) (ab2 m c) := by
  rw [show W8 m ρ c (Proc.devRef .tc main_v28) = _ from W8_arr m ρ c 7, RegionValue.final1 (V7 m ρ) c]
  rw [show V7 m ρ c (Pipeline.arrRef spec1 0) = _ from StretchValue.s1_keep_main_v11_0 (W6 m ρ c),
    show V7 m ρ c (Pipeline.arrRef spec1 1) = _ from StretchValue.s1_mean (W6 m ρ c),
    show V7 m ρ c (Pipeline.arrRef spec1 2) = _ from StretchValue.s1_var (W6 m ρ c),
    show V7 m ρ c (Pipeline.arrRef spec1 3) = _ from StretchValue.s1_main_v25 (W6 m ρ c),
    show V7 m ρ c (Pipeline.arrRef spec1 4) = _ from StretchValue.s1_main_v26 (W6 m ρ c),
    show V7 m ρ c (Pipeline.arrRef spec1 5) = _ from StretchValue.s1_keep_main_v5 (W6 m ρ c),
    show V7 m ρ c (Pipeline.arrRef spec1 6) = _ from StretchValue.s1_main_v27 (W6 m ρ c)]
  rw [pre1_value m ρ c, at6_arg11 m ρ c, at6_arg12 m ρ c, at6_W2 m ρ c, at6_arg14 m ρ c]
  rw [HostValue.var_eq, HostValue.mean_eq]
  simp only [HostValue.rowVec_shapeCast]
  rw [HostValue.rowVec_shapeCast, HostValue.rowVec_shapeCast, HostValue.rowVec_shapeCast]
  rfl

/-! ## What passes through the second region unchanged -/

theorem at8_W3 : W8 m ρ c (Proc.devRef .tc main_v6) = truncf (F := Ideal) .bf16 (m ((c : Thread nD τ).loc main_arg17) : FVec Ideal S2048x2048 .f32) bitsLt_bf16_f32 :=
  (W8_of_ne m ρ c main_v6 (by decide)).trans ((StretchValue.s1_keep_main_v6 (W6 m ρ c)).trans (at6_W3 m ρ c))

theorem at8_arg15 : W8 m ρ c (Proc.devRef .tc main_arg15) = (m ((c : Thread nD τ).loc main_arg15) : FVec Ideal S2048 .f32) :=
  (W8_of_ne m ρ c main_arg15 (by decide)).trans ((StretchValue.s1_keep_main_arg15 (W6 m ρ c)).trans (at6_arg15 m ρ c))

theorem at8_arg16 : W8 m ρ c (Proc.devRef .tc main_arg16) = (m ((c : Thread nD τ).loc main_arg16) : FVec Ideal S2048 .f32) :=
  (W8_of_ne m ρ c main_arg16 (by decide)).trans ((StretchValue.s1_keep_main_arg16 (W6 m ρ c)).trans (at6_arg16 m ρ c))

theorem at8_arg18 : W8 m ρ c (Proc.devRef .tc main_arg18) = (m ((c : Thread nD τ).loc main_arg18) : FVec Ideal S2048 .f32) :=
  (W8_of_ne m ρ c main_arg18 (by decide)).trans ((StretchValue.s1_keep_main_arg18 (W6 m ρ c)).trans (at6_arg18 m ρ c))

theorem at8_arg19 : W8 m ρ c (Proc.devRef .tc main_arg19) = (m ((c : Thread nD τ).loc main_arg19) : FVec Ideal S2048 .f32) :=
  (W8_of_ne m ρ c main_arg19 (by decide)).trans ((StretchValue.s1_keep_main_arg19 (W6 m ρ c)).trans (at6_arg19 m ρ c))

theorem at8_arg20 : W8 m ρ c (Proc.devRef .tc main_arg20) = (m ((c : Thread nD τ).loc main_arg20) : FVec Ideal S2048 .f32) :=
  (W8_of_ne m ρ c main_arg20 (by decide)).trans ((StretchValue.s1_keep_main_arg20 (W6 m ρ c)).trans (at6_arg20 m ρ c))

theorem at8_outpad : W8 m ρ c (Proc.devRef .tc main_v11_1) = paddedLogits m c :=
  (W8_of_ne m ρ c main_v11_1 (by decide)).trans ((StretchValue.s1_keep_main_v11_1 (W6 m ρ c)).trans (outpad_value m ρ c))

theorem at8_lam : W8 m ρ c (Proc.devRef .tc main_v0) = shapeCast S_ (m ((c : Thread nD τ).loc main_arg4) : FVec Ideal S1 .f32) Facts₀.shapeCasts_S1_S_ :=
  (W8_of_ne m ρ c main_v0 (by decide)).trans ((StretchValue.s1_keep_main_v0 (W6 m ρ c)).trans (at6_lam m ρ c))

theorem at8_arg1 : W8 m ρ c (Proc.devRef .tc main_arg1) = (m ((c : Thread nD τ).loc main_arg1) : IVec S4096 32) :=
  (W8_of_ne m ρ c main_arg1 (by decide)).trans ((StretchValue.s1_keep_main_arg1 (W6 m ρ c)).trans (at6_arg1 m ρ c))

theorem at8_arg2 : W8 m ρ c (Proc.devRef .tc main_arg2) = (m ((c : Thread nD τ).loc main_arg2) : IVec S4096 32) :=
  (W8_of_ne m ρ c main_arg2 (by decide)).trans ((StretchValue.s1_keep_main_arg2 (W6 m ρ c)).trans (at6_arg2 m ρ c))

theorem at8_arg3 : W8 m ρ c (Proc.devRef .tc main_arg3) = (m ((c : Thread nD τ).loc main_arg3) : IVec S4096 32) :=
  (W8_of_ne m ρ c main_arg3 (by decide)).trans ((StretchValue.s1_keep_main_arg3 (W6 m ρ c)).trans (at6_arg3 m ρ c))

/-- After region 2 its output array is the next pre-activation: the previous one normalised with its own column
    statistics (the variance as the mean of squares minus the squared mean, cut at zero), rectified, and put through
    the next dense layer. -/
theorem pre3_value : W10 m ρ c (Proc.devRef .tc main_v45) = stage varSq (stage varSq (pre1 (aX m c) (aWf m c) (abf m c) (aW1 m c) (ab1 m c)) (ag1 m c) (abe1 m c) (aW2 m c) (ab2 m c)) (ag2 m c) (abe2 m c) (aW3 m c) (ab3 m c) := by
  rw [show W10 m ρ c (Proc.devRef .tc main_v45) = _ from W10_arr m ρ c 7, RegionValue.final2 (V9 m ρ) c]
  rw [show V9 m ρ c (Pipeline.arrRef spec2 0) = _ from StretchValue.s2_keep_main_v28 (W8 m ρ c),
    show V9 m ρ c (Pipeline.arrRef spec2 1) = _ from StretchValue.s2_mean (W8 m ρ c),
    show V9 m ρ c (Pipeline.arrRef spec2 2) = _ from StretchValue.s2_var (W8 m ρ c),
    show V9 m ρ c (Pipeline.arrRef spec2 3) = _ from StretchValue.s2_main_v42 (W8 m ρ c),
    show V9 m ρ c (Pipeline.arrRef spec2 4) = _ from StretchValue.s2_main_v43 (W8 m ρ c),
    show V9 m ρ c (Pipeline.arrRef spec2 5) = _ from StretchValue.s2_keep_main_v6 (W8 m ρ c),
    show V9 m ρ c (Pipeline.arrRef spec2 6) = _ from StretchValue.s2_main_v44 (W8 m ρ c)]
  rw [pre2_value m ρ c, at8_arg15 m ρ c, at8_arg16 m ρ c, at8_W3 m ρ c, at8_arg18 m ρ c]
  rw [HostValue.var_eq, HostValue.mean_eq]
  simp only [HostValue.rowVec_shapeCast]
  rw [HostValue.rowVec_shapeCast, HostValue.rowVec_shapeCast, HostValue.rowVec_shapeCast]
  rfl

/-! ## What passes through the third region unchanged -/

theorem at10_arg19 : W10 m ρ c (Proc.devRef .tc main_arg19) = (m ((c : Thread nD τ).loc main_arg19) : FVec Ideal S2048 .f32) :=
  (W10_of_ne m ρ c main_arg19 (by decide)).trans ((StretchValue.s2_keep_main_arg19 (W8 m ρ c)).trans (at8_arg19 m ρ c))

theorem at10_arg20 : W10 m ρ c (Proc.devRef .tc main_arg20) = (m ((c : Thread nD τ).loc main_arg20) : FVec Ideal S2048 .f32) :=
  (W10_of_ne m ρ c main_arg20 (by decide)).trans ((StretchValue.s2_keep_main_arg20 (W8 m ρ c)).trans (at8_arg20 m ρ c))

theorem at10_outpad : W10 m ρ c (Proc.devRef .tc main_v11_1) = paddedLogits m c :=
  (W10_of_ne m ρ c main_v11_1 (by decide)).trans ((StretchValue.s2_keep_main_v11_1 (W8 m ρ c)).trans (at8_outpad m ρ c))

theorem at10_lam : W10 m ρ c (Proc.devRef .tc main_v0) = shapeCast S_ (m ((c : Thread nD τ).loc main_arg4) : FVec Ideal S1 .f32) Facts₀.shapeCasts_S1_S_ :=
  (W10_of_ne m ρ c main_v0 (by decide)).trans ((StretchValue.s2_keep_main_v0 (W8 m ρ c)).trans (at8_lam m ρ c))

theorem at10_arg1 : W10 m ρ c (Proc.devRef .tc main_arg1) = (m ((c : Thread nD τ).loc main_arg1) : IVec S4096 32) :=
  (W10_of_ne m ρ c main_arg1 (by decide)).trans ((StretchValue.s2_keep_main_arg1 (W8 m ρ c)).trans (at8_arg1 m ρ c))

theorem at10_arg2 : W10 m ρ c (Proc.devRef .tc main_arg2) = (m ((c : Thread nD τ).loc main_arg2) : IVec S4096 32) :=
  (W10_of_ne m ρ c main_arg2 (by decide)).trans ((StretchValue.s2_keep_main_arg2 (W8 m ρ c)).trans (at8_arg2 m ρ c))

theorem at10_arg3 : W10 m ρ c (Proc.devRef .tc main_arg3) = (m ((c : Thread nD τ).loc main_arg3) : IVec S4096 32) :=
  (W10_of_ne m ρ c main_arg3 (by decide)).trans ((StretchValue.s2_keep_main_arg3 (W8 m ρ c)).trans (at8_arg3 m ρ c))

end Cert.KernelIdeal.ChainValue

end
-- ==== Proof.Region3.lean ====
/-
  The last batch normalisation of the projection head, region 3 of the kernel's program, as one function of the
  arrays the region finds.

  The region runs over 4 grid points.  Point `t` reads rows `1024 t … 1024 t + 1023` of the pre-activation
  `[4096, 2048]` and the four whole row vectors `[1, 2048]` (mean, variance, scale, shift), and writes the same rows of
  the output.  Entry `(p, q)` of what it writes is `g q * (x (p, q) - mean q) * rsqrt (var q + eps) + be q`: every
  operation of the body is pointwise, the row vectors broadcast along the rows.  The four blocks tile the output array,
  so the array ends holding `Cert.Spec.bnApply` of the five arrays.
-/
import proofs.«110836_j8735963480633_2_alg».proof.Proof.Gen.KernelIdeal.Frame
import proofs.«110836_j8735963480633_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an index -/

/-- Entry `(p, q)` of the body's one store: the scale times the centred entry times the reciprocal square root of the
    variance plus the small constant, plus the shift; the four row vectors are read at column `q`. -/
theorem pay3_apply (x : Vec Ideal S1024x2048 .f32) (g mean var be : Vec Ideal S1x2048 .f32) (p : Fin 1024) (q : Fin 2048) :
    k3_pay1 (F := Ideal) x g mean var be (ix2 p q)
      = g (ix2 0 q) * (x (ix2 p q) - mean (ix2 0 q)) * Ideal.rsqrt (var (ix2 0 q) + Cert.Spec.eps) + be (ix2 0 q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The same entry when the block `x` is rows `1024 r …` of an array `P` and the four row vectors are the arrays
    `M`, `Vr`, `G`, `B`: it is the normalised array at the entry `i` of `P` that `j` sits at. -/
theorem point3 (x : Vec Ideal S1024x2048 .f32) (xm xv xg xb : Vec Ideal S1x2048 .f32)
    (P : Cert.Spec.Mat 4096 2048) (M Vr G B : Cert.Spec.Mat 1 2048) (r : Nat)
    (hx : ∀ (y : S1024x2048.Idx) (k : S4096x2048.Idx), (k 0).val = r * 1024 + (y 0).val → (k 1).val = (y 1).val → x y = P k)
    (hm : ∀ y : S1x2048.Idx, xm y = M y) (hv : ∀ y : S1x2048.Idx, xv y = Vr y)
    (hg : ∀ y : S1x2048.Idx, xg y = G y) (hb : ∀ y : S1x2048.Idx, xb y = B y)
    (j : S1024x2048.Idx) (i : S4096x2048.Idx) (hi0 : (i 0).val = r * 1024 + (j 0).val) (hi1 : (i 1).val = (j 1).val) :
    k3_pay1 (F := Ideal) x xg xm xv xb j
      = Cert.Spec.bnApply P (Cert.Spec.rowVec M) (Cert.Spec.rowVec Vr) (Cert.Spec.rowVec G) (Cert.Spec.rowVec B) i := by
  obtain ⟨p, q, rfl⟩ : ∃ (p : Fin 1024) (q : Fin 2048), j = ix2 p q := ⟨j 0, j 1, eq_ix2 j⟩
  obtain ⟨p', q', rfl⟩ : ∃ (p' : Fin 4096) (q' : Fin 2048), i = ix2 p' q' := ⟨i 0, i 1, eq_ix2 i⟩
  have hq : q' = q := Fin.ext hi1
  rw [pay3_apply, hx (ix2 p q) (ix2 p' q') hi0 hi1, hm, hv, hg, hb]
  subst hq
  rfl

/-! ## From the blocks to the array -/

variable (V : (c : Dev nD) → (b : Ref sig .tc) → Buf (Elt Ideal) ((c : Thread nD τ).loc b))

theorem zero_offsets3 : (![0, 0] : Fin 2 → Nat) = fun _ => 0 := funext fun a => by fin_cases a <;> rfl

/-- The array the region leaves: the normalisation of the pre-activation it finds with the mean, variance, scale and
    shift it finds. -/
abbrev bnOut3 (c : Dev nD) : Cert.Spec.Mat 4096 2048 :=
  Cert.Spec.bnApply (a := 4096) (n := 2048) (V c (Pipeline.arrRef spec3 0))
    (Cert.Spec.rowVec (n := 2048) (V c (Pipeline.arrRef spec3 1))) (Cert.Spec.rowVec (n := 2048) (V c (Pipeline.arrRef spec3 2)))
    (Cert.Spec.rowVec (n := 2048) (V c (Pipeline.arrRef spec3 3))) (Cert.Spec.rowVec (n := 2048) (V c (Pipeline.arrRef spec3 4)))

/-- The printed index maps, decided over the 4 grid points: the pre-activation's and the output's block index is
    `(t, 0)`, the four row vectors' is `(0, 0)`. -/
theorem block_index3_0 : ∀ t : Fin cfg3.N,
    win3_0.index t (0 : Fin 2) = t.val ∧ win3_0.index t (1 : Fin 2) = 0 :=
  (by decide +kernel : ∀ t : Fin grid3.N, _)
theorem block_index3_1 : ∀ t : Fin cfg3.N,
    win3_1.index t (0 : Fin 2) = 0 ∧ win3_1.index t (1 : Fin 2) = 0 :=
  (by decide +kernel : ∀ t : Fin grid3.N, _)
theorem block_index3_2 : ∀ t : Fin cfg3.N,
    win3_2.index t (0 : Fin 2) = 0 ∧ win3_2.index t (1 : Fin 2) = 0 :=
  (by decide +kernel : ∀ t : Fin grid3.N, _)
theorem block_index3_3 : ∀ t : Fin cfg3.N,
    win3_3.index t (0 : Fin 2) = 0 ∧ win3_3.index t (1 : Fin 2) = 0 :=
  (by decide +kernel : ∀ t : Fin grid3.N, _)
theorem block_index3_4 : ∀ t : Fin cfg3.N,
    win3_4.index t (0 : Fin 2) = 0 ∧ win3_4.index t (1 : Fin 2) = 0 :=
  (by decide +kernel : ∀ t : Fin grid3.N, _)
theorem block_index3_5 : ∀ t : Fin cfg3.N,
    win3_5.index t (0 : Fin 2) = t.val ∧ win3_5.index t (1 : Fin 2) = 0 :=
  (by decide +kernel : ∀ t : Fin grid3.N, _)

/-- The pre-activation's block at point `t` is rows `1024 t …` of the array: its entry `y` is the array's entry `k`
    on the same column, `1024 t` rows further down. -/
theorem iblk3_0_apply (c : Dev nD) (t : Fin cfg3.N) (y : S1024x2048.Idx) (k : S4096x2048.Idx)
    (hk0 : (k 0).val = t.val * 1024 + (y 0).val) (hk1 : (k 1).val = (y 1).val) :
    iblk3 V c 0 t y = V c (Pipeline.arrRef spec3 0) k := by
  obtain ⟨e0, e1⟩ := block_index3_0 t
  unfold iblk3
  rw [View.read_apply]
  refine congrArg (V c (Pipeline.arrRef spec3 0)) (funext fun a => Fin.ext ?_)
  match a with
  | ⟨0, _⟩ => show win3_0.index t (0 : Fin 2) * 1024 + 1 * (y 0).val = (k 0).val; omega
  | ⟨1, _⟩ => show win3_0.index t (1 : Fin 2) * 2048 + 1 * (y 1).val = (k 1).val; omega

/-- Window 1 holds its whole array at every point: its block index is `(0, 0)`. -/
theorem iblk3_1_apply (c : Dev nD) (t : Fin cfg3.N) (y : S1x2048.Idx) :
    iblk3 V c 1 t y = V c (Pipeline.arrRef spec3 1) y := by
  obtain ⟨e0, e1⟩ := block_index3_1 t
  unfold iblk3
  rw [View.read_apply]
  refine congrArg (V c (Pipeline.arrRef spec3 1)) (funext fun a => Fin.ext ?_)
  match a with
  | ⟨0, _⟩ => show win3_1.index t (0 : Fin 2) * 1 + 1 * (y 0).val = (y 0).val; omega
  | ⟨1, _⟩ => show win3_1.index t (1 : Fin 2) * 2048 + 1 * (y 1).val = (y 1).val; omega

/-- Window 2 holds its whole array at every point: its block index is `(0, 0)`. -/
theorem iblk3_2_apply (c : Dev nD) (t : Fin cfg3.N) (y : S1x2048.Idx) :
    iblk3 V c 2 t y = V c (Pipeline.arrRef spec3 2) y := by
  obtain ⟨e0, e1⟩ := block_index3_2 t
  unfold iblk3
  rw [View.read_apply]
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 2048 + 1 * (y 1).val = (y 1).val; omega

/-- Window 3 holds its whole array at every point: its block index is `(0, 0)`. -/
theorem iblk3_3_apply (c : Dev nD) (t : Fin cfg3.N) (y : S1x2048.Idx) :
    iblk3 V c 3 t y = V c (Pipeline.arrRef spec3 3) y := by
  obtain ⟨e0, e1⟩ := block_index3_3 t
  unfold iblk3
  rw [View.read_apply]
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 2048 + 1 * (y 1).val = (y 1).val; omega

/-- Window 4 holds its whole array at every point: its block index is `(0, 0)`. -/
theorem iblk3_4_apply (c : Dev nD) (t : Fin cfg3.N) (y : S1x2048.Idx) :
    iblk3 V c 4 t y = V c (Pipeline.arrRef spec3 4) y := by
  obtain ⟨e0, e1⟩ := block_index3_4 t
  unfold iblk3
  rw [View.read_apply]
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 2048 + 1 * (y 1).val = (y 1).val; omega

/-- What point `t` writes back is block `t` of the normalised array. -/
theorem flushed3_eq (c : Dev nD) (t : Fin cfg3.N) :
    (dat3 (F := Ideal) V c).flushed 5 t = ((cfg3.win 5).blk t).view.read (Elt Ideal) (bnOut3 V c) := by
  show (cfg3.win 5).cut (grid3.coords t) ((dat3 (F := Ideal) V c).after 5 t) = _
  rw [after3_5]
  unfold out3_5
  rw [View.canon_unit_zero zero_offsets3]
  simp only [View.ld_unit_zero (S := S1024x2048) zero_offsets3, View.ld_unit_zero (S := S1x2048) zero_offsets3]
  obtain ⟨e0, e1⟩ := block_index3_5 t
  funext j
  show k3_pay1 (F := Ideal) (iblk3 V c 0 t) (iblk3 V c 3 t) (iblk3 V c 1 t) (iblk3 V c 2 t) (iblk3 V c 4 t) j
    = bnOut3 V c (((cfg3.win 5).blk t).view.emb j)
  refine point3 (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) t.val
    (iblk3_0_apply V c t) (iblk3_1_apply V c t) (iblk3_2_apply V c t) (iblk3_3_apply V c t) (iblk3_4_apply V c t) j
    (((cfg3.win 5).blk t).view.emb j) ?_ ?_
  · show win3_5.index t (0 : Fin 2) * 1024 + 1 * (j 0).val = t.val * 1024 + (j 0).val; omega
  · show win3_5.index t (1 : Fin 2) * 2048 + 1 * (j 1).val = (j 1).val; omega

/-- An index of the output array is in point `t`'s block iff each coordinate is in the block's range on its axis. -/
theorem mem_blk3 (t : Fin cfg3.N) (i : S4096x2048.Idx) :
    i ∈ ((cfg3.win 5).blk t).view.set ↔ ∀ a : Fin 2, win3_5.index t a * S1024x2048.size a ≤ (i a).val
      ∧ (i a).val < win3_5.index t a * S1024x2048.size a + S1024x2048.size a := by
  show i ∈ ((View.whole main_v61).slice (win3_5.rect t)).set ↔ _
  rw [View.set_slice_whole, Rect.mem_set_unit]
  exact Iff.rfl

/-- Every index of the output array is in the block of the point its row falls in: row `r` is written at point
    `r / 1024`. -/
theorem cover3 (i : S4096x2048.Idx) :
    ∃ t : Fin cfg3.N, (cfg3.win 5).flush t = true ∧ i ∈ ((cfg3.win 5).blk t).view.set := by
  have hi0 : (i 0).val < 4096 := (i 0).isLt
  have hi1 : (i 1).val < 2048 := (i 1).isLt
  have hN : cfg3.N = 4 := N_3
  obtain ⟨t, ht⟩ : ∃ t : Fin cfg3.N, t.val = (i 0).val / 1024 := ⟨⟨(i 0).val / 1024, by rw [hN]; omega⟩, rfl⟩
  obtain ⟨e0, e1⟩ := block_index3_5 t
  refine ⟨t, flush3_5 t, ?_⟩
  rw [mem_blk3]
  intro a
  match a with
  | ⟨0, _⟩ =>
    show win3_5.index t (0 : Fin 2) * 1024 ≤ (i 0).val ∧ (i 0).val < win3_5.index t (0 : Fin 2) * 1024 + 1024
    omega
  | ⟨1, _⟩ =>
    show win3_5.index t (1 : Fin 2) * 2048 ≤ (i 1).val ∧ (i 1).val < win3_5.index t (1 : Fin 2) * 2048 + 2048
    omega

/-- The output array after the region's last point: the normalisation `Cert.Spec.bnApply` of the pre-activation array
    with the mean, variance, scale and shift arrays, all as the region finds them. -/
theorem final3 (c : Dev nD) :
    (dat3 (F := Ideal) V c).arrAt 5 cfg3.N
      = Cert.Spec.bnApply (a := 4096) (n := 2048) (V c (Pipeline.arrRef spec3 0))
          (Cert.Spec.rowVec (n := 2048) (V c (Pipeline.arrRef spec3 1))) (Cert.Spec.rowVec (n := 2048) (V c (Pipeline.arrRef spec3 2)))
          (Cert.Spec.rowVec (n := 2048) (V c (Pipeline.arrRef spec3 3))) (Cert.Spec.rowVec (n := 2048) (V c (Pipeline.arrRef spec3 4))) :=
  (dat3 (F := Ideal) V c).arrAt_eq_of_cover 5 (bnOut3 V c) (fun t _ => flushed3_eq V c t) cover3

end Cert.KernelIdeal.RegionValue

end
-- ==== Proof.Chain3.lean ====
/-
  The last kernel region and the values the host tail reads.  The last region applies the third normalisation (no
  rectifier, no dense layer): its output array is the projection, with the variance as the mean of squares minus the
  squared mean throughout.  The padded logits, the scalar and the integer argument vectors reach the tail unchanged.
-/
import proofs.«110836_j8735963480633_2_alg».proof.Proof.Chain2
import proofs.«110836_j8735963480633_2_alg».proof.Proof.Region3

set_option maxRecDepth 16384

noncomputable section

namespace Cert.KernelIdeal.ChainValue

open Cert.KernelIdeal Cert.KernelIdeal.Gen Idealize.ShloMosaic Idealize.ShloMosaic.StableHlo Idealize.ShloMosaic.TcCoe Idealize.SL.Sem Cert.Spec

variable (m : (ℓ : Loc nD τ sig) → Buf (Elt Ideal) ℓ) (ρ : Dev nD → PrngReg) (c : Dev nD)

/-- After the last region its output array is the projection. -/
theorem proj_value : W12 m ρ c (Proc.devRef .tc main_v61)
    = proj varSq (aX m c) (aWf m c) (abf m c) (aW1 m c) (ab1 m c) (ag1 m c) (abe1 m c) (aW2 m c) (ab2 m c) (ag2 m c) (abe2 m c)
        (aW3 m c) (ab3 m c) (ag3 m c) (abe3 m c) := by
  rw [show W12 m ρ c (Proc.devRef .tc main_v61) = _ from W12_arr m ρ c 5, RegionValue.final3 (V11 m ρ) c]
  rw [show V11 m ρ c (Pipeline.arrRef spec3 0) = _ from StretchValue.s3_keep_main_v45 (W10 m ρ c),
    show V11 m ρ c (Pipeline.arrRef spec3 1) = _ from StretchValue.s3_mean (W10 m ρ c),
    show V11 m ρ c (Pipeline.arrRef spec3 2) = _ from StretchValue.s3_var (W10 m ρ c),
    show V11 m ρ c (Pipeline.arrRef spec3 3) = _ from StretchValue.s3_main_v59 (W10 m ρ c),
    show V11 m ρ c (Pipeline.arrRef spec3 4) = _ from StretchValue.s3_main_v60 (W10 m ρ c)]
  rw [pre3_value m ρ c, at10_arg19 m ρ c, at10_arg20 m ρ c]
  rw [HostValue.var_eq, HostValue.mean_eq]
  simp only [HostValue.rowVec_shapeCast]
  rw [HostValue.rowVec_shapeCast, HostValue.rowVec_shapeCast]
  rfl

/-! ## What reaches the host tail unchanged -/

theorem at12_outpad : W12 m ρ c (Proc.devRef .tc main_v11_1) = paddedLogits m c :=
  (W12_of_ne m ρ c main_v11_1 (by decide)).trans ((StretchValue.s3_keep_main_v11_1 (W10 m ρ c)).trans (at10_outpad m ρ c))

theorem at12_lam : W12 m ρ c (Proc.devRef .tc main_v0) = shapeCast S_ (m ((c : Thread nD τ).loc main_arg4) : FVec Ideal S1 .f32) Facts₀.shapeCasts_S1_S_ :=
  (W12_of_ne m ρ c main_v0 (by decide)).trans ((StretchValue.s3_keep_main_v0 (W10 m ρ c)).trans (at10_lam m ρ c))

theorem at12_arg1 : W12 m ρ c (Proc.devRef .tc main_arg1) = (m ((c : Thread nD τ).loc main_arg1) : IVec S4096 32) :=
  (W12_of_ne m ρ c main_arg1 (by decide)).trans ((StretchValue.s3_keep_main_arg1 (W10 m ρ c)).trans (at10_arg1 m ρ c))

theorem at12_arg2 : W12 m ρ c (Proc.devRef .tc main_arg2) = (m ((c : Thread nD τ).loc main_arg2) : IVec S4096 32) :=
  (W12_of_ne m ρ c main_arg2 (by decide)).trans ((StretchValue.s3_keep_main_arg2 (W10 m ρ c)).trans (at10_arg2 m ρ c))

theorem at12_arg3 : W12 m ρ c (Proc.devRef .tc main_arg3) = (m ((c : Thread nD τ).loc main_arg3) : IVec S4096 32) :=
  (W12_of_ne m ρ c main_arg3 (by decide)).trans ((StretchValue.s3_keep_main_arg3 (W10 m ρ c)).trans (at10_arg3 m ρ c))

end Cert.KernelIdeal.ChainValue

end
-- ==== Proof.Tail.lean ====
/-
  The loss as a function of the logits and the projection: the host operations both programs apply, after their
  different routes to those two arrays, stated once.

  With `out` the logits [4096, 345], `proj` the projection [4096, 2048], `y` the labels, `s` and `s'` two row shuffles
  (integer vectors; a negative entry is wrapped by the number of rows before it is used) and `lam` a scalar:
    out₂ = out[s],  proj₂ = proj[s],  out₃ = lam · out₂ + (1 − lam) · out[s'],  proj₃ = lam · proj₂ + (1 − lam) · proj[s'];
    the four mean squared errors  mse(out, out₂), mse(out, out₃), 0.3 · mse(proj, proj₂), 0.3 · mse(proj, proj₃);
    cl = −mean over the rows of log_softmax(out)[row, y row]  (a label outside [0, 344] after wrapping reads as the NaN
    pattern's value);
    loss = cl + min(cl, 1) · (lam · (mse₁ + 0.3 mse₃) + (1 − lam) · (mse₂ + 0.3 mse₄)).
  Every definition below is one run of consecutive host operations of the printed programs, with the same records.
-/
import proofs.«110836_j8735963480633_2_alg».proof.Proof.Gen.KernelIdeal
import Idealize.ShloMosaic.PureOps.Ideal

noncomputable section

namespace Cert.Tail

open Cert.KernelIdeal Cert.KernelIdeal.Facts₀ Idealize.ShloMosaic

/-- A vector of row indices, each negative entry wrapped by 4096, as a column [4096, 1]. -/
def wrapRows (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 4096#32))) a)

/-- The rows of the logits, and of the projection, that an index vector names. -/
def logitRows (out : FVec Ideal S4096x345 .f32) (a : IVec S4096 32) : FVec Ideal S4096x345 .f32 :=
  Host.gather gather_S4096x345_S4096x1_S4096x345_1_0_n_n_0_1_1345 out (wrapRows a)
def projRows (proj : FVec Ideal S4096x2048 .f32) (a : IVec S4096 32) : FVec Ideal S4096x2048 .f32 :=
  Host.gather gather_S4096x2048_S4096x1_S4096x2048_1_0_n_n_0_1_12048 proj (wrapRows a)

/-- `1 − lam`. -/
def oneMinus (lam : FVec Ideal S_ .f32) : FVec Ideal S_ .f32 := subf (constant (F := Ideal) S_ .f32 0x3F800000#32) lam

/-- `lam · A + (1 − lam) · B` on each of the two shapes. -/
def blendLogits (lam : FVec Ideal S_ .f32) (A B : FVec Ideal S4096x345 .f32) : FVec Ideal S4096x345 .f32 :=
  addf (mulf (broadcastInDim S4096x345 ![] bcast_S_S4096x345 lam) A)
    (mulf (broadcastInDim S4096x345 ![] bcast_S_S4096x345 (oneMinus lam)) B)
def blendProj (lam : FVec Ideal S_ .f32) (A B : FVec Ideal S4096x2048 .f32) : FVec Ideal S4096x2048 .f32 :=
  addf (mulf (broadcastInDim S4096x2048 ![] bcast_S_S4096x2048 lam) A)
    (mulf (broadcastInDim S4096x2048 ![] bcast_S_S4096x2048 (oneMinus lam)) B)

/-- The mean squared difference of two arrays: the sum of the squared differences from the float zero, divided by the
    number of entries (4096 · 345 and 4096 · 2048 as floats). -/
def mseLogits (A B : FVec Ideal S4096x345 .f32) : FVec Ideal S_ .f32 :=
  Host.divf (Host.reduceAdd (mulf (subf A B) (subf A B)) (constant (F := Ideal) S_ .f32 0x00000000#32) reducesTo_S4096x345_S_d0_1 h_S_)
    (constant (F := Ideal) S_ .f32 0x49AC8000#32)
def mseProj (A B : FVec Ideal S4096x2048 .f32) : FVec Ideal S_ .f32 :=
  Host.divf (Host.reduceAdd (mulf (subf A B) (subf A B)) (constant (F := Ideal) S_ .f32 0x00000000#32) reducesTo_S4096x2048_S_d0_1 h_S_)
    (constant (F := Ideal) S_ .f32 0x4B000000#32)

/-- The float nearest 0.3 times a scalar. -/
def scaled (x : FVec Ideal S_ .f32) : FVec Ideal S_ .f32 := mulf (constant (F := Ideal) S_ .f32 0x3E99999A#32) x

/-- The logits minus their row maximum (the maximum taken from −∞ and once more against −∞). -/
def shifted (out : FVec Ideal S4096x345 .f32) : FVec Ideal S4096x345 .f32 :=
  subf out (broadcastInDim S4096x345 ![0, 1] bcast_S4096x1_S4096x345_0_1
    (broadcastInDim S4096x1 ![0] bcast_S4096_S4096x1_0
      (maximumf (broadcastInDim S4096 ![] bcast_S_S4096 (constant (F := Ideal) S_ .f32 0xFF800000#32))
        (Host.reduce FloatOps.maximumf out (constant (F := Ideal) S_ .f32 0xFF800000#32) reducesTo_S4096x345_S4096_d1 h_S_))))

/-- The row-wise log-softmax: the shifted logits minus the logarithm of the row sum of their exponentials. -/
def logSoftmax (out : FVec Ideal S4096x345 .f32) : FVec Ideal S4096x345 .f32 :=
  subf (shifted out) (broadcastInDim S4096x345 ![0, 1] bcast_S4096x1_S4096x345_0_1
    (Host.log (broadcastInDim S4096x1 ![0] bcast_S4096_S4096x1_0
      (Host.reduceAdd (Host.exp (shifted out)) (constant (F := Ideal) S_ .f32 0x00000000#32) reducesTo_S4096x345_S4096_d1 h_S_))))

/-- The labels as a column [4096, 1]. -/
def labelCol (y : IVec S4096 32) : IVec S4096x1 32 := broadcastInDim S4096x1 ![0] bcast_S4096_S4096x1_0 y

/-- A label column with each negative entry wrapped by 345, as the index array [4096, 1, 1] of a gather. -/
def labelIdx (col : IVec S4096x1 32) : IVec S4096x1x1 32 :=
  shapeCast S4096x1x1
    (select (cmpi .slt col (broadcastInDim S4096x1 ![] bcast_S_S4096x1 (constantI S_ 32 0#32)))
      (addi col (broadcastInDim S4096x1 ![] bcast_S_S4096x1 (constantI S_ 32 345#32))) col)
    shapeCasts_S4096x1_S4096x1x1

/-- Whether each wrapped label lies in [0, 344]. -/
def labelOk (col : IVec S4096x1 32) : IVec S4096x1 1 :=
  Host.reduce IntOp.andi
    (andi (cmpi .sge (labelIdx col) (broadcastInDim S4096x1x1 ![] bcast_S_S4096x1x1 (constantI S_ 32 0#32)))
      (cmpi .sle (labelIdx col) (broadcastInDim S4096x1x1 ![0, 1, 2] bcast_S1x1x1_S4096x1x1_0_1_2
        (broadcastInDim S1x1x1 ![2] bcast_S1_S1x1x1_2 (constantI S1 32 344#32)))))
    (constantI S_ 1 1#1) reducesTo_S4096x1x1_S4096x1_d2 h_S_

/-- The log-probability of each row's label; where the label is out of range, the value of the NaN pattern. -/
def picked (logp : FVec Ideal S4096x345 .f32) (col : IVec S4096x1 32) : FVec Ideal S4096x1 .f32 :=
  select (labelOk col) (Host.gather gather_S4096x345_S4096x1x1_S4096x1_n_1_0_0_1_2_11 logp (labelIdx col))
    (broadcastInDim S4096x1 ![] bcast_S_S4096x1 (constant (F := Ideal) S_ .f32 0x7FC00000#32))

/-- The classification loss from the picked log-probabilities: minus their mean over the 4096 rows. -/
def classLoss (pk : FVec Ideal S4096x1 .f32) : FVec Ideal S_ .f32 :=
  Host.negf (Host.divf (Host.reduceAdd pk (constant (F := Ideal) S_ .f32 0x00000000#32) reducesTo_S4096x1_S_d0_1 h_S_) (constant (F := Ideal) S_ .f32 0x45800000#32))

/-- The loss from its six scalar ingredients: `cl + min(cl, 1) · (lam · (m₁ + m₃) + (1 − lam) · (m₂ + m₄))`. -/
def combine (cl lam m1 m3 m2 m4 : FVec Ideal S_ .f32) : FVec Ideal S_ .f32 :=
  addf cl (mulf (minimumf cl (constant (F := Ideal) S_ .f32 0x3F800000#32))
    (addf (mulf lam (addf m1 m3)) (mulf (oneMinus lam) (addf m2 m4))))

/-- The loss. -/
def tail (out : FVec Ideal S4096x345 .f32) (proj : FVec Ideal S4096x2048 .f32) (y s s' : IVec S4096 32)
    (lam : FVec Ideal S_ .f32) : FVec Ideal S_ .f32 :=
  combine (classLoss (picked (logSoftmax out) (labelCol y))) lam
    (mseLogits out (logitRows out s)) (scaled (mseProj proj (projRows proj s)))
    (mseLogits out (blendLogits lam (logitRows out s) (logitRows out s')))
    (scaled (mseProj proj (blendProj lam (projRows proj s) (projRows proj s'))))

end Cert.Tail

end
-- ==== Proof.LibTypedRefs.lean ====
/-
  Two general facts about a line of host operations.

  (1) A typed reference carries contents between a value's type and its buffer's type along the equation that says
  they are the same type.  Carrying a value to the buffer's type and back gives the value again, and the other way
  round, whatever the reference.  The operations of a called function are written with typed references, so what a line
  leaves in a buffer is full of such round trips around every intermediate value; rewriting with these two equations
  removes them before two such terms are compared.

  (2) A line of operations read in two parts: what the whole line leaves in the buffers is what its second part leaves
  starting from what its first part leaves.
-/
import Idealize.ShloMosaic.Lib.StableHlo
import Idealize.ShloMosaic.Lib.StableHlo.Run

namespace Cert.TypedRefs

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- To the value's type and back is the identity. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

/-- A line of operations read in two parts. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => exact ih _

end Cert.TypedRefs
-- ==== Proof.KernelTail.lean ====
/-
  The kernel program's loss is the shared tail function of its sliced logits and its projection: for any contents `V`
  of the buffers when the last kernel region is left, the host operations that follow — the slice of the padded logits
  back to 345 columns, then the operations the tail function is made of — leave in the result buffer the tail function
  of that slice, the projection array, the three integer argument vectors and the scalar `lam`.
-/
import proofs.«110836_j8735963480633_2_alg».proof.Proof.Gen.KernelIdeal.Launch
import proofs.«110836_j8735963480633_2_alg».proof.Proof.Tail
import proofs.«110836_j8735963480633_2_alg».proof.Proof.LibTypedRefs
import Idealize.ShloMosaic.PureOps.Ideal
import Idealize.ShloMosaic.Lib.StableHlo.Run

set_option maxRecDepth 16384

noncomputable section

namespace Cert.KernelIdeal.StretchValue

open Cert.KernelIdeal Cert.KernelIdeal.Gen Idealize.ShloMosaic Idealize.ShloMosaic.StableHlo Idealize.ShloMosaic.TcCoe

variable (V : Valuation τ sig (Elt Ideal))

/-! ## The first group: the shuffled rows, the blends and the four mean squared errors -/

set_option maxRecDepth 200000 in
set_option maxHeartbeats 40000000 in
theorem g1_out : after (hostOps4 (F := Ideal)) V (Proc.devRef .tc main_v62) = (extractStridedSlice S4096x345 ![0, 0] (V (Proc.devRef .tc main_v11_1)) Facts₀.slices_S4096x384_S4096x345_0_0) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_m1 : after (hostOps4 (F := Ideal)) V (Proc.devRef .tc main_v106) = Cert.Tail.mseLogits (extractStridedSlice S4096x345 ![0, 0] (V (Proc.devRef .tc main_v11_1)) Facts₀.slices_S4096x384_S4096x345_0_0) (Cert.Tail.logitRows (extractStridedSlice S4096x345 ![0, 0] (V (Proc.devRef .tc main_v11_1)) Facts₀.slices_S4096x384_S4096x345_0_0) (V (Proc.devRef .tc main_arg2))) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_m2 : after (hostOps4 (F := Ideal)) V (Proc.devRef .tc main_v110) = Cert.Tail.mseLogits (extractStridedSlice S4096x345 ![0, 0] (V (Proc.devRef .tc main_v11_1)) Facts₀.slices_S4096x384_S4096x345_0_0) (Cert.Tail.blendLogits (V (Proc.devRef .tc main_v0)) (Cert.Tail.logitRows (extractStridedSlice S4096x345 ![0, 0] (V (Proc.devRef .tc main_v11_1)) Facts₀.slices_S4096x384_S4096x345_0_0) (V (Proc.devRef .tc main_arg2))) (Cert.Tail.logitRows (extractStridedSlice S4096x345 ![0, 0] (V (Proc.devRef .tc main_v11_1)) Facts₀.slices_S4096x384_S4096x345_0_0) (V (Proc.devRef .tc main_arg3)))) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_m3 : after (hostOps4 (F := Ideal)) V (Proc.devRef .tc main_v115) = Cert.Tail.scaled (Cert.Tail.mseProj (V (Proc.devRef .tc main_v61)) (Cert.Tail.projRows (V (Proc.devRef .tc main_v61)) (V (Proc.devRef .tc main_arg2)))) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_m4 : after (hostOps4 (F := Ideal)) V (Proc.devRef .tc main_v120) = Cert.Tail.scaled (Cert.Tail.mseProj (V (Proc.devRef .tc main_v61)) (Cert.Tail.blendProj (V (Proc.devRef .tc main_v0)) (Cert.Tail.projRows (V (Proc.devRef .tc main_v61)) (V (Proc.devRef .tc main_arg2))) (Cert.Tail.projRows (V (Proc.devRef .tc main_v61)) (V (Proc.devRef .tc main_arg3))))) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_keep_main_v0 : after (hostOps4 (F := Ideal)) V (Proc.devRef .tc main_v0) = (V (Proc.devRef .tc main_v0)) := by
  dsimp only [hostOps4]; after_results_simp <;> (try simp only [Cert.TypedRefs.ofBuf_toBuf, Cert.TypedRefs.toBuf_ofBuf]) <;> rfl
set_option maxRecDepth 200000 in
set_option maxHeartbeats 40000000 in
theorem g1_keep_main_arg1 : after (hostOps4 (F := Ideal)) V (Proc.devRef .tc main_arg1) = (V (Proc.devRef .tc main_arg1)) := by
  dsimp only [hostOps4]; after_results_simp <;> (try simp only [Cert.TypedRefs.ofBuf_toBuf, Cert.TypedRefs.toBuf_ofBuf]) <;> rfl

/-! ## The second group: the row-wise log-softmax -/

set_option maxRecDepth 200000 in
set_option maxHeartbeats 40000000 in
theorem g2_logp : after (hostOps4_1 (F := Ideal)) V (Proc.devRef .tc main_v121) = Cert.Tail.logSoftmax (V (Proc.devRef .tc main_v62)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_v106 : after (hostOps4_1 (F := Ideal)) V (Proc.devRef .tc main_v106) = (V (Proc.devRef .tc main_v106)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_v110 : after (hostOps4_1 (F := Ideal)) V (Proc.devRef .tc main_v110) = (V (Proc.devRef .tc main_v110)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_v115 : after (hostOps4_1 (F := Ideal)) V (Proc.devRef .tc main_v115) = (V (Proc.devRef .tc main_v115)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_v120 : after (hostOps4_1 (F := Ideal)) V (Proc.devRef .tc main_v120) = (V (Proc.devRef .tc main_v120)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_v0 : after (hostOps4_1 (F := Ideal)) V (Proc.devRef .tc main_v0) = (V (Proc.devRef .tc main_v0)) := by
  dsimp only [hostOps4_1]; after_results_simp <;> (try simp only [Cert.TypedRefs.ofBuf_toBuf, Cert.TypedRefs.toBuf_ofBuf]) <;> rfl
set_option maxRecDepth 200000 in
set_option maxHeartbeats 40000000 in
theorem g2_keep_main_arg1 : after (hostOps4_1 (F := Ideal)) V (Proc.devRef .tc main_arg1) = (V (Proc.devRef .tc main_arg1)) := by
  dsimp only [hostOps4_1]; after_results_simp <;> (try simp only [Cert.TypedRefs.ofBuf_toBuf, Cert.TypedRefs.toBuf_ofBuf]) <;> rfl

/-! ## The third group: the labels as a column -/

set_option maxRecDepth 200000 in
set_option maxHeartbeats 40000000 in
theorem g3_col : after (hostOps4_2 (F := Ideal)) V (Proc.devRef .tc main_v122) = Cert.Tail.labelCol (V (Proc.devRef .tc main_arg1)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v121 : after (hostOps4_2 (F := Ideal)) V (Proc.devRef .tc main_v121) = (V (Proc.devRef .tc main_v121)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v106 : after (hostOps4_2 (F := Ideal)) V (Proc.devRef .tc main_v106) = (V (Proc.devRef .tc main_v106)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v110 : after (hostOps4_2 (F := Ideal)) V (Proc.devRef .tc main_v110) = (V (Proc.devRef .tc main_v110)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v115 : after (hostOps4_2 (F := Ideal)) V (Proc.devRef .tc main_v115) = (V (Proc.devRef .tc main_v115)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v120 : after (hostOps4_2 (F := Ideal)) V (Proc.devRef .tc main_v120) = (V (Proc.devRef .tc main_v120)) := by
  dsimp only [hostOps4_2]; after_results_simp <;> (try simp only [Cert.TypedRefs.ofBuf_toBuf, Cert.TypedRefs.toBuf_ofBuf]) <;> rfl
set_option maxRecDepth 200000 in
set_option maxHeartbeats 40000000 in
theorem g3_keep_main_v0 : after (hostOps4_2 (F := Ideal)) V (Proc.devRef .tc main_v0) = (V (Proc.devRef .tc main_v0)) := by
  dsimp only [hostOps4_2]; after_results_simp <;> (try simp only [Cert.TypedRefs.ofBuf_toBuf, Cert.TypedRefs.toBuf_ofBuf]) <;> rfl

/-! ## The fourth group: the label pick -/

set_option maxRecDepth 200000 in
set_option maxHeartbeats 40000000 in
theorem g4_pk : after (hostOps4_3 (F := Ideal)) V (Proc.devRef .tc main_v123) = Cert.Tail.picked (V (Proc.devRef .tc main_v121)) (V (Proc.devRef .tc main_v122)) := by
  dsimp only [hostOps4_3]; after_results_simp <;> (try simp only [Cert.TypedRefs.ofBuf_toBuf, Cert.TypedRefs.toBuf_ofBuf]) <;> rfl
set_option maxRecDepth 200000 in
set_option maxHeartbeats 40000000 in
theorem g4_keep_main_v106 : after (hostOps4_3 (F := Ideal)) V (Proc.devRef .tc main_v106) = (V (Proc.devRef .tc main_v106)) := by
  dsimp only [hostOps4_3]; after_results_simp <;> (try simp only [Cert.TypedRefs.ofBuf_toBuf, Cert.TypedRefs.toBuf_ofBuf]) <;> rfl
set_option maxRecDepth 200000 in
set_option maxHeartbeats 40000000 in
theorem g4_keep_main_v110 : after (hostOps4_3 (F := Ideal)) V (Proc.devRef .tc main_v110) = (V (Proc.devRef .tc main_v110)) := by
  dsimp only [hostOps4_3]; after_results_simp <;> (try simp only [Cert.TypedRefs.ofBuf_toBuf, Cert.TypedRefs.toBuf_ofBuf]) <;> rfl
set_option maxRecDepth 200000 in
set_option maxHeartbeats 40000000 in
theorem g4_keep_main_v115 : after (hostOps4_3 (F := Ideal)) V (Proc.devRef .tc main_v115) = (V (Proc.devRef .tc main_v115)) := by
  dsimp only [hostOps4_3]; after_results_simp <;> (try simp only [Cert.TypedRefs.ofBuf_toBuf, Cert.TypedRefs.toBuf_ofBuf]) <;> rfl
set_option maxRecDepth 200000 in
set_option maxHeartbeats 40000000 in
theorem g4_keep_main_v120 : after (hostOps4_3 (F := Ideal)) V (Proc.devRef .tc main_v120) = (V (Proc.devRef .tc main_v120)) := by
  dsimp only [hostOps4_3]; after_results_simp <;> (try simp only [Cert.TypedRefs.ofBuf_toBuf, Cert.TypedRefs.toBuf_ofBuf]) <;> rfl
set_option maxRecDepth 200000 in
set_option maxHeartbeats 40000000 in
theorem g4_keep_main_v0 : after (hostOps4_3 (F := Ideal)) V (Proc.devRef .tc main_v0) = (V (Proc.devRef .tc main_v0)) := by
  dsimp only [hostOps4_3]; after_results_simp <;> (try simp only [Cert.TypedRefs.ofBuf_toBuf, Cert.TypedRefs.toBuf_ofBuf]) <;> rfl

/-! ## The fifth group: the class loss and the final combination -/

set_option maxRecDepth 200000 in
set_option maxHeartbeats 40000000 in
theorem g5_res : after (hostOps4_4 (F := Ideal)) V (Proc.devRef .tc main_v135) = Cert.Tail.combine (Cert.Tail.classLoss (V (Proc.devRef .tc main_v123))) (V (Proc.devRef .tc main_v0)) (V (Proc.devRef .tc main_v106)) (V (Proc.devRef .tc main_v115)) (V (Proc.devRef .tc main_v110)) (V (Proc.devRef .tc main_v120)) := by
  dsimp only [hostOps4_4]; after_results_simp <;> (try simp only [Cert.TypedRefs.ofBuf_toBuf, Cert.TypedRefs.toBuf_ofBuf]) <;> rfl

/-! ## The five groups one after the other -/

set_option maxRecDepth 200000 in
set_option maxHeartbeats 40000000 in
/-- For any contents `V` of the buffers when the last kernel region is left, the closing host operations leave in the result
    buffer the tail function of the sliced padded logits, the projection, the three integer vectors and the scalar. -/
theorem tail_groups :
    after (hostOps4_4 (F := Ideal)) (after (hostOps4_3 (F := Ideal)) (after (hostOps4_2 (F := Ideal)) (after (hostOps4_1 (F := Ideal))
        (after (hostOps4 (F := Ideal)) V)))) (Proc.devRef .tc main_v135)
      = Cert.Tail.tail (extractStridedSlice S4096x345 ![0, 0] (V (Proc.devRef .tc main_v11_1)) Facts₀.slices_S4096x384_S4096x345_0_0) (V (Proc.devRef .tc main_v61)) (V (Proc.devRef .tc main_arg1)) (V (Proc.devRef .tc main_arg2)) (V (Proc.devRef .tc main_arg3)) (V (Proc.devRef .tc main_v0)) := by
  rw [g5_res]
  rw [g4_pk, g4_keep_main_v0, g4_keep_main_v106, g4_keep_main_v110, g4_keep_main_v115, g4_keep_main_v120]
  rw [g3_col, g3_keep_main_v121, g3_keep_main_v0, g3_keep_main_v106, g3_keep_main_v110, g3_keep_main_v115, g3_keep_main_v120]
  rw [g2_logp, g2_keep_main_arg1, g2_keep_main_v0, g2_keep_main_v106, g2_keep_main_v110, g2_keep_main_v115, g2_keep_main_v120]
  rw [g1_out, g1_keep_main_arg1, g1_keep_main_v0, g1_m1, g1_m2, g1_m3, g1_m4]
  rfl

end Cert.KernelIdeal.StretchValue

end
-- ==== Proof.Logits.lean ====
/-
  Padding the classifier and slicing the result back changes nothing.

  The classifier's weight [2048, 345] and bias [345] are padded on the right to 384 columns, the dense layer is taken
  with the padded pair, and the first 345 columns of its result are kept.  Column `q < 345` of the padded weight is column
  `q` of the weight, and likewise for the bias, so the kept columns are the dense layer with the unpadded pair.
-/
import proofs.«110836_j8735963480633_2_alg».proof.Proof.Gen.KernelIdeal
import proofs.«110836_j8735963480633_2_alg».proof.Proof.Spec
import proofs.«110836_j8735963480633_2_alg».proof.Proof.HostStats
import Idealize.ShloMosaic.Lib.Pipeline.Value
import Idealize.ShloMosaic.Lib.KernelVsHost
import Idealize.ShloMosaic.Lib.ValueIdx

noncomputable section

namespace Cert.KernelIdeal.HostValue

open Cert.KernelIdeal Cert.KernelIdeal.Facts₀ Idealize.ShloMosaic Idealize.ShloMosaic.ValueIdx Cert.Spec

theorem slice_padded (Ft : Mat 4096 2048) (Wc : FVec Ideal S2048x345 .f32) (bc : FVec Ideal S345 .f32) (z : FVec Ideal S_ .f32) :
    extractStridedSlice S4096x345 ![0, 0]
      (dense Ft (pad S2048x384 ![0, 0] ![0, 39] ![0, 0] Wc z pads_S2048x345_S2048x384_000_0390 h_S_)
        (rowVec (shapeCast S1x384 (pad S384 ![0] ![39] ![0] bc z pads_S345_S384_0390 h_S_) shapeCasts_S384_S1x384)))
      slices_S4096x384_S4096x345_0_0
      = dense Ft Wc bc := by
  funext j
  obtain ⟨p, q, rfl⟩ : ∃ (p : Fin 4096) (q : Fin 345), j = ix2 p q := ⟨j 0, j 1, eq_ix2 j⟩
  have hq : q.val < 384 := lt_of_lt_of_le q.isLt (by decide)
  rw [extractStridedSlice_apply _ _ _ (ix2 p q) (ix2 p (⟨q.val, hq⟩ : Fin 384)) (fun a => by
    match a with
    | ⟨0, _⟩ => exact (Nat.zero_add _).symm
    | ⟨1, _⟩ => exact (Nat.zero_add _).symm)]
  rw [rowVec_shapeCast]
  unfold dense
  refine congrArg₂ (· + ·) (Finset.sum_congr rfl fun l _ => congrArg (Ft _ * ·) ?_) ?_
  · exact pad_apply_of_inside _ _ _ Wc z _ _ _ (ix2 l q) (fun a => by
      match a with
      | ⟨0, _⟩ => show l.val = 0 + l.val * (0 + 1); omega
      | ⟨1, _⟩ => show q.val = 0 + q.val * (0 + 1); omega)
  · exact pad_apply_of_inside _ _ _ bc z _ _ _ (ix1 q) (fun a => by
      match a with
      | ⟨0, _⟩ => show q.val = 0 + q.val * (0 + 1); omega)

end Cert.KernelIdeal.HostValue

end
-- ==== Proof.LibRealEntries.lean ====
/-
  Extended reals that are ordinary real numbers: a small general library.

  On the extended reals the laws of a field fail at the infinities (distributivity, cancellation), so an algebraic
  identity between two programs is proved for entries that are real numbers. This file has the predicate "is a
  real number", its closure under sum, difference, product, maximum and finite sums, the inclusion of the reals
  commuting with finite sums, an affine map folded into a dense layer (the batch-normalisation fold) as an identity
  between real numbers, the inverse square root of a positive real, and the accumulating scatter of real updates
  into a real array.
-/
import Idealize.ShloMosaic.PureOps.Ideal.Laws
import Idealize.ShloMosaic.Lib.ValueIdx

noncomputable section

namespace Cert.Proof.Spec

open Idealize.ShloMosaic

/-- An extended real that is an ordinary real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW joining the two programs: the batch-normalisation affine map applied after a dense layer equals the
    dense layer with the map folded into its weights and bias — for real numbers. -/
theorem bn_fold {ι : Type*} [Fintype ι] (h w : ι → EReal) (b mu g β rs : EReal)
    (hh : ∀ j, IsReal (h j)) (hw : ∀ j, IsReal (w j)) (hb : IsReal b) (hmu : IsReal mu) (hg : IsReal g)
    (hβ : IsReal β) (hrs : IsReal rs) :
    (∑ j, h j * (w j * (g * rs))) + ((b - mu) * (g * rs) + β) = (((∑ j, h j * w j) + b) - mu) * rs * g + β := by
  choose hr hhr using hh
  choose wr hwr using hw
  obtain ⟨b', rfl⟩ := hb
  obtain ⟨mu', rfl⟩ := hmu
  obtain ⟨g', rfl⟩ := hg
  obtain ⟨β', rfl⟩ := hβ
  obtain ⟨rs', rfl⟩ := hrs
  simp only [hhr, hwr, ← EReal.coe_mul, ← EReal.coe_add, ← EReal.coe_sub, ← coe_sum]
  congr 1
  rw [show ∑ j, hr j * (wr j * (g' * rs')) = (∑ j, hr j * wr j) * (g' * rs') from by
    rw [Finset.sum_mul]; exact Finset.sum_congr rfl fun j _ => by ring]
  ring

/-- `(σ² + ε)^(−1/2)` is a real number when the variance is a non-negative real and `ε` a positive one. -/
theorem rsqrt_real {v e : EReal} (hv : IsReal v) (hv0 : 0 ≤ v) (he : ∃ r : ℝ, 0 < r ∧ e = (r : EReal)) :
    IsReal (Ideal.rsqrt (v + e)) := by
  obtain ⟨a, rfl⟩ := hv
  obtain ⟨r, hr, rfl⟩ := he
  have ha : 0 ≤ a := by exact_mod_cast hv0
  rw [← EReal.coe_add, Ideal.rsqrt_coe, if_neg (by linarith), if_neg (ne_of_gt (by linarith))]
  exact ⟨_, rfl⟩

/-- A scatter-add of real updates into a real array is real (each entry is the old entry plus a finite sum of updates). -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

end Cert.Proof.Spec

end
-- ==== Proof.LibRsqrtLaw.lean ====
/-
  A GENERAL LEMMA FILE (it imports only the library): facts about the extended reals that join a product with a
  reciprocal square root to a quotient by a square root — what a normalisation written `d * rsqrt(var + c)` needs to
  meet one written `d / sqrt(var + c)`.  It states: a square of an extended real is non-negative
  (`mul_self_nonneg`), so is a finite sum of squares (`sum_mul_self_nonneg`) and its quotient by a positive real
  (`div_coe_nonneg`); a non-negative plus a positive real is positive (`add_coe_pos`); THE LAW
  `mul_rsqrt_eq_div_sqrt : 0 < v → d * rsqrt v = div d (sqrt v)` for every `d`, and the same with the variance spelt
  out (`mul_rsqrt_var_eq_div_sqrt`); and two float constants, `64.0` as the real `64` (`ofBits_64`) and the float
  nearest `1e-5` as a positive real (`ofBits_eps_pos`).  On the extended reals `d * rsqrt v = d / sqrt v` is FALSE in general (at `v = ⊥`, at `v = 0` and at
  negative `v` the two conventions part), but it holds for every `d`, infinite or not, as soon as `0 < v`:
  then `v` is `⊤` (both sides `d * 0`) or a positive real (both sides `d * (√v)⁻¹`).  A variance plus a positive
  constant is always such a `v`, because a square of an extended real is never negative — the infinities square
  to `⊤` — so a sum of squares, divided by a positive real, is non-negative whatever the summands are.  No
  finiteness of the summands is used anywhere.
-/
import Idealize.ShloMosaic.PureOps.Ideal

noncomputable section

namespace Cert.RsqrtLaw

open Idealize.ShloMosaic

/-- A square of an extended real is non-negative. -/
theorem mul_self_nonneg (d : EReal) : 0 ≤ d * d :=
  EReal.mul_nonneg_iff.2 ((le_total 0 d).imp (fun h => ⟨h, h⟩) (fun h => ⟨h, h⟩))

/-- A finite sum of squares of extended reals is non-negative. -/
theorem sum_mul_self_nonneg {ι : Type*} (s : Finset ι) (f : ι → EReal) : 0 ≤ ∑ i ∈ s, f i * f i :=
  Finset.sum_nonneg fun i _ => mul_self_nonneg (f i)

/-- The quotient of a non-negative extended real by a positive real is non-negative. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.2 (one_div_pos.2 hn).le)

/-- A non-negative extended real plus a positive real is positive. -/
theorem add_coe_pos {a : EReal} (ha : 0 ≤ a) {e : ℝ} (he : 0 < e) : 0 < a + (e : EReal) :=
  lt_of_lt_of_le (EReal.coe_pos.2 he) (le_add_of_nonneg_left ha)

/-- THE LAW: for a positive extended real `v`, the product with its reciprocal square root is the quotient by its
    square root, for every extended real `d`. -/
theorem mul_rsqrt_eq_div_sqrt (d : EReal) {v : EReal} (hv : 0 < v) :
    d * Ideal.rsqrt v = Ideal.div d (Ideal.sqrt v) := by
  induction v using EReal.rec with
  | bot => exact absurd hv (not_lt.2 bot_le)
  | top =>
    rw [Ideal.rsqrt_top, Ideal.sqrt_top, Ideal.div, if_neg (by simp), EReal.inv_top]
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hs), EReal.coe_inv]

/-- The same with the variance spelt out: `v` a sum of squares over a positive real, plus a positive real. -/
theorem mul_rsqrt_var_eq_div_sqrt {ι : Type*} (s : Finset ι) (f : ι → EReal) {n e : ℝ} (hn : 0 < n) (he : 0 < e)
    (d : EReal) :
    d * Ideal.rsqrt (Ideal.div (∑ i ∈ s, f i * f i) (n : EReal) + (e : EReal))
      = Ideal.div d (Ideal.sqrt (Ideal.div (∑ i ∈ s, f i * f i) (n : EReal) + (e : EReal))) :=
  mul_rsqrt_eq_div_sqrt d (add_coe_pos (div_coe_nonneg (sum_mul_self_nonneg s f) hn) he)

/-! ## The two float literals the law meets -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern `0x3727C5AC` (the float nearest `1e-5`) denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.RsqrtLaw

end
-- ==== Proof.Variance.lean ====
/-
  The one mathematical difference between the two programs, and why it does not matter.

  One program takes the column variance as the mean of the squares minus the square of the mean, cut below at zero; the
  other as the mean of the squared deviations from the mean. On real numbers
  `(1/n) Σ x² − ((1/n) Σ x)² = (1/n) Σ (x − m)²` with `m = (1/n) Σ x` and `n` the number of terms, and the right-hand
  side is a sum of squares over a positive number, so it is never negative and the cut at zero is the identity. On the
  extended reals the identity needs every entry to be a real number (it uses distributivity), so this file also shows
  that being real propagates through every layer: a dense layer of real data is real, so are column means and
  variances, the variance is non-negative so the variance plus the small positive constant is positive and its
  reciprocal square root is real, and so a batch normalisation, a rectifier and a whole hidden stage of real data are
  real. The conclusion: on real inputs the projection computed with either variance is the same function.
-/
import proofs.«110836_j8735963480633_2_alg».proof.Proof.Spec
import proofs.«110836_j8735963480633_2_alg».proof.Proof.LibRealEntries
import proofs.«110836_j8735963480633_2_alg».proof.Proof.LibRsqrtLaw

noncomputable section

namespace Cert.SpecLaws

open Idealize.ShloMosaic Idealize.ShloMosaic.ValueIdx Cert.Spec
open Cert.Proof.Spec (IsReal)

/-- The float zero is the real number 0. -/
theorem zero_eq : zero = 0 := Ideal.ofBits_zero_f32

/-- The float 4096.0 is the real number 4096. -/
theorem rows_eq : rows = ((4096 : ℝ) : EReal) := by
  unfold rows
  simp [Ideal.ofBits, Ideal.ieee, -EReal.coe_mul]; norm_num

/-- On real numbers the mean of the squares minus the squared mean is the mean squared deviation, when the divisor is
    the number of terms. -/
theorem real_var_identity {ι : Type*} [Fintype ι] (f : ι → ℝ) (n : ℝ) (hcard : (Fintype.card ι : ℝ) = n) (hn : n ≠ 0) :
    (∑ i, f i * f i) * (1 / n) - ((∑ i, f i) * (1 / n)) * ((∑ i, f i) * (1 / n))
      = (∑ i, (f i - (∑ i, f i) * (1 / n)) * (f i - (∑ i, f i) * (1 / n))) * (1 / n) := by
  have e : ∀ m : ℝ, (∑ i, (f i - m) * (f i - m)) = (∑ i, f i * f i) - 2 * m * (∑ i, f i) + n * (m * m) := by
    intro m
    have : ∀ i, (f i - m) * (f i - m) = f i * f i - 2 * m * f i + m * m := fun i => by ring
    simp only [this, Finset.sum_add_distrib, Finset.sum_sub_distrib, ← Finset.mul_sum, Finset.sum_const,
      Finset.card_univ, nsmul_eq_mul, hcard]
    ring
  rw [e]
  field_simp
  ring

/-- The two variances of a family of real numbers agree: the mean of the squares minus the squared mean is the mean
    squared deviation, which is non-negative, so cutting it below at zero changes nothing. -/
theorem var_agree {ι : Type*} [Fintype ι] (x : ι → EReal) (hx : ∀ i, IsReal (x i)) (n : ℝ)
    (hcard : (Fintype.card ι : ℝ) = n) (hn : 0 < n) :
    max (Ideal.div (0 + ∑ i, x i * x i) (n : EReal)
          - Ideal.div (0 + ∑ i, x i) (n : EReal) * Ideal.div (0 + ∑ i, x i) (n : EReal)) 0
      = Ideal.div (0 + ∑ i, (x i - Ideal.div (0 + ∑ i, x i) (n : EReal)) * (x i - Ideal.div (0 + ∑ i, x i) (n : EReal)))
          (n : EReal) := by
  choose f hf using hx
  simp only [hf, zero_add, Ideal.div_coe hn.ne', ← EReal.coe_mul, ← Cert.Proof.Spec.coe_sum, ← EReal.coe_sub]
  rw [real_var_identity f n hcard hn.ne']
  refine max_eq_left ?_
  rw [EReal.coe_nonneg]
  exact mul_nonneg (Finset.sum_nonneg fun i _ => mul_self_nonneg _) (one_div_pos.2 hn).le

/-- THE LAW joining the two programs: on a matrix of real numbers the two column variances agree. -/
theorem varSq_eq_varDev (P : Mat 4096 2048) (hP : ∀ j, ∃ r : ℝ, P j = (r : EReal)) : varSq P = varDev P := by
  funext j
  unfold varSq varDev colMean colSum
  rw [zero_eq, rows_eq]
  exact var_agree (fun i : Fin 4096 => P (ix2 i (j 0))) (fun i => hP _) 4096 (by simp) (by norm_num)

/-- A matrix or vector all of whose entries are real numbers. -/
def RealFn {α : Type} (f : α → EReal) : Prop := ∀ j, IsReal (f j)

theorem zero_real : IsReal zero := by rw [zero_eq]; exact IsReal.zero
theorem rows_real : IsReal rows := ⟨4096, rows_eq⟩

/-- The quotient of a real number by the number of rows is a real number. -/
theorem div_rows_real {x : EReal} (hx : IsReal x) : IsReal (Ideal.div x rows) := by
  rw [rows_eq, Ideal.div_coe (by norm_num : (4096 : ℝ) ≠ 0)]
  exact hx.mul ⟨_, rfl⟩

/-- A dense layer of real matrices and a real bias is real. -/
theorem dense_real {a k n : Nat} (X : Mat a k) (W : Mat k n) (b : Vect n) (hX : RealFn X) (hW : RealFn W)
    (hb : RealFn b) : RealFn (dense X W b) := fun j =>
  (IsReal.sum _ _ fun l _ => IsReal.mul (hX _) (hW _)).add (hb _)

/-- The column means of a real matrix are real. -/
theorem colMean_real {a n : Nat} (P : Mat a n) (hP : RealFn P) : RealFn (colMean P) := fun j =>
  div_rows_real (zero_real.add (IsReal.sum _ _ fun i _ => hP _))

/-- The mean squared deviation of the columns of a real matrix is real. -/
theorem varDev_real {a n : Nat} (P : Mat a n) (hP : RealFn P) : RealFn (varDev P) := fun j =>
  div_rows_real (zero_real.add (IsReal.sum _ _ fun i _ =>
    IsReal.mul ((hP _).sub (colMean_real P hP j)) ((hP _).sub (colMean_real P hP j))))

/-- The mean squared deviation is never negative (a sum of squares over a positive number). -/
theorem varDev_nonneg {a n : Nat} (P : Mat a n) (j) : 0 ≤ varDev P j := by
  unfold varDev
  rw [zero_eq, zero_add, rows_eq]
  exact Cert.RsqrtLaw.div_coe_nonneg
    (Cert.RsqrtLaw.sum_mul_self_nonneg Finset.univ fun i => P (ix2 i (j 0)) - colMean P j) (by norm_num)

/-- The normalising factor `(σ² + ε)^(-1/2)` of a real matrix is real: the variance is a non-negative real and the
    constant a positive one. -/
theorem rsqrt_varDev_real {a n : Nat} (P : Mat a n) (hP : RealFn P) (j) : IsReal (Ideal.rsqrt (varDev P j + eps)) :=
  Cert.Proof.Spec.rsqrt_real (varDev_real P hP j) (varDev_nonneg P j) Cert.RsqrtLaw.ofBits_eps_pos

/-- The rectifier of a real matrix is real. -/
theorem relu_real {a n : Nat} (P : Mat a n) (hP : RealFn P) : RealFn (relu P) := fun j =>
  IsReal.max (hP j) zero_real

/-- A batch normalisation (with the mean squared deviation) of a real matrix with real scale and shift is real. -/
theorem bn_varDev_real (P : Mat 4096 2048) (g be : Vect 2048) (hP : RealFn P) (hg : RealFn g) (hbe : RealFn be) :
    RealFn (bn varDev P g be) := fun j =>
  (((hg _).mul ((hP j).sub (colMean_real P hP _))).mul (rsqrt_varDev_real P hP _)).add (hbe _)

/-- One hidden stage (with the mean squared deviation) of real data is real. -/
theorem stage_varDev_real (P : Mat 4096 2048) (g be : Vect 2048) (W : Mat 2048 2048) (b : Vect 2048)
    (hP : RealFn P) (hg : RealFn g) (hbe : RealFn be) (hW : RealFn W) (hb : RealFn b) :
    RealFn (stage varDev P g be W b) :=
  dense_real _ W b (relu_real _ (bn_varDev_real P g be hP hg hbe)) hW hb

/-- On a real matrix the batch normalisations with the two variances agree. -/
theorem bn_varSq_eq (P : Mat 4096 2048) (g be : Vect 2048) (hP : RealFn P) : bn varSq P g be = bn varDev P g be := by
  unfold bn; rw [varSq_eq_varDev P hP]

/-- On a real matrix the hidden stages with the two variances agree. -/
theorem stage_varSq_eq (P : Mat 4096 2048) (g be : Vect 2048) (W : Mat 2048 2048) (b : Vect 2048) (hP : RealFn P) :
    stage varSq P g be W b = stage varDev P g be W b := by
  unfold stage; rw [bn_varSq_eq P g be hP]

/-- The first pre-activation of real data is real. -/
theorem pre1_real (X : Mat 4096 2048) (Wf : Mat 2048 2048) (bf : Vect 2048) (W1 : Mat 2048 2048) (b1 : Vect 2048)
    (hX : RealFn X) (hWf : RealFn Wf) (hbf : RealFn bf) (hW1 : RealFn W1) (hb1 : RealFn b1) :
    RealFn (pre1 X Wf bf W1 b1) :=
  dense_real _ W1 b1 (dense_real X Wf bf hX hWf hbf) hW1 hb1

/-- THE CONCLUSION: on real inputs the projection computed with either variance is the same. Each layer's
    pre-activation is real, so its two variances agree, so the next pre-activation is the same term. The last scale and
    shift need no hypothesis. -/
theorem proj_varSq_eq_varDev (X : Mat 4096 2048) (Wf : Mat 2048 2048) (bf : Vect 2048)
    (W1 : Mat 2048 2048) (b1 g1 be1 : Vect 2048) (W2 : Mat 2048 2048) (b2 g2 be2 : Vect 2048)
    (W3 : Mat 2048 2048) (b3 g3 be3 : Vect 2048)
    (hX : ∀ j, ∃ r : ℝ, X j = (r : EReal)) (hWf : ∀ j, ∃ r : ℝ, Wf j = (r : EReal))
    (hbf : ∀ j, ∃ r : ℝ, bf j = (r : EReal))
    (hW1 : ∀ j, ∃ r : ℝ, W1 j = (r : EReal)) (hb1 : ∀ j, ∃ r : ℝ, b1 j = (r : EReal))
    (hg1 : ∀ j, ∃ r : ℝ, g1 j = (r : EReal)) (hbe1 : ∀ j, ∃ r : ℝ, be1 j = (r : EReal))
    (hW2 : ∀ j, ∃ r : ℝ, W2 j = (r : EReal)) (hb2 : ∀ j, ∃ r : ℝ, b2 j = (r : EReal))
    (hg2 : ∀ j, ∃ r : ℝ, g2 j = (r : EReal)) (hbe2 : ∀ j, ∃ r : ℝ, be2 j = (r : EReal))
    (hW3 : ∀ j, ∃ r : ℝ, W3 j = (r : EReal)) (hb3 : ∀ j, ∃ r : ℝ, b3 j = (r : EReal)) :
    proj varSq X Wf bf W1 b1 g1 be1 W2 b2 g2 be2 W3 b3 g3 be3
      = proj varDev X Wf bf W1 b1 g1 be1 W2 b2 g2 be2 W3 b3 g3 be3 := by
  have h1 : RealFn (pre1 X Wf bf W1 b1) := pre1_real X Wf bf W1 b1 hX hWf hbf hW1 hb1
  have h2 : RealFn (stage varDev (pre1 X Wf bf W1 b1) g1 be1 W2 b2) :=
    stage_varDev_real _ g1 be1 W2 b2 h1 hg1 hbe1 hW2 hb2
  have h3 : RealFn (stage varDev (stage varDev (pre1 X Wf bf W1 b1) g1 be1 W2 b2) g2 be2 W3 b3) :=
    stage_varDev_real _ g2 be2 W3 b3 h2 hg2 hbe2 hW3 hb3
  unfold proj
  rw [stage_varSq_eq _ g1 be1 W2 b2 h1, stage_varSq_eq _ g2 be2 W3 b3 h2, bn_varSq_eq _ g3 be3 h3]

end Cert.SpecLaws

end
-- ==== Proof.KernelValue.lean ====
/-
  The idealized kernel program's result.

  When the last kernel region is left, the buffers hold the padded logits, the projection (with the variance as the mean
  of squares minus the squared mean), the integer argument vectors and the scalar `lam`; the closing host operations
  apply the tail function to the slice of the padded logits and to the rest.  The slice of the padded logits is the
  logits, and on real inputs the two variances agree, so the result is the tail function of the specification's logits
  and of its projection with the variance as the mean squared deviation: the form the reference's result has.
-/
import proofs.«110836_j8735963480633_2_alg».proof.Proof.Chain3
import proofs.«110836_j8735963480633_2_alg».proof.Proof.KernelTail
import proofs.«110836_j8735963480633_2_alg».proof.Proof.Logits
import proofs.«110836_j8735963480633_2_alg».proof.Proof.Variance

set_option maxRecDepth 16384

noncomputable section

namespace Cert.KernelIdeal.ChainValue

open Cert.KernelIdeal Cert.KernelIdeal.Gen Idealize.ShloMosaic Idealize.ShloMosaic.StableHlo Idealize.ShloMosaic.TcCoe Idealize.SL.Sem Cert.Spec

variable (m : (ℓ : Loc nD τ sig) → Buf (Elt Ideal) ℓ) (ρ : Dev nD → PrngReg) (c : Dev nD)

/-- The loss as the specification gives it, from the launch memory `m` of core `c`. -/
def lossOf : FVec Ideal S_ .f32 :=
  Cert.Tail.tail (logits (aX m c) (aWf m c) (abf m c) (aWc m c) (abc m c)) (proj varDev (aX m c) (aWf m c) (abf m c) (aW1 m c) (ab1 m c) (ag1 m c) (abe1 m c) (aW2 m c) (ab2 m c) (ag2 m c) (abe2 m c) (aW3 m c) (ab3 m c) (ag3 m c) (abe3 m c))
    (m ((c : Thread nD τ).loc main_arg1) : IVec S4096 32) (m ((c : Thread nD τ).loc main_arg2) : IVec S4096 32) (m ((c : Thread nD τ).loc main_arg3) : IVec S4096 32) (shapeCast S_ (m ((c : Thread nD τ).loc main_arg4) : FVec Ideal S1 .f32) Facts₀.shapeCasts_S1_S_)

/-- The result buffer at the end of the chain of segments holds the specification's loss, when the float inputs that
    reach a variance are real numbers. -/
theorem kernel_value (hX : ∀ j, ∃ r : ℝ, aX m c j = (r : EReal)) (hWf : ∀ j, ∃ r : ℝ, aWf m c j = (r : EReal)) (hbf : ∀ j, ∃ r : ℝ, abf m c j = (r : EReal)) (hW1 : ∀ j, ∃ r : ℝ, aW1 m c j = (r : EReal)) (hb1 : ∀ j, ∃ r : ℝ, ab1 m c j = (r : EReal)) (hg1 : ∀ j, ∃ r : ℝ, ag1 m c j = (r : EReal)) (hbe1 : ∀ j, ∃ r : ℝ, abe1 m c j = (r : EReal)) (hW2 : ∀ j, ∃ r : ℝ, aW2 m c j = (r : EReal)) (hb2 : ∀ j, ∃ r : ℝ, ab2 m c j = (r : EReal)) (hg2 : ∀ j, ∃ r : ℝ, ag2 m c j = (r : EReal)) (hbe2 : ∀ j, ∃ r : ℝ, abe2 m c j = (r : EReal)) (hW3 : ∀ j, ∃ r : ℝ, aW3 m c j = (r : EReal)) (hb3 : ∀ j, ∃ r : ℝ, ab3 m c j = (r : EReal)) :
    W17 m ρ c (Proc.devRef .tc main_v135) = lossOf m c := by
  show after (hostOps4_4 (F := Ideal)) (after (hostOps4_3 (F := Ideal)) (after (hostOps4_2 (F := Ideal)) (after (hostOps4_1 (F := Ideal))
      (after (hostOps4 (F := Ideal)) (W12 m ρ c))))) (Proc.devRef .tc main_v135) = _
  rw [StretchValue.tail_groups (W12 m ρ c)]
  rw [at12_outpad m ρ c, proj_value m ρ c, at12_arg1 m ρ c, at12_arg2 m ρ c, at12_arg3 m ρ c, at12_lam m ρ c]
  unfold paddedLogits
  rw [HostValue.slice_padded]
  rw [Cert.SpecLaws.proj_varSq_eq_varDev _ _ _ _ _ _ _ _ _ _ _ _ _ _ _ hX hWf hbf hW1 hb1 hg1 hbe1 hW2 hb2 hg2 hbe2 hW3 hb3]
  rfl

end Cert.KernelIdeal.ChainValue

end
-- ==== Proof.RefRun.lean ====
/-
  The reference program's run, and its result as the shared tail function of the specification's logits and projection.

  @main is a straight line of host operations, so every weakly fair execution terminates with each buffer holding what
  the line of operations leaves there.  The line is read in two parts.  The first 117 operations are the reference's own
  route to its projection and its logits: they leave in those two buffers the stage functions of the argument arrays.
  The last 132 operations are the ones the kernel program's host tail also applies: for any contents of the buffers
  they start from, they leave in the result buffer the tail function of the logits buffer, the projection buffer, the
  three integer vectors and the scalar.  Reading the two parts one after the other never forms the whole composed term.
-/
import proofs.«110836_j8735963480633_2_alg».proof.Proof.RefOps
import proofs.«110836_j8735963480633_2_alg».proof.Proof.ReadP
import proofs.«110836_j8735963480633_2_alg».proof.Proof.Tail
import proofs.«110836_j8735963480633_2_alg».proof.Proof.LibTypedRefs
import Idealize.ShloMosaic.PureOps.Ideal
import Idealize.ShloMosaic.Lib.StableHlo.Run

set_option maxRecDepth 16384

noncomputable section

namespace Cert.RefValue

open Cert.ReferenceIdeal Cert.ReferenceIdeal.Value Cert.ReferenceIdeal.Read Idealize.ShloMosaic Idealize.ShloMosaic.StableHlo Idealize.ShloMosaic.TcCoe Idealize.SL.Sem

/-- Reading a line of operations in two parts: the second part starts from what the first leaves. -/
theorem after_two (l1 l2 : List (HloOp τ sig (Elt Ideal))) (V : Valuation τ sig (Elt Ideal)) :
    after (l1 ++ l2) V = after l2 (after l1 V) := by
  induction l1 generalizing V with
  | nil => rfl
  | cons op l ih => exact ih _

set_option maxRecDepth 65536 in
set_option maxHeartbeats 40000000 in
/-- Every weakly fair execution of the reference's @main terminates without a fault, each buffer ending at what the
    line of operations leaves in it. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = after (ops (F := Ideal)) (launchContents m c) (Proc.devRef .tc b) :=
  run_seq scopedRefs_eq scopedSems_eq defs main (fun _ => ops) main_eq (fun _ => ops_sub) m ρ

section Parts
variable (V : Valuation τ sig (Elt Ideal))

/-! ## The first group: the shuffled rows, the blends and the four mean squared errors -/

set_option maxRecDepth 200000 in
set_option maxHeartbeats 40000000 in
theorem g1_out : after (tailOps1 (F := Ideal)) V (Proc.devRef .tc main_v97) = (V (Proc.devRef .tc main_v97)) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_m1 : after (tailOps1 (F := Ideal)) V (Proc.devRef .tc main_v141) = Cert.Tail.mseLogits (V (Proc.devRef .tc main_v97)) (Cert.Tail.logitRows (V (Proc.devRef .tc main_v97)) (V (Proc.devRef .tc main_arg2))) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_m2 : after (tailOps1 (F := Ideal)) V (Proc.devRef .tc main_v145) = Cert.Tail.mseLogits (V (Proc.devRef .tc main_v97)) (Cert.Tail.blendLogits (V (Proc.devRef .tc main_v0)) (Cert.Tail.logitRows (V (Proc.devRef .tc main_v97)) (V (Proc.devRef .tc main_arg2))) (Cert.Tail.logitRows (V (Proc.devRef .tc main_v97)) (V (Proc.devRef .tc main_arg3)))) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_m3 : after (tailOps1 (F := Ideal)) V (Proc.devRef .tc main_v150) = Cert.Tail.scaled (Cert.Tail.mseProj (V (Proc.devRef .tc main_v93)) (Cert.Tail.projRows (V (Proc.devRef .tc main_v93)) (V (Proc.devRef .tc main_arg2)))) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_m4 : after (tailOps1 (F := Ideal)) V (Proc.devRef .tc main_v155) = Cert.Tail.scaled (Cert.Tail.mseProj (V (Proc.devRef .tc main_v93)) (Cert.Tail.blendProj (V (Proc.devRef .tc main_v0)) (Cert.Tail.projRows (V (Proc.devRef .tc main_v93)) (V (Proc.devRef .tc main_arg2))) (Cert.Tail.projRows (V (Proc.devRef .tc main_v93)) (V (Proc.devRef .tc main_arg3))))) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_keep_main_v0 : after (tailOps1 (F := Ideal)) V (Proc.devRef .tc main_v0) = (V (Proc.devRef .tc main_v0)) := by
  dsimp only [tailOps1]; after_results_simp <;> (try simp only [Cert.TypedRefs.ofBuf_toBuf, Cert.TypedRefs.toBuf_ofBuf]) <;> rfl
set_option maxRecDepth 200000 in
set_option maxHeartbeats 40000000 in
theorem g1_keep_main_arg1 : after (tailOps1 (F := Ideal)) V (Proc.devRef .tc main_arg1) = (V (Proc.devRef .tc main_arg1)) := by
  dsimp only [tailOps1]; after_results_simp <;> (try simp only [Cert.TypedRefs.ofBuf_toBuf, Cert.TypedRefs.toBuf_ofBuf]) <;> rfl

/-! ## The second group: the row-wise log-softmax -/

set_option maxRecDepth 200000 in
set_option maxHeartbeats 40000000 in
theorem g2_logp : after (tailOps2 (F := Ideal)) V (Proc.devRef .tc main_v156) = Cert.Tail.logSoftmax (V (Proc.devRef .tc main_v97)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_v141 : after (tailOps2 (F := Ideal)) V (Proc.devRef .tc main_v141) = (V (Proc.devRef .tc main_v141)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_v145 : after (tailOps2 (F := Ideal)) V (Proc.devRef .tc main_v145) = (V (Proc.devRef .tc main_v145)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_v150 : after (tailOps2 (F := Ideal)) V (Proc.devRef .tc main_v150) = (V (Proc.devRef .tc main_v150)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_v155 : after (tailOps2 (F := Ideal)) V (Proc.devRef .tc main_v155) = (V (Proc.devRef .tc main_v155)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_v0 : after (tailOps2 (F := Ideal)) V (Proc.devRef .tc main_v0) = (V (Proc.devRef .tc main_v0)) := by
  dsimp only [tailOps2]; after_results_simp <;> (try simp only [Cert.TypedRefs.ofBuf_toBuf, Cert.TypedRefs.toBuf_ofBuf]) <;> rfl
set_option maxRecDepth 200000 in
set_option maxHeartbeats 40000000 in
theorem g2_keep_main_arg1 : after (tailOps2 (F := Ideal)) V (Proc.devRef .tc main_arg1) = (V (Proc.devRef .tc main_arg1)) := by
  dsimp only [tailOps2]; after_results_simp <;> (try simp only [Cert.TypedRefs.ofBuf_toBuf, Cert.TypedRefs.toBuf_ofBuf]) <;> rfl

/-! ## The third group: the labels as a column -/

set_option maxRecDepth 200000 in
set_option maxHeartbeats 40000000 in
theorem g3_col : after (tailOps3 (F := Ideal)) V (Proc.devRef .tc main_v157) = Cert.Tail.labelCol (V (Proc.devRef .tc main_arg1)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v156 : after (tailOps3 (F := Ideal)) V (Proc.devRef .tc main_v156) = (V (Proc.devRef .tc main_v156)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v141 : after (tailOps3 (F := Ideal)) V (Proc.devRef .tc main_v141) = (V (Proc.devRef .tc main_v141)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v145 : after (tailOps3 (F := Ideal)) V (Proc.devRef .tc main_v145) = (V (Proc.devRef .tc main_v145)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v150 : after (tailOps3 (F := Ideal)) V (Proc.devRef .tc main_v150) = (V (Proc.devRef .tc main_v150)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v155 : after (tailOps3 (F := Ideal)) V (Proc.devRef .tc main_v155) = (V (Proc.devRef .tc main_v155)) := by
  dsimp only [tailOps3]; after_results_simp <;> (try simp only [Cert.TypedRefs.ofBuf_toBuf, Cert.TypedRefs.toBuf_ofBuf]) <;> rfl
set_option maxRecDepth 200000 in
set_option maxHeartbeats 40000000 in
theorem g3_keep_main_v0 : after (tailOps3 (F := Ideal)) V (Proc.devRef .tc main_v0) = (V (Proc.devRef .tc main_v0)) := by
  dsimp only [tailOps3]; after_results_simp <;> (try simp only [Cert.TypedRefs.ofBuf_toBuf, Cert.TypedRefs.toBuf_ofBuf]) <;> rfl

/-! ## The fourth group: the label pick -/

set_option maxRecDepth 200000 in
set_option maxHeartbeats 40000000 in
theorem g4_pk : after (tailOps4 (F := Ideal)) V (Proc.devRef .tc main_v158) = Cert.Tail.picked (V (Proc.devRef .tc main_v156)) (V (Proc.devRef .tc main_v157)) := by
  dsimp only [tailOps4]; after_results_simp <;> (try simp only [Cert.TypedRefs.ofBuf_toBuf, Cert.TypedRefs.toBuf_ofBuf]) <;> rfl
set_option maxRecDepth 200000 in
set_option maxHeartbeats 40000000 in
theorem g4_keep_main_v141 : after (tailOps4 (F := Ideal)) V (Proc.devRef .tc main_v141) = (V (Proc.devRef .tc main_v141)) := by
  dsimp only [tailOps4]; after_results_simp <;> (try simp only [Cert.TypedRefs.ofBuf_toBuf, Cert.TypedRefs.toBuf_ofBuf]) <;> rfl
set_option maxRecDepth 200000 in
set_option maxHeartbeats 40000000 in
theorem g4_keep_main_v145 : after (tailOps4 (F := Ideal)) V (Proc.devRef .tc main_v145) = (V (Proc.devRef .tc main_v145)) := by
  dsimp only [tailOps4]; after_results_simp <;> (try simp only [Cert.TypedRefs.ofBuf_toBuf, Cert.TypedRefs.toBuf_ofBuf]) <;> rfl
set_option maxRecDepth 200000 in
set_option maxHeartbeats 40000000 in
theorem g4_keep_main_v150 : after (tailOps4 (F := Ideal)) V (Proc.devRef .tc main_v150) = (V (Proc.devRef .tc main_v150)) := by
  dsimp only [tailOps4]; after_results_simp <;> (try simp only [Cert.TypedRefs.ofBuf_toBuf, Cert.TypedRefs.toBuf_ofBuf]) <;> rfl
set_option maxRecDepth 200000 in
set_option maxHeartbeats 40000000 in
theorem g4_keep_main_v155 : after (tailOps4 (F := Ideal)) V (Proc.devRef .tc main_v155) = (V (Proc.devRef .tc main_v155)) := by
  dsimp only [tailOps4]; after_results_simp <;> (try simp only [Cert.TypedRefs.ofBuf_toBuf, Cert.TypedRefs.toBuf_ofBuf]) <;> rfl
set_option maxRecDepth 200000 in
set_option maxHeartbeats 40000000 in
theorem g4_keep_main_v0 : after (tailOps4 (F := Ideal)) V (Proc.devRef .tc main_v0) = (V (Proc.devRef .tc main_v0)) := by
  dsimp only [tailOps4]; after_results_simp <;> (try simp only [Cert.TypedRefs.ofBuf_toBuf, Cert.TypedRefs.toBuf_ofBuf]) <;> rfl

/-! ## The fifth group: the class loss and the final combination -/

set_option maxRecDepth 200000 in
set_option maxHeartbeats 40000000 in
theorem g5_res : after (tailOps5 (F := Ideal)) V (Proc.devRef .tc main_v170) = Cert.Tail.combine (Cert.Tail.classLoss (V (Proc.devRef .tc main_v158))) (V (Proc.devRef .tc main_v0)) (V (Proc.devRef .tc main_v141)) (V (Proc.devRef .tc main_v150)) (V (Proc.devRef .tc main_v145)) (V (Proc.devRef .tc main_v155)) := by
  dsimp only [tailOps5]; after_results_simp <;> (try simp only [Cert.TypedRefs.ofBuf_toBuf, Cert.TypedRefs.toBuf_ofBuf]) <;> rfl

/-! ## The five groups one after the other -/

set_option maxRecDepth 200000 in
set_option maxHeartbeats 40000000 in
/-- For any contents `V` of the buffers they start from, the five groups leave in the result buffer the tail function of the
    logits buffer, the projection buffer, the three integer vectors and the scalar. -/
theorem tail_groups :
    after (tailOps5 (F := Ideal)) (after (tailOps4 (F := Ideal)) (after (tailOps3 (F := Ideal)) (after (tailOps2 (F := Ideal))
        (after (tailOps1 (F := Ideal)) V)))) (Proc.devRef .tc main_v170)
      = Cert.Tail.tail (V (Proc.devRef .tc main_v97)) (V (Proc.devRef .tc main_v93)) (V (Proc.devRef .tc main_arg1)) (V (Proc.devRef .tc main_arg2)) (V (Proc.devRef .tc main_arg3)) (V (Proc.devRef .tc main_v0)) := by
  rw [g5_res]
  rw [g4_pk, g4_keep_main_v0, g4_keep_main_v141, g4_keep_main_v145, g4_keep_main_v150, g4_keep_main_v155]
  rw [g3_col, g3_keep_main_v156, g3_keep_main_v0, g3_keep_main_v141, g3_keep_main_v145, g3_keep_main_v150, g3_keep_main_v155]
  rw [g2_logp, g2_keep_main_arg1, g2_keep_main_v0, g2_keep_main_v141, g2_keep_main_v145, g2_keep_main_v150, g2_keep_main_v155]
  rw [g1_out, g1_keep_main_arg1, g1_keep_main_v0, g1_m1, g1_m2, g1_m3, g1_m4]
  rfl

/-- The last part of the line leaves the tail function of the buffers it starts from. -/
theorem tail_read :
    after (tailOps (F := Ideal)) V (Proc.devRef .tc main_v170)
      = Cert.Tail.tail (V (Proc.devRef .tc main_v97)) (V (Proc.devRef .tc main_v93)) (V (Proc.devRef .tc main_arg1)) (V (Proc.devRef .tc main_arg2)) (V (Proc.devRef .tc main_arg3)) (V (Proc.devRef .tc main_v0)) := by
  rw [tailOps_split, after_two, after_two, after_two, after_two]
  exact tail_groups V

/-! ## The first part of the line -/

set_option maxRecDepth 200000 in
set_option maxHeartbeats 40000000 in
/-- The first part leaves the logits stage in the logits buffer. -/
theorem head_logits :
    after (headOps (F := Ideal)) V (Proc.devRef .tc main_v97) = val_main_v97 (F := Ideal) (V (Proc.devRef .tc main_arg0)) (V (Proc.devRef .tc main_arg5)) (V (Proc.devRef .tc main_arg6)) (V (Proc.devRef .tc main_arg7)) (V (Proc.devRef .tc main_arg8)) := by
  dsimp only [headOps]
  after_results_simp
  rfl

set_option maxRecDepth 200000 in
set_option maxHeartbeats 40000000 in
/-- The first part leaves the projection stage in the projection buffer. -/
theorem head_proj :
    after (headOps (F := Ideal)) V (Proc.devRef .tc main_v93)
      = val_main_v93 (F := Ideal) (V (Proc.devRef .tc main_arg0)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  dsimp only [headOps]
  after_results_simp
  rfl

set_option maxRecDepth 200000 in
set_option maxHeartbeats 40000000 in
/-- The first part leaves the scalar `lam` in its buffer, and does not write the integer argument vectors. -/
theorem head_lam : after (headOps (F := Ideal)) V (Proc.devRef .tc main_v0) = val_main_v0 (F := Ideal) (V (Proc.devRef .tc main_arg4)) := by
  dsimp only [headOps]; after_results_simp <;> (try simp only [Cert.TypedRefs.ofBuf_toBuf, Cert.TypedRefs.toBuf_ofBuf]) <;> rfl

set_option maxRecDepth 200000 in
set_option maxHeartbeats 40000000 in
theorem head_arg1 : after (headOps (F := Ideal)) V (Proc.devRef .tc main_arg1) = (V (Proc.devRef .tc main_arg1)) := by
  dsimp only [headOps]; after_results_simp

set_option maxRecDepth 200000 in
set_option maxHeartbeats 40000000 in
theorem head_arg2 : after (headOps (F := Ideal)) V (Proc.devRef .tc main_arg2) = (V (Proc.devRef .tc main_arg2)) := by
  dsimp only [headOps]; after_results_simp

set_option maxRecDepth 200000 in
set_option maxHeartbeats 40000000 in
theorem head_arg3 : after (headOps (F := Ideal)) V (Proc.devRef .tc main_arg3) = (V (Proc.devRef .tc main_arg3)) := by
  dsimp only [headOps]; after_results_simp

end Parts

end Cert.RefValue

end
-- ==== Proof.RefArgs.lean ====
/-
  No operation of the reference's @main writes an argument array.  Every operation writes exactly one buffer, its
  result; the list below holds those 249 results, no argument is among them, and a buffer that no operation of a line
  writes holds after the line what it held before.
-/
import proofs.«110836_j8735963480633_2_alg».proof.Proof.RefOps
import Idealize.ShloMosaic.PureOps.Ideal
import Idealize.ShloMosaic.Lib.StableHlo.Run

set_option maxRecDepth 16384

noncomputable section

namespace Cert.RefValue

open Cert.ReferenceIdeal Cert.ReferenceIdeal.Value Idealize.ShloMosaic Idealize.ShloMosaic.StableHlo Idealize.ShloMosaic.TcCoe Idealize.SL.Sem

/-- The buffers the line's operations write: each operation's result, in order. -/
abbrev written : List (Ref sig .tc) :=
  [main_v0, main_v1, main_v2, main_v3, main_v4, main_v5, main_v6, main_v7, main_v8, main_cst, main_v9, main_cst_0, main_v10, main_v11, main_v12, main_v13, main_v14, main_v15, main_cst_1, main_v16, main_cst_2, main_v17, main_v18, main_v19, main_v20, main_v21, main_v22, main_v23, main_v24, main_cst_3, main_v25, main_v26, main_v27, main_v28, main_v29, main_v30, main_v31, main_v32, main_v33, main_call0_cst, main_call0_v0, main_v34, main_v35, main_v36, main_v37, main_v38, main_cst_4, main_v39, main_cst_5, main_v40, main_v41, main_v42, main_v43, main_v44, main_v45, main_cst_6, main_v46, main_cst_7, main_v47, main_v48, main_v49, main_v50, main_v51, main_v52, main_v53, main_v54, main_cst_8, main_v55, main_v56, main_v57, main_v58, main_v59, main_v60, main_v61, main_v62, main_v63, main_call1_cst, main_call1_v0, main_v64, main_v65, main_v66, main_v67, main_v68, main_cst_9, main_v69, main_cst_10, main_v70, main_v71, main_v72, main_v73, main_v74, main_v75, main_cst_11, main_v76, main_cst_12, main_v77, main_v78, main_v79, main_v80, main_v81, main_v82, main_v83, main_v84, main_cst_13, main_v85, main_v86, main_v87, main_v88, main_v89, main_v90, main_v91, main_v92, main_v93, main_v94, main_v95, main_v96, main_v97, main_c, main_v98, main_v99, main_c_14, main_v100, main_v101, main_v102, main_v103, main_v104, main_c_15, main_v105, main_v106, main_c_16, main_v107, main_v108, main_v109, main_v110, main_v111, main_v112, main_v113, main_cst_17, main_v114, main_c_18, main_v115, main_v116, main_c_19, main_v117, main_v118, main_v119, main_v120, main_v121, main_v122, main_v123, main_v124, main_v125, main_v126, main_cst_20, main_v127, main_c_21, main_v128, main_v129, main_c_22, main_v130, main_v131, main_v132, main_v133, main_v134, main_v135, main_v136, main_v137, main_v138, main_v139, main_cst_23, main_v140, main_cst_24, main_v141, main_v142, main_v143, main_cst_25, main_v144, main_cst_26, main_v145, main_v146, main_v147, main_cst_27, main_v148, main_cst_28, main_v149, main_cst_29, main_v150, main_v151, main_v152, main_cst_30, main_v153, main_cst_31, main_v154, main_cst_32, main_v155, main_call2_cst, main_call2_v0, main_call2_cst_0, main_call2_v1, main_call2_v2, main_call2_v3, main_call2_v4, main_call2_v5, main_call2_v6, main_call2_cst_1, main_call2_v7, main_call2_v8, main_call2_v9, main_call2_v10, main_v156, main_v157, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v158, main_cst_33, main_v159, main_cst_34, main_v160, main_v161, main_cst_35, main_v162, main_v163, main_v164, main_cst_36, main_v165, main_v166, main_v167, main_v168, main_v169, main_v170]

set_option maxRecDepth 200000 in
set_option maxHeartbeats 40000000 in
/-- Each operation writes only its result, which is in the list. -/
theorem ops_writes : (ops (F := Ideal)).Forall fun op => op.writes ⊆ (written.map (Proc.devRef (τ := τ) .tc)).toFinset := by
  dsimp only [ops]
  simp only [List.Forall]
  repeat' apply And.intro
  all_goals (simp only [nullary_writes, unary_writes, binary_writes, ternary_writes, quaternary_writes, reshape_writes,
    Finset.singleton_subset_iff, List.mem_toFinset]; exact List.mem_map_of_mem (by decide))

variable (V : Valuation τ sig (Elt Ideal))

theorem kept_arg0 : after (ops (F := Ideal)) V (Proc.devRef .tc main_arg0) = V (Proc.devRef .tc main_arg0) :=
  after_of_writes_sub ops V ops_writes (by decide)

theorem kept_arg1 : after (ops (F := Ideal)) V (Proc.devRef .tc main_arg1) = V (Proc.devRef .tc main_arg1) :=
  after_of_writes_sub ops V ops_writes (by decide)

theorem kept_arg2 : after (ops (F := Ideal)) V (Proc.devRef .tc main_arg2) = V (Proc.devRef .tc main_arg2) :=
  after_of_writes_sub ops V ops_writes (by decide)

theorem kept_arg3 : after (ops (F := Ideal)) V (Proc.devRef .tc main_arg3) = V (Proc.devRef .tc main_arg3) :=
  after_of_writes_sub ops V ops_writes (by decide)

theorem kept_arg4 : after (ops (F := Ideal)) V (Proc.devRef .tc main_arg4) = V (Proc.devRef .tc main_arg4) :=
  after_of_writes_sub ops V ops_writes (by decide)

theorem kept_arg5 : after (ops (F := Ideal)) V (Proc.devRef .tc main_arg5) = V (Proc.devRef .tc main_arg5) :=
  after_of_writes_sub ops V ops_writes (by decide)

theorem kept_arg6 : after (ops (F := Ideal)) V (Proc.devRef .tc main_arg6) = V (Proc.devRef .tc main_arg6) :=
  after_of_writes_sub ops V ops_writes (by decide)

theorem kept_arg7 : after (ops (F := Ideal)) V (Proc.devRef .tc main_arg7) = V (Proc.devRef .tc main_arg7) :=
  after_of_writes_sub ops V ops_writes (by decide)

theorem kept_arg8 : after (ops (F := Ideal)) V (Proc.devRef .tc main_arg8) = V (Proc.devRef .tc main_arg8) :=
  after_of_writes_sub ops V ops_writes (by decide)

theorem kept_arg9 : after (ops (F := Ideal)) V (Proc.devRef .tc main_arg9) = V (Proc.devRef .tc main_arg9) :=
  after_of_writes_sub ops V ops_writes (by decide)

theorem kept_arg10 : after (ops (F := Ideal)) V (Proc.devRef .tc main_arg10) = V (Proc.devRef .tc main_arg10) :=
  after_of_writes_sub ops V ops_writes (by decide)

theorem kept_arg11 : after (ops (F := Ideal)) V (Proc.devRef .tc main_arg11) = V (Proc.devRef .tc main_arg11) :=
  after_of_writes_sub ops V ops_writes (by decide)

theorem kept_arg12 : after (ops (F := Ideal)) V (Proc.devRef .tc main_arg12) = V (Proc.devRef .tc main_arg12) :=
  after_of_writes_sub ops V ops_writes (by decide)

theorem kept_arg13 : after (ops (F := Ideal)) V (Proc.devRef .tc main_arg13) = V (Proc.devRef .tc main_arg13) :=
  after_of_writes_sub ops V ops_writes (by decide)

theorem kept_arg14 : after (ops (F := Ideal)) V (Proc.devRef .tc main_arg14) = V (Proc.devRef .tc main_arg14) :=
  after_of_writes_sub ops V ops_writes (by decide)

theorem kept_arg15 : after (ops (F := Ideal)) V (Proc.devRef .tc main_arg15) = V (Proc.devRef .tc main_arg15) :=
  after_of_writes_sub ops V ops_writes (by decide)

theorem kept_arg16 : after (ops (F := Ideal)) V (Proc.devRef .tc main_arg16) = V (Proc.devRef .tc main_arg16) :=
  after_of_writes_sub ops V ops_writes (by decide)

theorem kept_arg17 : after (ops (F := Ideal)) V (Proc.devRef .tc main_arg17) = V (Proc.devRef .tc main_arg17) :=
  after_of_writes_sub ops V ops_writes (by decide)

theorem kept_arg18 : after (ops (F := Ideal)) V (Proc.devRef .tc main_arg18) = V (Proc.devRef .tc main_arg18) :=
  after_of_writes_sub ops V ops_writes (by decide)

theorem kept_arg19 : after (ops (F := Ideal)) V (Proc.devRef .tc main_arg19) = V (Proc.devRef .tc main_arg19) :=
  after_of_writes_sub ops V ops_writes (by decide)

theorem kept_arg20 : after (ops (F := Ideal)) V (Proc.devRef .tc main_arg20) = V (Proc.devRef .tc main_arg20) :=
  after_of_writes_sub ops V ops_writes (by decide)

end Cert.RefValue

end
-- ==== Proof.RefDense.lean ====
/-
  The reference's five dense layers, each read at an entry.

  A dense layer is a contraction followed by the addition of a bias vector that was first made a single row and then
  repeated down the 4096 rows.  At entry `(p, q)` the contraction is the sum over `k` of the left operand at `(p, k)`
  times the weight at `(k, q)`, and the repeated bias reads the vector at `q`; so the layer is the specification's
  `dense` of its input, its weight and its bias.  The input is kept as the stage that produced it: the features for the
  first projection layer and for the classifier, a rectified normalisation for the second and third projection layers.
-/
import proofs.«110836_j8735963480633_2_alg».proof.Proof.ReadP
import proofs.«110836_j8735963480633_2_alg».proof.Proof.Spec

noncomputable section

namespace Cert.RefValue

open Cert.ReferenceIdeal Cert.ReferenceIdeal.Gen Cert.ReferenceIdeal.Read Idealize.ShloMosaic Idealize.ShloMosaic.ValueIdx

/-- The features are the dense layer of the input batch. -/
theorem feat_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) :
    val_main_v4 (F := Ideal) x0 x5 x6 = Cert.Spec.dense x0 x5 x6 := by
  funext j
  obtain ⟨p, q, rfl⟩ : ∃ (p : Fin 4096) (q : Fin 2048), j = ix2 p q := ⟨j 0, j 1, eq_ix2 j⟩
  have hl : ∀ k : Fin 2048, lidx_main_v1 (ix2 p q) k = ix2 p k := fun k =>
    funext fun a => Fin.ext (by match a with | ⟨0, _⟩ => rfl | ⟨1, _⟩ => rfl)
  have hr : ∀ k : Fin 2048, ridx_main_v1 (ix2 p q) k = ix2 k q := fun k =>
    funext fun a => Fin.ext (by match a with | ⟨0, _⟩ => rfl | ⟨1, _⟩ => rfl)
  have hb : idx_main_v2 (idx_main_v3 (ix2 p q)) = ix1 q :=
    funext fun a => Fin.ext (by match a with | ⟨0, _⟩ => rfl)
  rw [val_main_v4_apply, val_main_v1_apply, val_main_v3_apply, val_main_v2_apply]
  simp only [hl, hr, hb, Ideal.addf_def]
  rfl

/-- The first pre-activation of the projection head is the dense layer of the features. -/
theorem pre1_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) :
    val_main_v8 (F := Ideal) x0 x5 x6 x9 x10 = Cert.Spec.dense (val_main_v4 (F := Ideal) x0 x5 x6) x9 x10 := by
  funext j
  obtain ⟨p, q, rfl⟩ : ∃ (p : Fin 4096) (q : Fin 2048), j = ix2 p q := ⟨j 0, j 1, eq_ix2 j⟩
  have hl : ∀ k : Fin 2048, lidx_main_v5 (ix2 p q) k = ix2 p k := fun k =>
    funext fun a => Fin.ext (by match a with | ⟨0, _⟩ => rfl | ⟨1, _⟩ => rfl)
  have hr : ∀ k : Fin 2048, ridx_main_v5 (ix2 p q) k = ix2 k q := fun k =>
    funext fun a => Fin.ext (by match a with | ⟨0, _⟩ => rfl | ⟨1, _⟩ => rfl)
  have hb : idx_main_v6 (idx_main_v7 (ix2 p q)) = ix1 q :=
    funext fun a => Fin.ext (by match a with | ⟨0, _⟩ => rfl)
  rw [val_main_v8_apply, val_main_v5_apply, val_main_v7_apply, val_main_v6_apply]
  simp only [hl, hr, hb, Ideal.addf_def]
  rfl

/-- The second pre-activation is the dense layer of the first rectified normalisation. -/
theorem pre2_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) :
    val_main_v38 (F := Ideal) x0 x5 x6 x9 x10 x11 x12 x13 x14 = Cert.Spec.dense (val_main_v34 (F := Ideal) x0 x5 x6 x9 x10 x11 x12) x13 x14 := by
  funext j
  obtain ⟨p, q, rfl⟩ : ∃ (p : Fin 4096) (q : Fin 2048), j = ix2 p q := ⟨j 0, j 1, eq_ix2 j⟩
  have hl : ∀ k : Fin 2048, lidx_main_v35 (ix2 p q) k = ix2 p k := fun k =>
    funext fun a => Fin.ext (by match a with | ⟨0, _⟩ => rfl | ⟨1, _⟩ => rfl)
  have hr : ∀ k : Fin 2048, ridx_main_v35 (ix2 p q) k = ix2 k q := fun k =>
    funext fun a => Fin.ext (by match a with | ⟨0, _⟩ => rfl | ⟨1, _⟩ => rfl)
  have hb : idx_main_v36 (idx_main_v37 (ix2 p q)) = ix1 q :=
    funext fun a => Fin.ext (by match a with | ⟨0, _⟩ => rfl)
  rw [val_main_v38_apply, val_main_v35_apply, val_main_v37_apply, val_main_v36_apply]
  simp only [hl, hr, hb, Ideal.addf_def]
  rfl

/-- The third pre-activation is the dense layer of the second rectified normalisation. -/
theorem pre3_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) :
    val_main_v68 (F := Ideal) x0 x5 x6 x9 x10 x11 x12 x13 x14 x15 x16 x17 x18 = Cert.Spec.dense (val_main_v64 (F := Ideal) x0 x5 x6 x9 x10 x11 x12 x13 x14 x15 x16) x17 x18 := by
  funext j
  obtain ⟨p, q, rfl⟩ : ∃ (p : Fin 4096) (q : Fin 2048), j = ix2 p q := ⟨j 0, j 1, eq_ix2 j⟩
  have hl : ∀ k : Fin 2048, lidx_main_v65 (ix2 p q) k = ix2 p k := fun k =>
    funext fun a => Fin.ext (by match a with | ⟨0, _⟩ => rfl | ⟨1, _⟩ => rfl)
  have hr : ∀ k : Fin 2048, ridx_main_v65 (ix2 p q) k = ix2 k q := fun k =>
    funext fun a => Fin.ext (by match a with | ⟨0, _⟩ => rfl | ⟨1, _⟩ => rfl)
  have hb : idx_main_v66 (idx_main_v67 (ix2 p q)) = ix1 q :=
    funext fun a => Fin.ext (by match a with | ⟨0, _⟩ => rfl)
  rw [val_main_v68_apply, val_main_v65_apply, val_main_v67_apply, val_main_v66_apply]
  simp only [hl, hr, hb, Ideal.addf_def]
  rfl

/-- The logits are the dense layer of the features with the classifier's weight and bias. -/
theorem logits_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x7 : (⟨S2048x345, .f32⟩ : BufTy).Contents (Elt Ideal)) (x8 : (⟨S345, .f32⟩ : BufTy).Contents (Elt Ideal)) :
    val_main_v97 (F := Ideal) x0 x5 x6 x7 x8 = Cert.Spec.dense (val_main_v4 (F := Ideal) x0 x5 x6) x7 x8 := by
  funext j
  obtain ⟨p, q, rfl⟩ : ∃ (p : Fin 4096) (q : Fin 345), j = ix2 p q := ⟨j 0, j 1, eq_ix2 j⟩
  have hl : ∀ k : Fin 2048, lidx_main_v94 (ix2 p q) k = ix2 p k := fun k =>
    funext fun a => Fin.ext (by match a with | ⟨0, _⟩ => rfl | ⟨1, _⟩ => rfl)
  have hr : ∀ k : Fin 2048, ridx_main_v94 (ix2 p q) k = ix2 k q := fun k =>
    funext fun a => Fin.ext (by match a with | ⟨0, _⟩ => rfl | ⟨1, _⟩ => rfl)
  have hb : idx_main_v95 (idx_main_v96 (ix2 p q)) = ix1 q :=
    funext fun a => Fin.ext (by match a with | ⟨0, _⟩ => rfl)
  rw [val_main_v97_apply, val_main_v94_apply, val_main_v96_apply, val_main_v95_apply]
  simp only [hl, hr, hb, Ideal.addf_def]
  rfl

/-- The reference's logits are the specification's: the classifier applied to the features. -/
theorem ref_logits (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x7 : (⟨S2048x345, .f32⟩ : BufTy).Contents (Elt Ideal)) (x8 : (⟨S345, .f32⟩ : BufTy).Contents (Elt Ideal)) :
    Cert.ReferenceIdeal.Read.val_main_v97 (F := Ideal) x0 x5 x6 x7 x8 = Cert.Spec.logits x0 x5 x6 x7 x8 := by
  rw [logits_eq, feat_eq]
  rfl

end Cert.RefValue

end
-- ==== Proof.RefNorm1.lean ====
/-
  The reference's first batch normalisation, read at an entry.

  Write `P` for the pre-activation the block normalises, `g` for its scale and `be` for its shift.  The block sums each
  column of `P` from the float zero and divides by the float 4096 (the column's mean), subtracts the mean from every entry,
  squares, sums each column again from the float zero and divides by the float 4096 (the mean squared deviation, the
  variance this program uses), adds the small constant and takes the reciprocal square root; the result at `(p, q)` is
  `g q * (P (p, q) - mean q) * rsqrt (variance q + small constant) + be q`.  Every vector of length 2048 that meets a
  matrix is first made a single row and then repeated down the 4096 rows, so at `(p, q)` it is read at `q`; a column sum
  at `q` runs over the entries `(k, q)`.  With these index identities each stage read at an entry is literally the
  specification's `bn` with the variance `varDev`.
-/
import proofs.«110836_j8735963480633_2_alg».proof.Proof.ReadP
import proofs.«110836_j8735963480633_2_alg».proof.Proof.Spec

noncomputable section

namespace Cert.RefValue

open Cert.ReferenceIdeal Cert.ReferenceIdeal.Gen Cert.ReferenceIdeal.Read Idealize.ShloMosaic Idealize.ShloMosaic.ValueIdx

/-- A vector made a single row and repeated down the rows reads, at `(p, q)`, the vector at `q`; a column sum at `q`
    runs over the entries `(k, q)`.  These are the index identities of this block's stages. -/
private theorem row_g (p : Fin 4096) (q : Fin 2048) : idx_main_v22 (idx_main_v23 (ix2 p q)) = ix1 q :=
  funext fun a => Fin.ext (by match a with | ⟨0, _⟩ => rfl)
private theorem row_be (p : Fin 4096) (q : Fin 2048) : idx_main_v31 (idx_main_v32 (ix2 p q)) = ix1 q :=
  funext fun a => Fin.ext (by match a with | ⟨0, _⟩ => rfl)
private theorem row_mean (p : Fin 4096) (q : Fin 2048) : idx_main_v19 (idx_main_v20 (ix2 p q)) = ix1 q :=
  funext fun a => Fin.ext (by match a with | ⟨0, _⟩ => rfl)
private theorem row_mean' (p : Fin 4096) (q : Fin 2048) : idx_main_v12 (idx_main_v13 (ix2 p q)) = ix1 q :=
  funext fun a => Fin.ext (by match a with | ⟨0, _⟩ => rfl)
private theorem row_rsqrt (p : Fin 4096) (q : Fin 2048) : idx_main_v28 (idx_main_v29 (ix2 p q)) = ix1 q :=
  funext fun a => Fin.ext (by match a with | ⟨0, _⟩ => rfl)
private theorem col_sum (q : Fin 2048) (k : Fin 4096) : idx_main_v9 (ix1 q) k = ix2 k q :=
  funext fun a => Fin.ext (by match a with | ⟨0, _⟩ => rfl | ⟨1, _⟩ => rfl)
private theorem col_sum' (q : Fin 2048) (k : Fin 4096) : idx_main_v16 (ix1 q) k = ix2 k q :=
  funext fun a => Fin.ext (by match a with | ⟨0, _⟩ => rfl | ⟨1, _⟩ => rfl)

/-- The first normalisation is the specification's batch normalisation, with the mean squared deviation as the
    variance, of the pre-activation it is applied to. -/
theorem norm1_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) :
    val_main_v33 (F := Ideal) x0 x5 x6 x9 x10 x11 x12
      = Cert.Spec.bn Cert.Spec.varDev (val_main_v8 (F := Ideal) x0 x5 x6 x9 x10) x11 x12 := by
  funext j
  obtain ⟨p, q, rfl⟩ : ∃ (p : Fin 4096) (q : Fin 2048), j = ix2 p q := ⟨j 0, j 1, eq_ix2 j⟩
  simp only [val_main_v33_apply, val_main_v30_apply, val_main_v32_apply, val_main_v31_apply, val_main_v24_apply, val_main_v29_apply, val_main_v28_apply, val_main_v27_apply, val_main_v26_apply, val_main_v25_apply, val_main_v18_apply, val_main_v17_apply, val_main_v16_apply, val_main_v15_apply, val_main_v14_apply, val_main_v13_apply, val_main_v12_apply, val_main_v11_apply, val_main_v10_apply, val_main_v9_apply, val_main_v23_apply, val_main_v22_apply, val_main_v21_apply, val_main_v20_apply, val_main_v19_apply, val_main_cst_apply, val_main_cst_0_apply, val_main_cst_1_apply, val_main_cst_2_apply, val_main_cst_3_apply,
    row_g, row_be, row_mean, row_mean', row_rsqrt, col_sum, col_sum',
    Ideal.addf_def, Ideal.subf_def, Ideal.mulf_def, Ideal.hostDivf_def, Ideal.hostUnary_rsqrt_def, Ideal.ofBits_def]
  rfl

/-- The rectifier after the first normalisation: the larger of the entry and the float zero. -/
theorem relu1_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) :
    val_main_v34 (F := Ideal) x0 x5 x6 x9 x10 x11 x12 = Cert.Spec.relu (val_main_v33 (F := Ideal) x0 x5 x6 x9 x10 x11 x12) := by
  funext j
  rw [val_main_v34_apply, val_main_call0_v0_apply, val_main_call0_cst_apply]
  simp only [Ideal.maximumf_def, Ideal.ofBits_def]
  rfl

end Cert.RefValue

end
-- ==== Proof.RefNorm2.lean ====
/-
  The reference's second batch normalisation, read at an entry.

  Write `P` for the pre-activation the block normalises, `g` for its scale and `be` for its shift.  The block sums each
  column of `P` from the float zero and divides by the float 4096 (the column's mean), subtracts the mean from every entry,
  squares, sums each column again from the float zero and divides by the float 4096 (the mean squared deviation, the
  variance this program uses), adds the small constant and takes the reciprocal square root; the result at `(p, q)` is
  `g q * (P (p, q) - mean q) * rsqrt (variance q + small constant) + be q`.  Every vector of length 2048 that meets a
  matrix is first made a single row and then repeated down the 4096 rows, so at `(p, q)` it is read at `q`; a column sum
  at `q` runs over the entries `(k, q)`.  With these index identities each stage read at an entry is literally the
  specification's `bn` with the variance `varDev`.
-/
import proofs.«110836_j8735963480633_2_alg».proof.Proof.ReadP
import proofs.«110836_j8735963480633_2_alg».proof.Proof.Spec

noncomputable section

namespace Cert.RefValue

open Cert.ReferenceIdeal Cert.ReferenceIdeal.Gen Cert.ReferenceIdeal.Read Idealize.ShloMosaic Idealize.ShloMosaic.ValueIdx

/-- A vector made a single row and repeated down the rows reads, at `(p, q)`, the vector at `q`; a column sum at `q`
    runs over the entries `(k, q)`.  These are the index identities of this block's stages. -/
private theorem row_g (p : Fin 4096) (q : Fin 2048) : idx_main_v52 (idx_main_v53 (ix2 p q)) = ix1 q :=
  funext fun a => Fin.ext (by match a with | ⟨0, _⟩ => rfl)
private theorem row_be (p : Fin 4096) (q : Fin 2048) : idx_main_v61 (idx_main_v62 (ix2 p q)) = ix1 q :=
  funext fun a => Fin.ext (by match a with | ⟨0, _⟩ => rfl)
private theorem row_mean (p : Fin 4096) (q : Fin 2048) : idx_main_v49 (idx_main_v50 (ix2 p q)) = ix1 q :=
  funext fun a => Fin.ext (by match a with | ⟨0, _⟩ => rfl)
private theorem row_mean' (p : Fin 4096) (q : Fin 2048) : idx_main_v42 (idx_main_v43 (ix2 p q)) = ix1 q :=
  funext fun a => Fin.ext (by match a with | ⟨0, _⟩ => rfl)
private theorem row_rsqrt (p : Fin 4096) (q : Fin 2048) : idx_main_v58 (idx_main_v59 (ix2 p q)) = ix1 q :=
  funext fun a => Fin.ext (by match a with | ⟨0, _⟩ => rfl)
private theorem col_sum (q : Fin 2048) (k : Fin 4096) : idx_main_v39 (ix1 q) k = ix2 k q :=
  funext fun a => Fin.ext (by match a with | ⟨0, _⟩ => rfl | ⟨1, _⟩ => rfl)
private theorem col_sum' (q : Fin 2048) (k : Fin 4096) : idx_main_v46 (ix1 q) k = ix2 k q :=
  funext fun a => Fin.ext (by match a with | ⟨0, _⟩ => rfl | ⟨1, _⟩ => rfl)

/-- The second normalisation is the specification's batch normalisation, with the mean squared deviation as the
    variance, of the pre-activation it is applied to. -/
theorem norm2_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048, .f32⟩ : BufTy).Contents (Elt Ideal)) (x16 : (⟨S2048, .f32⟩ : BufTy).Contents (Elt Ideal)) :
    val_main_v63 (F := Ideal) x0 x5 x6 x9 x10 x11 x12 x13 x14 x15 x16
      = Cert.Spec.bn Cert.Spec.varDev (val_main_v38 (F := Ideal) x0 x5 x6 x9 x10 x11 x12 x13 x14) x15 x16 := by
  funext j
  obtain ⟨p, q, rfl⟩ : ∃ (p : Fin 4096) (q : Fin 2048), j = ix2 p q := ⟨j 0, j 1, eq_ix2 j⟩
  simp only [val_main_v63_apply, val_main_v60_apply, val_main_v62_apply, val_main_v61_apply, val_main_v54_apply, val_main_v59_apply, val_main_v58_apply, val_main_v57_apply, val_main_v56_apply, val_main_v55_apply, val_main_v48_apply, val_main_v47_apply, val_main_v46_apply, val_main_v45_apply, val_main_v44_apply, val_main_v43_apply, val_main_v42_apply, val_main_v41_apply, val_main_v40_apply, val_main_v39_apply, val_main_v53_apply, val_main_v52_apply, val_main_v51_apply, val_main_v50_apply, val_main_v49_apply, val_main_cst_4_apply, val_main_cst_5_apply, val_main_cst_6_apply, val_main_cst_7_apply, val_main_cst_8_apply,
    row_g, row_be, row_mean, row_mean', row_rsqrt, col_sum, col_sum',
    Ideal.addf_def, Ideal.subf_def, Ideal.mulf_def, Ideal.hostDivf_def, Ideal.hostUnary_rsqrt_def, Ideal.ofBits_def]
  rfl

/-- The rectifier after the second normalisation: the larger of the entry and the float zero. -/
theorem relu2_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048, .f32⟩ : BufTy).Contents (Elt Ideal)) (x16 : (⟨S2048, .f32⟩ : BufTy).Contents (Elt Ideal)) :
    val_main_v64 (F := Ideal) x0 x5 x6 x9 x10 x11 x12 x13 x14 x15 x16 = Cert.Spec.relu (val_main_v63 (F := Ideal) x0 x5 x6 x9 x10 x11 x12 x13 x14 x15 x16) := by
  funext j
  rw [val_main_v64_apply, val_main_call1_v0_apply, val_main_call1_cst_apply]
  simp only [Ideal.maximumf_def, Ideal.ofBits_def]
  rfl

end Cert.RefValue

end
-- ==== Proof.RefNorm3.lean ====
/-
  The reference's third batch normalisation, read at an entry.

  Write `P` for the pre-activation the block normalises, `g` for its scale and `be` for its shift.  The block sums each
  column of `P` from the float zero and divides by the float 4096 (the column's mean), subtracts the mean from every entry,
  squares, sums each column again from the float zero and divides by the float 4096 (the mean squared deviation, the
  variance this program uses), adds the small constant and takes the reciprocal square root; the result at `(p, q)` is
  `g q * (P (p, q) - mean q) * rsqrt (variance q + small constant) + be q`.  Every vector of length 2048 that meets a
  matrix is first made a single row and then repeated down the 4096 rows, so at `(p, q)` it is read at `q`; a column sum
  at `q` runs over the entries `(k, q)`.  With these index identities each stage read at an entry is literally the
  specification's `bn` with the variance `varDev`.
-/
import proofs.«110836_j8735963480633_2_alg».proof.Proof.ReadP
import proofs.«110836_j8735963480633_2_alg».proof.Proof.Spec

noncomputable section

namespace Cert.RefValue

open Cert.ReferenceIdeal Cert.ReferenceIdeal.Gen Cert.ReferenceIdeal.Read Idealize.ShloMosaic Idealize.ShloMosaic.ValueIdx

/-- A vector made a single row and repeated down the rows reads, at `(p, q)`, the vector at `q`; a column sum at `q`
    runs over the entries `(k, q)`.  These are the index identities of this block's stages. -/
private theorem row_g (p : Fin 4096) (q : Fin 2048) : idx_main_v82 (idx_main_v83 (ix2 p q)) = ix1 q :=
  funext fun a => Fin.ext (by match a with | ⟨0, _⟩ => rfl)
private theorem row_be (p : Fin 4096) (q : Fin 2048) : idx_main_v91 (idx_main_v92 (ix2 p q)) = ix1 q :=
  funext fun a => Fin.ext (by match a with | ⟨0, _⟩ => rfl)
private theorem row_mean (p : Fin 4096) (q : Fin 2048) : idx_main_v79 (idx_main_v80 (ix2 p q)) = ix1 q :=
  funext fun a => Fin.ext (by match a with | ⟨0, _⟩ => rfl)
private theorem row_mean' (p : Fin 4096) (q : Fin 2048) : idx_main_v72 (idx_main_v73 (ix2 p q)) = ix1 q :=
  funext fun a => Fin.ext (by match a with | ⟨0, _⟩ => rfl)
private theorem row_rsqrt (p : Fin 4096) (q : Fin 2048) : idx_main_v88 (idx_main_v89 (ix2 p q)) = ix1 q :=
  funext fun a => Fin.ext (by match a with | ⟨0, _⟩ => rfl)
private theorem col_sum (q : Fin 2048) (k : Fin 4096) : idx_main_v69 (ix1 q) k = ix2 k q :=
  funext fun a => Fin.ext (by match a with | ⟨0, _⟩ => rfl | ⟨1, _⟩ => rfl)
private theorem col_sum' (q : Fin 2048) (k : Fin 4096) : idx_main_v76 (ix1 q) k = ix2 k q :=
  funext fun a => Fin.ext (by match a with | ⟨0, _⟩ => rfl | ⟨1, _⟩ => rfl)

/-- The third normalisation is the specification's batch normalisation, with the mean squared deviation as the
    variance, of the pre-activation it is applied to. -/
theorem norm3_eq (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048, .f32⟩ : BufTy).Contents (Elt Ideal)) (x20 : (⟨S2048, .f32⟩ : BufTy).Contents (Elt Ideal)) :
    val_main_v93 (F := Ideal) x0 x5 x6 x9 x10 x11 x12 x13 x14 x15 x16 x17 x18 x19 x20
      = Cert.Spec.bn Cert.Spec.varDev (val_main_v68 (F := Ideal) x0 x5 x6 x9 x10 x11 x12 x13 x14 x15 x16 x17 x18) x19 x20 := by
  funext j
  obtain ⟨p, q, rfl⟩ : ∃ (p : Fin 4096) (q : Fin 2048), j = ix2 p q := ⟨j 0, j 1, eq_ix2 j⟩
  simp only [val_main_v93_apply, val_main_v90_apply, val_main_v92_apply, val_main_v91_apply, val_main_v84_apply, val_main_v89_apply, val_main_v88_apply, val_main_v87_apply, val_main_v86_apply, val_main_v85_apply, val_main_v78_apply, val_main_v77_apply, val_main_v76_apply, val_main_v75_apply, val_main_v74_apply, val_main_v73_apply, val_main_v72_apply, val_main_v71_apply, val_main_v70_apply, val_main_v69_apply, val_main_v83_apply, val_main_v82_apply, val_main_v81_apply, val_main_v80_apply, val_main_v79_apply, val_main_cst_9_apply, val_main_cst_10_apply, val_main_cst_11_apply, val_main_cst_12_apply, val_main_cst_13_apply,
    row_g, row_be, row_mean, row_mean', row_rsqrt, col_sum, col_sum',
    Ideal.addf_def, Ideal.subf_def, Ideal.mulf_def, Ideal.hostDivf_def, Ideal.hostUnary_rsqrt_def, Ideal.ofBits_def]
  rfl

end Cert.RefValue

end
-- ==== Proof.RefProj.lean ====
/-
  The reference's projection, composed from its stages.

  The projection is the third normalisation of the third pre-activation; the third pre-activation is the dense layer of
  the rectified second normalisation of the second pre-activation; the second pre-activation is the dense layer of the
  rectified first normalisation of the first pre-activation; and the first pre-activation is the dense layer of the
  features.  Each link is one of the stage identities already proved, with the mean squared deviation as the variance
  throughout; chaining them gives the specification's `proj` at that variance.
-/
import proofs.«110836_j8735963480633_2_alg».proof.Proof.ReadP
import proofs.«110836_j8735963480633_2_alg».proof.Proof.Spec
import proofs.«110836_j8735963480633_2_alg».proof.Proof.RefDense
import proofs.«110836_j8735963480633_2_alg».proof.Proof.RefNorm1
import proofs.«110836_j8735963480633_2_alg».proof.Proof.RefNorm2
import proofs.«110836_j8735963480633_2_alg».proof.Proof.RefNorm3

noncomputable section

namespace Cert.RefValue

open Cert.ReferenceIdeal Cert.ReferenceIdeal.Gen Cert.ReferenceIdeal.Read Idealize.ShloMosaic Idealize.ShloMosaic.ValueIdx

/-- The reference's projection is the specification's, with the mean squared deviation as the column variance. -/
theorem ref_proj (x0 : (⟨S4096x2048, .f32⟩ : BufTy).Contents (Elt Ideal)) (x5 : (⟨S2048x2048, .f32⟩ : BufTy).Contents (Elt Ideal)) (x6 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048, .f32⟩ : BufTy).Contents (Elt Ideal)) (x20 : (⟨S2048, .f32⟩ : BufTy).Contents (Elt Ideal)) :
    Cert.ReferenceIdeal.Read.val_main_v93 (F := Ideal) x0 x5 x6 x9 x10 x11 x12 x13 x14 x15 x16 x17 x18 x19 x20
      = Cert.Spec.proj Cert.Spec.varDev x0 x5 x6 x9 x10 x11 x12 x13 x14 x15 x16 x17 x18 x19 x20 := by
  rw [norm3_eq, pre3_eq, relu2_eq, norm2_eq, pre2_eq, relu1_eq, norm1_eq, pre1_eq, feat_eq]
  rfl

end Cert.RefValue

end
-- ==== Proof.RefValue.lean ====
/-
  The reference's result: the shared tail function of the specification's logits and of its projection (with the
  variance as the mean squared deviation), of the three integer argument vectors and of the scalar `lam`.  The first
  part of the line leaves the stage functions of the arguments in the logits and projection buffers, those stages are
  the specification's formulas, and the last part applies the tail function to what it finds.
-/
import proofs.«110836_j8735963480633_2_alg».proof.Proof.RefRun
import proofs.«110836_j8735963480633_2_alg».proof.Proof.RefDense
import proofs.«110836_j8735963480633_2_alg».proof.Proof.RefProj

set_option maxRecDepth 16384

noncomputable section

namespace Cert.RefValue

open Cert.ReferenceIdeal Cert.ReferenceIdeal.Value Cert.ReferenceIdeal.Read Idealize.ShloMosaic Idealize.ShloMosaic.StableHlo Idealize.ShloMosaic.TcCoe Idealize.SL.Sem

variable (V : Valuation τ sig (Elt Ideal))

theorem ref_value :
    after (ops (F := Ideal)) V (Proc.devRef .tc main_v170)
      = Cert.Tail.tail (Cert.Spec.logits (V (Proc.devRef .tc main_arg0)) (V (Proc.devRef .tc main_arg5)) (V (Proc.devRef .tc main_arg6)) (V (Proc.devRef .tc main_arg7)) (V (Proc.devRef .tc main_arg8)))
          (Cert.Spec.proj Cert.Spec.varDev (V (Proc.devRef .tc main_arg0)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)))
          (V (Proc.devRef .tc main_arg1)) (V (Proc.devRef .tc main_arg2)) (V (Proc.devRef .tc main_arg3)) (val_main_v0 (F := Ideal) (V (Proc.devRef .tc main_arg4))) := by
  rw [ops_split, after_two, tail_read, head_logits, head_proj, head_lam, head_arg1, head_arg2, head_arg3, ref_logits, ref_proj]

end Cert.RefValue

end
-- ==== Proof.Finite.lean ====
/-
  From the precondition to real numbers.

  The precondition is the conjunction, over every float input, of "every entry has absolute value below plus
  infinity". On the extended reals an entry with |x| < +∞ is neither infinity, so it is a real number. This file reads
  the conjunction back, input by input, for the inputs the projection head and the featurizer use.
-/
import proofs.«110836_j8735963480633_2_alg».proof.Pre_finite_inputs
import proofs.«110836_j8735963480633_2_alg».proof.Proof.Gen.Pre_finite_inputs
import Idealize.ShloMosaic.Lib.ReduceAll
import Idealize.ShloMosaic.PureOps.Ideal.Laws
import Idealize.ShloMosaic.Lib.ValueIdx

noncomputable section

namespace Cert.Finite

open Idealize.ShloMosaic

instance : Subsingleton Cert.Pre_finite_inputs.S_.Idx := ⟨fun a b => funext fun d => d.elim0⟩

/-- The bit pattern `0x7F800000` is plus infinity. -/
theorem ofBits_inf : FloatOps.ofBits (F := Ideal) .f32 0x7F800000#32 = (⊤ : EReal) := by
  show Ideal.ofBits .f32 0x7F800000#32 = ⊤
  simp [Ideal.ofBits, Ideal.ieee]

/-- An extended real whose absolute value is below plus infinity is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  rw [ofBits_inf] at h
  change Ideal.cmp .olt (max (x : EReal) (-(x : EReal))) ⊤ = 1#1 at h
  unfold Ideal.cmp at h
  induction x using EReal.rec with
  | bot => simp at h
  | top => simp at h
  | coe r => exact ⟨r, rfl⟩

/-- `all (|x| < +∞)` over an array says that every entry of the array is a real number. -/
theorem real_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ j, ∃ r : ℝ, x j = (r : EReal) := fun j =>
  real_of_abs_lt_inf (x j) (Host.reduce_andi_all _ _ hr hu _ e j)

end Cert.Finite

namespace Cert.Finite

open Idealize.ShloMosaic Cert.Pre_finite_inputs

/-- Under the precondition every float input the projection and the classifier read is an array of real numbers. -/
theorem real_of_pre [Cert.Pre_finite_inputs.Facts]
    (a0 : FVec Ideal S4096x2048 .f32) (a1 a2 a3 : IVec S4096 32) (a4 : FVec Ideal S1 .f32)
    (a5 : FVec Ideal S2048x2048 .f32) (a6 : FVec Ideal S2048 .f32) (a7 : FVec Ideal S2048x345 .f32)
    (a8 : FVec Ideal S345 .f32) (a9 : FVec Ideal S2048x2048 .f32) (a10 a11 a12 : FVec Ideal S2048 .f32)
    (a13 : FVec Ideal S2048x2048 .f32) (a14 a15 a16 : FVec Ideal S2048 .f32)
    (a17 : FVec Ideal S2048x2048 .f32) (a18 a19 a20 : FVec Ideal S2048 .f32)
    (h : Cert.Pre_finite_inputs.fn (F := Ideal) a0 a1 a2 a3 a4 a5 a6 a7 a8 a9 a10 a11 a12 a13 a14 a15 a16 a17 a18 a19 a20
          = fun _ => 1#1) :
    (∀ j, ∃ r : ℝ, a0 j = (r : EReal)) ∧ (∀ j, ∃ r : ℝ, a5 j = (r : EReal)) ∧ (∀ j, ∃ r : ℝ, a6 j = (r : EReal))
      ∧ (∀ j, ∃ r : ℝ, a9 j = (r : EReal)) ∧ (∀ j, ∃ r : ℝ, a10 j = (r : EReal)) ∧ (∀ j, ∃ r : ℝ, a11 j = (r : EReal))
      ∧ (∀ j, ∃ r : ℝ, a12 j = (r : EReal)) ∧ (∀ j, ∃ r : ℝ, a13 j = (r : EReal)) ∧ (∀ j, ∃ r : ℝ, a14 j = (r : EReal))
      ∧ (∀ j, ∃ r : ℝ, a15 j = (r : EReal)) ∧ (∀ j, ∃ r : ℝ, a16 j = (r : EReal)) ∧ (∀ j, ∃ r : ℝ, a17 j = (r : EReal))
      ∧ (∀ j, ∃ r : ℝ, a18 j = (r : EReal)) := by
  have h0 := congrFun h ValueIdx.ix0
  dsimp only [fn, fn_part1, fn_part2, fn_part3, fn_part4, fn_part5, Idealize.ShloMosaic.andi] at h0
  simp only [IntOp.andi_eq_one] at h0
  obtain ⟨⟨⟨⟨⟨⟨⟨⟨⟨⟨⟨⟨⟨⟨⟨⟨⟨e0, _e4⟩, e5⟩, e6⟩, _e7⟩, _e8⟩, e9⟩, e10⟩, e11⟩, e12⟩, e13⟩, e14⟩, e15⟩, e16⟩, e17⟩, e18⟩, _e19⟩, _e20⟩ := h0
  exact ⟨real_of_all_finite a0 _ _ _ e0, real_of_all_finite a5 _ _ _ e5, real_of_all_finite a6 _ _ _ e6,
    real_of_all_finite a9 _ _ _ e9, real_of_all_finite a10 _ _ _ e10, real_of_all_finite a11 _ _ _ e11,
    real_of_all_finite a12 _ _ _ e12, real_of_all_finite a13 _ _ _ e13, real_of_all_finite a14 _ _ _ e14,
    real_of_all_finite a15 _ _ _ e15, real_of_all_finite a16 _ _ _ e16, real_of_all_finite a17 _ _ _ e17,
    real_of_all_finite a18 _ _ _ e18⟩

end Cert.Finite

end
-- ==== Proof.lean ====
/-
  The certificate of a fused projection-head kernel against its plain reference.

  Both programs take a batch `x` [4096, 2048] through a featurizer (a dense layer), a classifier on the features (the
  logits, [4096, 345]) and a projection head: three dense layers, each followed by a batch normalisation over the 4096
  rows, the first two also by a rectifier (the projection, [4096, 2048]).  From the logits, the projection, two row
  shuffles, the labels and a scalar `lam` both then compute one number by the same host operations: mean squared
  errors against shuffled and blended rows, a cross-entropy through a log-softmax, and their combination.

  The kernel program does the dense layers and normalisations in four kernel regions over blocks of rows, with the
  weights in a narrower float format, the classifier padded to 384 columns and sliced back, and the column variance
  taken as the mean of the squares minus the squared mean, cut below at zero; the reference takes the mean squared
  deviation.  At the exact instance a change of float format is the identity, a block-wise product is the product, the
  padded columns are never read, and on real inputs the two variances are the same number.  So both results are the
  same function of the arguments (`lossOf`): the kernel side by reading each region's output array as a whole-array
  function and each host stretch as a function of the buffers it starts from, the reference side by reading its line of
  operations in two parts.  The precondition (every float input finite) is used exactly once, for the variance.

  The frames: the two kernel programs' are the generated frame certificates; the reference's is its run, in which no
  operation writes an argument.  The kernel program's idealization rewrote no operation, so `preserves` is trivial.
-/
import proofs.«110836_j8735963480633_2_alg».proof.Defs
import proofs.«110836_j8735963480633_2_alg».proof.Proof.Gen.Kernel
import proofs.«110836_j8735963480633_2_alg».proof.Proof.Gen.Kernel.Skeleton
import proofs.«110836_j8735963480633_2_alg».proof.Proof.Gen.Kernel.Launch
import proofs.«110836_j8735963480633_2_alg».proof.Proof.Gen.Kernel.Points
import proofs.«110836_j8735963480633_2_alg».proof.Proof.Gen.Kernel.Frame
import proofs.«110836_j8735963480633_2_alg».proof.Proof.Gen.KernelIdeal
import proofs.«110836_j8735963480633_2_alg».proof.Proof.Gen.KernelIdeal.Skeleton
import proofs.«110836_j8735963480633_2_alg».proof.Proof.Gen.KernelIdeal.Launch
import proofs.«110836_j8735963480633_2_alg».proof.Proof.Gen.KernelIdeal.Points
import proofs.«110836_j8735963480633_2_alg».proof.Proof.Gen.KernelIdeal.Frame
import proofs.«110836_j8735963480633_2_alg».proof.Proof.Gen.ReferenceIdeal
import proofs.«110836_j8735963480633_2_alg».proof.Proof.Gen.Pre_finite_inputs
import proofs.«110836_j8735963480633_2_alg».proof.Proof.KernelRun
import proofs.«110836_j8735963480633_2_alg».proof.Proof.KernelValue
import proofs.«110836_j8735963480633_2_alg».proof.Proof.RefRun
import proofs.«110836_j8735963480633_2_alg».proof.Proof.RefArgs
import proofs.«110836_j8735963480633_2_alg».proof.Proof.RefValue
import proofs.«110836_j8735963480633_2_alg».proof.Proof.Finite
import Idealize.ShloMosaic.Adequacy
import Idealize.ShloMosaic.Init

set_option maxRecDepth 16384

noncomputable section

namespace Cert.Proof

open Idealize.ShloMosaic Idealize.ShloMosaic.StableHlo Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates, faults nowhere and leaves its arguments as launched: its run, with each argument buffer
    read after the whole line of operations. -/
theorem frame_referenceIdeal : Cert.frame_ReferenceIdeal := fun m ρ _ =>
  (θ_run Cert.ReferenceIdeal.defs _ _).mono (fun r h c =>
    ⟨(h c Cert.ReferenceIdeal.main_arg0).trans (Cert.RefValue.kept_arg0 _),
     (h c Cert.ReferenceIdeal.main_arg1).trans (Cert.RefValue.kept_arg1 _),
     (h c Cert.ReferenceIdeal.main_arg2).trans (Cert.RefValue.kept_arg2 _),
     (h c Cert.ReferenceIdeal.main_arg3).trans (Cert.RefValue.kept_arg3 _),
     (h c Cert.ReferenceIdeal.main_arg4).trans (Cert.RefValue.kept_arg4 _),
     (h c Cert.ReferenceIdeal.main_arg5).trans (Cert.RefValue.kept_arg5 _),
     (h c Cert.ReferenceIdeal.main_arg6).trans (Cert.RefValue.kept_arg6 _),
     (h c Cert.ReferenceIdeal.main_arg7).trans (Cert.RefValue.kept_arg7 _),
     (h c Cert.ReferenceIdeal.main_arg8).trans (Cert.RefValue.kept_arg8 _),
     (h c Cert.ReferenceIdeal.main_arg9).trans (Cert.RefValue.kept_arg9 _),
     (h c Cert.ReferenceIdeal.main_arg10).trans (Cert.RefValue.kept_arg10 _),
     (h c Cert.ReferenceIdeal.main_arg11).trans (Cert.RefValue.kept_arg11 _),
     (h c Cert.ReferenceIdeal.main_arg12).trans (Cert.RefValue.kept_arg12 _),
     (h c Cert.ReferenceIdeal.main_arg13).trans (Cert.RefValue.kept_arg13 _),
     (h c Cert.ReferenceIdeal.main_arg14).trans (Cert.RefValue.kept_arg14 _),
     (h c Cert.ReferenceIdeal.main_arg15).trans (Cert.RefValue.kept_arg15 _),
     (h c Cert.ReferenceIdeal.main_arg16).trans (Cert.RefValue.kept_arg16 _),
     (h c Cert.ReferenceIdeal.main_arg17).trans (Cert.RefValue.kept_arg17 _),
     (h c Cert.ReferenceIdeal.main_arg18).trans (Cert.RefValue.kept_arg18 _),
     (h c Cert.ReferenceIdeal.main_arg19).trans (Cert.RefValue.kept_arg19 _),
     (h c Cert.ReferenceIdeal.main_arg20).trans (Cert.RefValue.kept_arg20 _)⟩)
    (Cert.RefValue.ref_run m ρ)

theorem preserves : Cert.preserves_Kernel_KernelIdeal := trivial

/-- Both idealized programs end with the specification's loss of the (agreeing) arguments in their result buffers. -/
theorem algebraic : Cert.algebraic_KernelIdeal_ReferenceIdeal := by
  intro m ρ m' ρ' hpre hagree
  refine ⟨fun c => Cert.KernelIdeal.ChainValue.lossOf m c, ?_, ?_⟩
  · refine (θ_run Cert.KernelIdeal.defs _ _).mono (fun r h c => ?_) (Cert.KernelIdeal.RunValue.run_ends (F := Ideal) m ρ)
    obtain ⟨hX, hWf, hbf, hW1, hb1, hg1, hbe1, hW2, hb2, hg2, hbe2, hW3, hb3⟩ :=
      Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)
    exact ⟨(h c _ (Cert.KernelIdeal.Gen.mem_uc Cert.KernelIdeal.main_v135 (by decide))).trans
        (Cert.KernelIdeal.ChainValue.kernel_value m ρ c hX hWf hbf hW1 hb1 hg1 hbe1 hW2 hb2 hg2 hbe2 hW3 hb3),
      (h c _ (Cert.KernelIdeal.Gen.mem_uc Cert.KernelIdeal.main_arg0 (by decide))).trans (Cert.KernelIdeal.Gen.W17_main_arg0 m ρ c),
      (h c _ (Cert.KernelIdeal.Gen.mem_uc Cert.KernelIdeal.main_arg1 (by decide))).trans (Cert.KernelIdeal.Gen.W17_main_arg1 m ρ c),
      (h c _ (Cert.KernelIdeal.Gen.mem_uc Cert.KernelIdeal.main_arg2 (by decide))).trans (Cert.KernelIdeal.Gen.W17_main_arg2 m ρ c),
      (h c _ (Cert.KernelIdeal.Gen.mem_uc Cert.KernelIdeal.main_arg3 (by decide))).trans (Cert.KernelIdeal.Gen.W17_main_arg3 m ρ c),
      (h c _ (Cert.KernelIdeal.Gen.mem_uc Cert.KernelIdeal.main_arg4 (by decide))).trans (Cert.KernelIdeal.Gen.W17_main_arg4 m ρ c),
      (h c _ (Cert.KernelIdeal.Gen.mem_uc Cert.KernelIdeal.main_arg5 (by decide))).trans (Cert.KernelIdeal.Gen.W17_main_arg5 m ρ c),
      (h c _ (Cert.KernelIdeal.Gen.mem_uc Cert.KernelIdeal.main_arg6 (by decide))).trans (Cert.KernelIdeal.Gen.W17_main_arg6 m ρ c),
      (h c _ (Cert.KernelIdeal.Gen.mem_uc Cert.KernelIdeal.main_arg7 (by decide))).trans (Cert.KernelIdeal.Gen.W17_main_arg7 m ρ c),
      (h c _ (Cert.KernelIdeal.Gen.mem_uc Cert.KernelIdeal.main_arg8 (by decide))).trans (Cert.KernelIdeal.Gen.W17_main_arg8 m ρ c),
      (h c _ (Cert.KernelIdeal.Gen.mem_uc Cert.KernelIdeal.main_arg9 (by decide))).trans (Cert.KernelIdeal.Gen.W17_main_arg9 m ρ c),
      (h c _ (Cert.KernelIdeal.Gen.mem_uc Cert.KernelIdeal.main_arg10 (by decide))).trans (Cert.KernelIdeal.Gen.W17_main_arg10 m ρ c),
      (h c _ (Cert.KernelIdeal.Gen.mem_uc Cert.KernelIdeal.main_arg11 (by decide))).trans (Cert.KernelIdeal.Gen.W17_main_arg11 m ρ c),
      (h c _ (Cert.KernelIdeal.Gen.mem_uc Cert.KernelIdeal.main_arg12 (by decide))).trans (Cert.KernelIdeal.Gen.W17_main_arg12 m ρ c),
      (h c _ (Cert.KernelIdeal.Gen.mem_uc Cert.KernelIdeal.main_arg13 (by decide))).trans (Cert.KernelIdeal.Gen.W17_main_arg13 m ρ c),
      (h c _ (Cert.KernelIdeal.Gen.mem_uc Cert.KernelIdeal.main_arg14 (by decide))).trans (Cert.KernelIdeal.Gen.W17_main_arg14 m ρ c),
      (h c _ (Cert.KernelIdeal.Gen.mem_uc Cert.KernelIdeal.main_arg15 (by decide))).trans (Cert.KernelIdeal.Gen.W17_main_arg15 m ρ c),
      (h c _ (Cert.KernelIdeal.Gen.mem_uc Cert.KernelIdeal.main_arg16 (by decide))).trans (Cert.KernelIdeal.Gen.W17_main_arg16 m ρ c),
      (h c _ (Cert.KernelIdeal.Gen.mem_uc Cert.KernelIdeal.main_arg17 (by decide))).trans (Cert.KernelIdeal.Gen.W17_main_arg17 m ρ c),
      (h c _ (Cert.KernelIdeal.Gen.mem_uc Cert.KernelIdeal.main_arg18 (by decide))).trans (Cert.KernelIdeal.Gen.W17_main_arg18 m ρ c),
      (h c _ (Cert.KernelIdeal.Gen.mem_uc Cert.KernelIdeal.main_arg19 (by decide))).trans (Cert.KernelIdeal.Gen.W17_main_arg19 m ρ c),
      (h c _ (Cert.KernelIdeal.Gen.mem_uc Cert.KernelIdeal.main_arg20 (by decide))).trans (Cert.KernelIdeal.Gen.W17_main_arg20 m ρ c)⟩
  · refine (θ_run Cert.ReferenceIdeal.defs _ _).mono (fun r h c => ?_) (Cert.RefValue.ref_run m' ρ')
    refine ⟨(h c Cert.ReferenceIdeal.main_v170).trans ((Cert.RefValue.ref_value _).trans ?_),
      (h c Cert.ReferenceIdeal.main_arg0).trans (Cert.RefValue.kept_arg0 _),
      (h c Cert.ReferenceIdeal.main_arg1).trans (Cert.RefValue.kept_arg1 _),
      (h c Cert.ReferenceIdeal.main_arg2).trans (Cert.RefValue.kept_arg2 _),
      (h c Cert.ReferenceIdeal.main_arg3).trans (Cert.RefValue.kept_arg3 _),
      (h c Cert.ReferenceIdeal.main_arg4).trans (Cert.RefValue.kept_arg4 _),
      (h c Cert.ReferenceIdeal.main_arg5).trans (Cert.RefValue.kept_arg5 _),
      (h c Cert.ReferenceIdeal.main_arg6).trans (Cert.RefValue.kept_arg6 _),
      (h c Cert.ReferenceIdeal.main_arg7).trans (Cert.RefValue.kept_arg7 _),
      (h c Cert.ReferenceIdeal.main_arg8).trans (Cert.RefValue.kept_arg8 _),
      (h c Cert.ReferenceIdeal.main_arg9).trans (Cert.RefValue.kept_arg9 _),
      (h c Cert.ReferenceIdeal.main_arg10).trans (Cert.RefValue.kept_arg10 _),
      (h c Cert.ReferenceIdeal.main_arg11).trans (Cert.RefValue.kept_arg11 _),
      (h c Cert.ReferenceIdeal.main_arg12).trans (Cert.RefValue.kept_arg12 _),
      (h c Cert.ReferenceIdeal.main_arg13).trans (Cert.RefValue.kept_arg13 _),
      (h c Cert.ReferenceIdeal.main_arg14).trans (Cert.RefValue.kept_arg14 _),
      (h c Cert.ReferenceIdeal.main_arg15).trans (Cert.RefValue.kept_arg15 _),
      (h c Cert.ReferenceIdeal.main_arg16).trans (Cert.RefValue.kept_arg16 _),
      (h c Cert.ReferenceIdeal.main_arg17).trans (Cert.RefValue.kept_arg17 _),
      (h c Cert.ReferenceIdeal.main_arg18).trans (Cert.RefValue.kept_arg18 _),
      (h c Cert.ReferenceIdeal.main_arg19).trans (Cert.RefValue.kept_arg19 _),
      (h c Cert.ReferenceIdeal.main_arg20).trans (Cert.RefValue.kept_arg20 _)⟩
    obtain ⟨e0, e1, e2, e3, e4, e5, e6, e7, e8, e9, e10, e11, e12, e13, e14, e15, e16, e17, e18, e19, e20⟩ := hagree c
    have E0 : launchContents m' c (Proc.devRef .tc Cert.ReferenceIdeal.main_arg0) = m ((c.tc : Thread Cert.KernelIdeal.nD Cert.KernelIdeal.τ).loc Cert.KernelIdeal.main_arg0) := e0
    have E1 : launchContents m' c (Proc.devRef .tc Cert.ReferenceIdeal.main_arg1) = m ((c.tc : Thread Cert.KernelIdeal.nD Cert.KernelIdeal.τ).loc Cert.KernelIdeal.main_arg1) := e1
    have E2 : launchContents m' c (Proc.devRef .tc Cert.ReferenceIdeal.main_arg2) = m ((c.tc : Thread Cert.KernelIdeal.nD Cert.KernelIdeal.τ).loc Cert.KernelIdeal.main_arg2) := e2
    have E3 : launchContents m' c (Proc.devRef .tc Cert.ReferenceIdeal.main_arg3) = m ((c.tc : Thread Cert.KernelIdeal.nD Cert.KernelIdeal.τ).loc Cert.KernelIdeal.main_arg3) := e3
    have E4 : launchContents m' c (Proc.devRef .tc Cert.ReferenceIdeal.main_arg4) = m ((c.tc : Thread Cert.KernelIdeal.nD Cert.KernelIdeal.τ).loc Cert.KernelIdeal.main_arg4) := e4
    have E5 : launchContents m' c (Proc.devRef .tc Cert.ReferenceIdeal.main_arg5) = m ((c.tc : Thread Cert.KernelIdeal.nD Cert.KernelIdeal.τ).loc Cert.KernelIdeal.main_arg5) := e5
    have E6 : launchContents m' c (Proc.devRef .tc Cert.ReferenceIdeal.main_arg6) = m ((c.tc : Thread Cert.KernelIdeal.nD Cert.KernelIdeal.τ).loc Cert.KernelIdeal.main_arg6) := e6
    have E7 : launchContents m' c (Proc.devRef .tc Cert.ReferenceIdeal.main_arg7) = m ((c.tc : Thread Cert.KernelIdeal.nD Cert.KernelIdeal.τ).loc Cert.KernelIdeal.main_arg7) := e7
    have E8 : launchContents m' c (Proc.devRef .tc Cert.ReferenceIdeal.main_arg8) = m ((c.tc : Thread Cert.KernelIdeal.nD Cert.KernelIdeal.τ).loc Cert.KernelIdeal.main_arg8) := e8
    have E9 : launchContents m' c (Proc.devRef .tc Cert.ReferenceIdeal.main_arg9) = m ((c.tc : Thread Cert.KernelIdeal.nD Cert.KernelIdeal.τ).loc Cert.KernelIdeal.main_arg9) := e9
    have E10 : launchContents m' c (Proc.devRef .tc Cert.ReferenceIdeal.main_arg10) = m ((c.tc : Thread Cert.KernelIdeal.nD Cert.KernelIdeal.τ).loc Cert.KernelIdeal.main_arg10) := e10
    have E11 : launchContents m' c (Proc.devRef .tc Cert.ReferenceIdeal.main_arg11) = m ((c.tc : Thread Cert.KernelIdeal.nD Cert.KernelIdeal.τ).loc Cert.KernelIdeal.main_arg11) := e11
    have E12 : launchContents m' c (Proc.devRef .tc Cert.ReferenceIdeal.main_arg12) = m ((c.tc : Thread Cert.KernelIdeal.nD Cert.KernelIdeal.τ).loc Cert.KernelIdeal.main_arg12) := e12
    have E13 : launchContents m' c (Proc.devRef .tc Cert.ReferenceIdeal.main_arg13) = m ((c.tc : Thread Cert.KernelIdeal.nD Cert.KernelIdeal.τ).loc Cert.KernelIdeal.main_arg13) := e13
    have E14 : launchContents m' c (Proc.devRef .tc Cert.ReferenceIdeal.main_arg14) = m ((c.tc : Thread Cert.KernelIdeal.nD Cert.KernelIdeal.τ).loc Cert.KernelIdeal.main_arg14) := e14
    have E15 : launchContents m' c (Proc.devRef .tc Cert.ReferenceIdeal.main_arg15) = m ((c.tc : Thread Cert.KernelIdeal.nD Cert.KernelIdeal.τ).loc Cert.KernelIdeal.main_arg15) := e15
    have E16 : launchContents m' c (Proc.devRef .tc Cert.ReferenceIdeal.main_arg16) = m ((c.tc : Thread Cert.KernelIdeal.nD Cert.KernelIdeal.τ).loc Cert.KernelIdeal.main_arg16) := e16
    have E17 : launchContents m' c (Proc.devRef .tc Cert.ReferenceIdeal.main_arg17) = m ((c.tc : Thread Cert.KernelIdeal.nD Cert.KernelIdeal.τ).loc Cert.KernelIdeal.main_arg17) := e17
    have E18 : launchContents m' c (Proc.devRef .tc Cert.ReferenceIdeal.main_arg18) = m ((c.tc : Thread Cert.KernelIdeal.nD Cert.KernelIdeal.τ).loc Cert.KernelIdeal.main_arg18) := e18
    have E19 : launchContents m' c (Proc.devRef .tc Cert.ReferenceIdeal.main_arg19) = m ((c.tc : Thread Cert.KernelIdeal.nD Cert.KernelIdeal.τ).loc Cert.KernelIdeal.main_arg19) := e19
    have E20 : launchContents m' c (Proc.devRef .tc Cert.ReferenceIdeal.main_arg20) = m ((c.tc : Thread Cert.KernelIdeal.nD Cert.KernelIdeal.τ).loc Cert.KernelIdeal.main_arg20) := e20
    rw [E0, E1, E2, E3, E4, E5, E6, E7, E8, E9, E10, E11, E12, E13, E14, E15, E16, E17, E18, E19, E20]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
